-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100002x128 : Shape := ⟨2, ![100002, 128]⟩
abbrev S_ : Shape := ⟨0, ![]⟩

class Facts : Prop where
  bcast_S_S100002x128 : S_.BroadcastsInDim S100002x128 (![] : Fin 0 → Fin S100002x128.rank)
  reducesTo_S100002x128_S_d0_1 : S100002x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100002x128 .f32) : IVec S_ 1 :=
  let main_v0 : FVec F S100002x128 .f32 := Host.absf main_arg1
  let main_cst : FVec F S_ .f32 := constant S_ .f32 0x7F800000#32
  let main_v1 : FVec F S100002x128 .f32 := broadcastInDim S100002x128 ![] bcast_S_S100002x128 main_cst
  let main_v2 : IVec S100002x128 1 := cmpf .olt main_v0 main_v1
  let main_c : IVec S_ 1 := constantI S_ 1 1#1
  let main_v3 : IVec S_ 1 := (fun x v => Host.reduce IntOp.andi x v reducesTo_S100002x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 100001#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100002x128 : Shape := ⟨2, ![100002, 128]⟩
abbrev S32x400x64 : Shape := ⟨3, ![32, 400, 64]⟩
abbrev S819200x128 : Shape := ⟨2, ![819200, 128]⟩
abbrev S400x64 : Shape := ⟨2, ![400, 64]⟩
abbrev S8x64x128 : Shape := ⟨3, ![8, 64, 128]⟩
abbrev S_ : Shape := ⟨0, ![]⟩
abbrev S1x400x64 : Shape := ⟨3, ![1, 400, 64]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S100002x128, .f32⟩
  | .hbm, ⟨2, _⟩ => ⟨S32x400x64, .i32⟩
  | .hbm, ⟨3, _⟩ => ⟨S819200x128, .f32⟩
  | .hbm, ⟨4, _⟩ => ⟨S4096x200x128, .f32⟩
  | .local .scVector .vmem, ⟨0, _⟩ => ⟨S400x64, .i32⟩
  | .local .scVector .vmem, ⟨1, _⟩ => ⟨S8x64x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_220_r0 : BitVec 32 := 0#32
  let c0_i32_221_r0 : BitVec 32 := 0#32
  ![v1.toNat, 0, 0]
@[reducible] def k0_t1_loop : Scf.Loop 32 :=
  let c0_i32_49 : BitVec 32 := 0#32
  let c49_i32 : BitVec 32 := 49#32
  let v43 : BitVec 32 := Scalar.addi c0_i32_49 c49_i32
  let c1_i32_50 : BitVec 32 := 1#32
  ⟨c0_i32_49, v43, c1_i32_50⟩
def k0_off2 (k0_t1 : Fin k0_t1_loop.trips) (c0_i32_222 : BitVec 32) : Fin 2 → Nat :=
  let c0_i32_221 : BitVec 32 := 0#32
  let c0_i32_49 : BitVec 32 := 0#32
  let c1_i32_50 : BitVec 32 := 1#32
  let arg23 : BitVec 32 := Scf.iv c0_i32_49 c1_i32_50 k0_t1
  let c1_i32_220 : BitVec 32 := 1#32
  let v196 : BitVec 32 := Scalar.muli arg23 c1_i32_220
  let v197 : BitVec 32 := Scalar.addi c0_i32_221 v196
  let c8_i32 : BitVec 32 := 8#32
  let v198 : BitVec 32 := Scalar.muli v197 c8_i32
  let v199 : BitVec 32 := Scalar.addi v198 c0_i32_222
  let c0_i32_226 : BitVec 32 := 0#32
  ![v199.toNat, 0]
def k0_off3 (i : grid0.Coords) (k0_t1 : Fin k0_t1_loop.trips) (c0_i32_222 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_221 : BitVec 32 := 0#32
  let c0_i32_49 : BitVec 32 := 0#32
  let c1_i32_50 : BitVec 32 := 1#32
  let arg23 : BitVec 32 := Scf.iv c0_i32_49 c1_i32_50 k0_t1
  let c1_i32_220 : BitVec 32 := 1#32
  let v196 : BitVec 32 := Scalar.muli arg23 c1_i32_220
  let v197 : BitVec 32 := Scalar.addi c0_i32_221 v196
  let c8_i32 : BitVec 32 := 8#32
  let v198 : BitVec 32 := Scalar.muli v197 c8_i32
  let v199 : BitVec 32 := Scalar.addi v198 c0_i32_222
  let c64_i32 : BitVec 32 := 64#32
  let v205 : BitVec 32 := Scalar.muli v199 c64_i32
  let v206 : BitVec 32 := Scalar.addi v2 v205
  let c0_i32_232 : BitVec 32 := 0#32
  ![v206.toNat, 0]
def k0_off4 (k0_t1 : Fin k0_t1_loop.trips) (c0_i32_222 : BitVec 32) : Fin 2 → Nat :=
  let c0_i32_221 : BitVec 32 := 0#32
  let c0_i32_49 : BitVec 32 := 0#32
  let c1_i32_50 : BitVec 32 := 1#32
  let arg23 : BitVec 32 := Scf.iv c0_i32_49 c1_i32_50 k0_t1
  let c1_i32_220 : BitVec 32 := 1#32
  let v196 : BitVec 32 := Scalar.muli arg23 c1_i32_220
  let v197 : BitVec 32 := Scalar.addi c0_i32_221 v196
  let c8_i32 : BitVec 32 := 8#32
  let v198 : BitVec 32 := Scalar.muli v197 c8_i32
  let v199 : BitVec 32 := Scalar.addi v198 c0_i32_222
  let c8_i32_244 : BitVec 32 := 8#32
  let v221 : BitVec 32 := Scalar.addi v199 c8_i32_244
  let c0_i32_248 : BitVec 32 := 0#32
  ![v221.toNat, 0]
def k0_off5 (i : grid0.Coords) (c25088_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v49 : BitVec 32 := Scalar.addi v2 c25088_i32
  let c0_i32_61 : BitVec 32 := 0#32
  ![v49.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x400x64 : S4096x200.ShapeCasts S32x400x64
  squeezes_S1x400x64_S400x64 : S1x400x64.Squeezes S400x64
  inb_S8x64x128_S1x64x128_0_0_0 : ∀ a, (![0, 0, 0] : Fin 3 → Nat) a + S1x64x128.size a ≤ S8x64x128.size a
  squeezes_S1x64x128_S64x128 : S1x64x128.Squeezes S64x128
  inb_S400x64_S1x64_0_0 : ∀ a, (![0, 0] : Fin 2 → Nat) a + S1x64.size a ≤ S400x64.size a
  squeezes_S1x64_S64 : S1x64.Squeezes S64
  inb_S100002x128_S100002x128_0_0 : ∀ a, (![0, 0] : Fin 2 → Nat) a + S100002x128.size a ≤ S100002x128.size a
  gathers_S100002x128_S64x128 : S100002x128.Gathers 0 S64x128
  inb_S8x64x128_S1x64x128_1_0_0 : ∀ a, (![1, 0, 0] : Fin 3 → Nat) a + S1x64x128.size a ≤ S8x64x128.size a
  inb_S400x64_S1x64_1_0 : ∀ a, (![1, 0] : Fin 2 → Nat) a + S1x64.size a ≤ S400x64.size a
  inb_S8x64x128_S1x64x128_2_0_0 : ∀ a, (![2, 0, 0] : Fin 3 → Nat) a + S1x64x128.size a ≤ S8x64x128.size a
  inb_S400x64_S1x64_2_0 : ∀ a, (![2, 0] : Fin 2 → Nat) a + S1x64.size a ≤ S400x64.size a
  inb_S8x64x128_S1x64x128_3_0_0 : ∀ a, (![3, 0, 0] : Fin 3 → Nat) a + S1x64x128.size a ≤ S8x64x128.size a
  inb_S400x64_S1x64_3_0 : ∀ a, (![3, 0] : Fin 2 → Nat) a + S1x64.size a ≤ S400x64.size a
  inb_S8x64x128_S1x64x128_4_0_0 : ∀ a, (![4, 0, 0] : Fin 3 → Nat) a + S1x64x128.size a ≤ S8x64x128.size a
  inb_S400x64_S1x64_4_0 : ∀ a, (![4, 0] : Fin 2 → Nat) a + S1x64.size a ≤ S400x64.size a
  inb_S8x64x128_S1x64x128_5_0_0 : ∀ a, (![5, 0, 0] : Fin 3 → Nat) a + S1x64x128.size a ≤ S8x64x128.size a
  inb_S400x64_S1x64_5_0 : ∀ a, (![5, 0] : Fin 2 → Nat) a + S1x64.size a ≤ S400x64.size a
  inb_S8x64x128_S1x64x128_6_0_0 : ∀ a, (![6, 0, 0] : Fin 3 → Nat) a + S1x64x128.size a ≤ S8x64x128.size a
  inb_S400x64_S1x64_6_0 : ∀ a, (![6, 0] : Fin 2 → Nat) a + S1x64.size a ≤ S400x64.size a
  inb_S8x64x128_S1x64x128_7_0_0 : ∀ a, (![7, 0, 0] : Fin 3 → Nat) a + S1x64x128.size a ≤ S8x64x128.size a
  inb_S400x64_S1x64_7_0 : ∀ a, (![7, 0] : Fin 2 → Nat) a + S1x64.size a ≤ S400x64.size a
  inb_S400x64_S1x64_392_0 : ∀ a, (![392, 0] : Fin 2 → Nat) a + S1x64.size a ≤ S400x64.size a
  inb_S400x64_S1x64_393_0 : ∀ a, (![393, 0] : Fin 2 → Nat) a + S1x64.size a ≤ S400x64.size a
  inb_S400x64_S1x64_394_0 : ∀ a, (![394, 0] : Fin 2 → Nat) a + S1x64.size a ≤ S400x64.size a
  inb_S400x64_S1x64_395_0 : ∀ a, (![395, 0] : Fin 2 → Nat) a + S1x64.size a ≤ S400x64.size a
  inb_S400x64_S1x64_396_0 : ∀ a, (![396, 0] : Fin 2 → Nat) a + S1x64.size a ≤ S400x64.size a
  inb_S400x64_S1x64_397_0 : ∀ a, (![397, 0] : Fin 2 → Nat) a + S1x64.size a ≤ S400x64.size a
  inb_S400x64_S1x64_398_0 : ∀ a, (![398, 0] : Fin 2 → Nat) a + S1x64.size a ≤ S400x64.size a
  inb_S400x64_S1x64_399_0 : ∀ a, (![399, 0] : Fin 2 → Nat) a + S1x64.size a ≤ S400x64.size a
  shapeCasts_S819200x128_S4096x200x128 : S819200x128.ShapeCasts S4096x200x128
  hcc0_scratch2 : 0 + S_.numel ≤ 17
  hcc0_scratch3 : 1 + S_.numel ≤ 17
  hcc0_scratch4 : 2 + S_.numel ≤ 17
  hcc0_scratch5 : 3 + S_.numel ≤ 17
  hcc0_scratch6 : 4 + S_.numel ≤ 17
  hcc0_scratch7 : 5 + S_.numel ≤ 17
  hcc0_scratch8 : 6 + S_.numel ≤ 17
  hcc0_scratch9 : 7 + S_.numel ≤ 17
  hcc0_scratch10 : 8 + S_.numel ≤ 17
  hcc0_scratch11 : 9 + S_.numel ≤ 17
  hcc0_scratch12 : 10 + S_.numel ≤ 17
  hcc0_scratch13 : 11 + S_.numel ≤ 17
  hcc0_scratch14 : 12 + S_.numel ≤ 17
  hcc0_scratch15 : 13 + S_.numel ≤ 17
  hcc0_scratch16 : 14 + S_.numel ≤ 17
  hcc0_scratch17 : 15 + S_.numel ≤ 17
  hcc0_scoped0 : 16 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x400x64.size a ≤ S32x400x64.size a
  k0_t1_ok : k0_t1_loop.OK
  k0_off2_inb : ∀ k0_t1 : Fin k0_t1_loop.trips, ∀ (r : Fin 8), ∀ a, (k0_off2 k0_t1 (BitVec.ofNat 32 r.val)) a + S1x64.size a ≤ S400x64.size a
  k0_off3_inb : ∀ (i : grid0.Coords) (k0_t1 : Fin k0_t1_loop.trips), ∀ (r : Fin 8), ∀ a, (k0_off3 i k0_t1 (BitVec.ofNat 32 r.val)) a + S64x128.size a ≤ S819200x128.size a
  k0_off4_inb : ∀ k0_t1 : Fin k0_t1_loop.trips, ∀ (r : Fin 8), ∀ a, (k0_off4 k0_t1 (BitVec.ofNat 32 r.val)) a + S1x64.size a ≤ S400x64.size a
  k0_off5_inb : ∀ i : grid0.Coords, ∀ (r : Fin 8), ∀ a, (k0_off5 i (BitVec.ofNat 32 (25088 + 64 * r.val))) a + S64x128.size a ≤ S819200x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scratch16 : DmaSems sig S_ := SemArray.consecutive 14 S_ hcc0_scratch16
abbrev cc0_scratch17 : DmaSems sig S_ := SemArray.consecutive 15 S_ hcc0_scratch17
abbrev cc0_scoped0 : DmaSems sig S_ := SemArray.consecutive 16 S_ hcc0_scoped0

class Facts : Prop extends Facts₀ where

variable [Facts]
-- ==== ReferenceIdeal.lean ====
abbrev S4096x200 : Shape := ⟨2, ![4096, 200]⟩
abbrev S100002x128 : Shape := ⟨2, ![100002, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100002x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S100002x128_S4096x200x1_S4096x200x128_2_0_n_n_0_2_1128_wf : GatherDims.WF S100002x128 S4096x200x1 S4096x200x128 [2] [0] [] [0] [] 2 ![1, 128]

variable [Facts₀]

def gather_S100002x128_S4096x200x1_S4096x200x128_2_0_n_n_0_2_1128 : GatherDims S100002x128 S4096x200x1 S4096x200x128 where
  offsetDims := [2]
  collapsedSliceDims := [0]
  operandBatchingDims := []
  startIndicesBatchingDims := []
  startIndexMap := [0]
  indexVectorDim := 2
  sliceSizes := ![1, 128]
  wf := gather_S100002x128_S4096x200x1_S4096x200x128_2_0_n_n_0_2_1128_wf

class Facts : Prop extends Facts₀ where

variable [Facts]
-- ==== Proof.Spec.lean ====
/-
  The specification of an embedding lookup, with no program in sight: a table of 100002 rows of 128 columns, a
  4096 × 200 array of row numbers, and the result's entry (b, h, c) the table's entry (x[b, h], c). Two layouts of
  the same rows are named: the lookup as the reference returns it (rank 3), and the 819200 rows laid out flat, row
  r being the row named by entry r of the index list read as 32 lists of 400 chunks of 64 (how the kernel's
  thirty-two vector subcores divide the work). That the flat layout, re-read as rank 3, is the lookup is an
  equation between indices in row-major order (LookupLayout.lean).
-/
import Idealize.ShloMosaic.PureOps
import Idealize.ShloMosaic.Lib.ValueIdx

noncomputable section

namespace Cert.Emb

open Idealize.ShloMosaic Idealize.ShloMosaic.ValueIdx

abbrev SX : Shape := ⟨2, ![4096, 200]⟩
abbrev ST : Shape := ⟨2, ![100002, 128]⟩
abbrev SI : Shape := ⟨3, ![32, 400, 64]⟩
abbrev SO : Shape := ⟨2, ![819200, 128]⟩
abbrev SR : Shape := ⟨3, ![4096, 200, 128]⟩

variable {α : Type}

/-- The row number a word names: the word itself when it is below 100002, row 0 otherwise (never met under the
    precondition, which bounds every word by 100001). -/
def rowOf (w : BitVec 32) : Fin 100002 := ⟨if w.toNat < 100002 then w.toNat else 0, by split <;> omega⟩

theorem rowOf_val {w : BitVec 32} (h : w.toNat < 100002) : (rowOf w).val = w.toNat := if_pos h

/-- Column `col` of the table row the word `w` names. -/
def rowAt (t : ST.Idx → α) (w : BitVec 32) (col : Fin 128) : α := t (ix2 (rowOf w) col)

/-- The lookup: entry (b, h, c) is column c of the row x[b, h] names. -/
def take (x : SX.Idx → BitVec 32) (t : ST.Idx → α) : SR.Idx → α :=
  fun i => rowAt t (x (ix2 (i 0) (i 1))) (i 2)

/-- Entry `r` of the index list read as 32 × 400 × 64, row-major. -/
def flatIx (r : Fin 819200) : SI.Idx :=
  ix3 (⟨r.val / 25600, by have := r.isLt; omega⟩ : Fin 32) (⟨r.val % 25600 / 64, by omega⟩ : Fin 400) (⟨r.val % 64, by omega⟩ : Fin 64)

/-- The same rows laid out flat: row r is the row named by entry r of the index list. -/
def gath (fi : SI.Idx → BitVec 32) (t : ST.Idx → α) : SO.Idx → α :=
  fun i => rowAt t (fi (flatIx (i 0))) (i 1)

end Cert.Emb

end
-- ==== Proof.KI.Base.lean ====
/-
  The embedding-lookup kernel as its proof names it: the program as the SparseCore launch theorem sees it, the five
  HBM arrays (row numbers x, table, the row numbers re-read as 32 × 400 × 64, the 819200 gathered rows, the result),
  and the pieces of them a vector subcore works on. Subcore s of SparseCore c is worker w = 2 s + c: it owns list w
  of the 32 index lists and rows [25600 w, 25600 (w + 1)) of the gathered rows, and it reads the table, of which
  every worker holds a read share. Element sets are given by conditions on the row coordinate, never enumerated.
-/
import proofs.«206746_g85272280694944_cont_9to1c4b_772_17_alg».proof.Defs
import proofs.«206746_g85272280694944_cont_9to1c4b_772_17_alg».proof.Proof.Gen.KernelIdeal
import proofs.«206746_g85272280694944_cont_9to1c4b_772_17_alg».proof.Proof.Gen.KernelIdeal.Skeleton
import proofs.«206746_g85272280694944_cont_9to1c4b_772_17_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev 𝕄' (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-! ## A worker's pieces -/

/-- List `w` of the 32 index lists: the elements whose first coordinate is `w`. -/
def iRowSet (w : ℕ) : Finset S32x400x64.Idx := Finset.univ.filter fun i => (i 0).val = w

/-- Rows `lo ≤ r < hi` of the gathered rows, all 128 columns. -/
def oRows (lo hi : ℕ) : Finset S819200x128.Idx := Finset.univ.filter fun i => lo ≤ (i 0).val ∧ (i 0).val < hi

theorem mem_iRowSet {w : ℕ} {i : S32x400x64.Idx} : i ∈ iRowSet w ↔ (i 0).val = w := by
  simp [iRowSet]
theorem mem_oRows {lo hi : ℕ} {i : S819200x128.Idx} : i ∈ oRows lo hi ↔ lo ≤ (i 0).val ∧ (i 0).val < hi := by
  simp [oRows]

/-- Worker `w`'s read share of the table: the full share's token number `w` of 32. -/
abbrev tq (w : ℕ) : PosShare TreeShare := Transfers.shareTokN fullShare w

variable [FloatOps F]

/-- List `w` of the index lists, outright, at contents `fi`. -/
abbrev iRowPts (d : Dev nD) (w : ℕ) (fi : Buf (Elt F) (iLoc d)) : sProp 𝕄 := iLoc d ↦[iRowSet w]{fullShare} fi
/-- Worker `w`'s read share of the whole table at contents `ft`. -/
abbrev tShPts (d : Dev nD) (w : ℕ) (ft : Buf (Elt F) (tLoc d)) : sProp 𝕄 := tLoc d ↦{tq w} ft
/-- Worker `w`'s 25600 rows of the gathered rows, outright, at contents `fo`. -/
abbrev oPartPts (d : Dev nD) (w : ℕ) (fo : Buf (Elt F) (oLoc d)) : sProp 𝕄 := oLoc d ↦[oRows (25600 * w) (25600 * w + 25600)]{fullShare} fo

/-- What the gathered rows hold at the end: row r the table row that entry r of the index lists names. -/
def gathered (d : Dev nD) (fi : Buf (Elt F) (iLoc d)) (ft : Buf (Elt F) (tLoc d)) : Buf (Elt F) (oLoc d) := Emb.gath fi ft

/-- The row numbers re-read as 32 lists of 400 chunks of 64: what @main's first reshape leaves in the kernel's index operand. -/
def idx3 (d : Dev nD) (x : Buf (Elt F) (xLoc d)) : Buf (Elt F) (iLoc d) :=
  shapeCast S32x400x64 x shapeCasts_S4096x200_S32x400x64

/-- The program's result: the gathered rows re-read as 4096 × 200 × 128 (what @main's last reshape leaves). -/
def result (d : Dev nD) (x : Buf (Elt F) (xLoc d)) (t : Buf (Elt F) (tLoc d)) : Buf (Elt F) (rLoc d) :=
  shapeCast S4096x200x128 (gathered d (idx3 d x) t) shapeCasts_S819200x128_S4096x200x128

/-- Every row number of the launch memory names a table row. -/
def PreOK (m : (ℓ : Loc nD τ sig) → Buf (Elt F) ℓ) : Prop := ∀ (d : Dev nD) (j : S4096x200.Idx), (m (xLoc d) j).toNat < 100002

/-! ## A vector subcore, by its grid coordinates -/

abbrev cV (L : grid0.Coords) : Fin τ.nSC := (L 0).castLE hcore0
abbrev jV (L : grid0.Coords) : Fin τ.nSub := (L 1).castLE hsub0
/-- The worker number of the subcore at grid coordinates `L`. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

def coordsV (c : Fin (grid0.bound 0)) (s : Fin (grid0.bound 1)) : grid0.Coords :=
  fun | 0 => c | 1 => s | ⟨_ + 2, h⟩ => absurd h (Nat.not_lt.2 (Nat.le_add_left _ _))

end Cert.KI

end
-- ==== Proof.KI.Tile.lean ====
/-
  One vector subcore's own storage, named: its seventeen DMA semaphores (eight for the gathers, one per slot; eight
  for the copies out, one per slot; one for the index fetch), its two scratch buffers (the 400 × 64 index list and the
  eight 64 × 128 row slots), and the worker's index list in HBM as the body slices it.
-/
import proofs.«206746_g85272280694944_cont_9to1c4b_772_17_alg».proof.Proof.KI.Base

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

section Tile

variable (d : Dev nD) (L : grid0.Coords)

/-- DMA semaphore number `k` of the subcore at `L`. -/
abbrev cell (k : Fin 17) : GSem nD τ sig := (V d (cV L) (jV L), SemLoc.dma k)

theorem reg_not_scoped : ∀ s : Fin 4, (SemLoc.reg s : SemLoc sig).isScoped .scVector = false := by decide
theorem dma_scoped : ∀ k : Fin 17, (SemLoc.dma k : SemLoc sig).isScoped .scVector = true := by decide

theorem ownCells_V : ownCells (V d (cV L) (jV L))
    = (Finset.univ : Finset (Fin 17)).map ⟨fun k => cell d L k, fun _ _ e => SemLoc.dma.inj (Prod.mk.inj e).2⟩ := by
  ext g
  rw [mem_ownCells, Finset.mem_map]
  constructor
  · rintro ⟨h1, h2⟩
    rcases g with ⟨thr, sm⟩
    dsimp only at h1
    subst h1
    cases sm with
    | reg s => exact absurd (show (SemLoc.reg s : SemLoc sig).isScoped .scVector = true from h2) (by rw [reg_not_scoped s]; decide)
    | dma k => exact ⟨k, Finset.mem_univ _, rfl⟩
  · rintro ⟨k, -, rfl⟩
    exact ⟨rfl, dma_scoped k⟩

theorem ownSems0_V :
    (ownSems0 (V d (cV L) (jV L)) : sProp 𝕄)
      = iprop(semVal (cell d L 0) 0 ∗ semVal (cell d L 1) 0 ∗ semVal (cell d L 2) 0 ∗ semVal (cell d L 3) 0 ∗ semVal (cell d L 4) 0 ∗ semVal (cell d L 5) 0 ∗ semVal (cell d L 6) 0 ∗ semVal (cell d L 7) 0 ∗ semVal (cell d L 8) 0 ∗ semVal (cell d L 9) 0 ∗ semVal (cell d L 10) 0 ∗ semVal (cell d L 11) 0 ∗ semVal (cell d L 12) 0 ∗ semVal (cell d L 13) 0 ∗ semVal (cell d L 14) 0 ∗ semVal (cell d L 15) 0 ∗ semVal (cell d L 16) 0) := by
  unfold SparseCore.Cfg.ownSems0
  rw [ownCells_V, bigSep_map, show (Finset.univ : Finset (Fin 17)) = {0, 1, 2, 3, 4, 5, 6, 7, 8, 9, 10, 11, 12, 13, 14, 15, 16} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch buffers are the subcore's own: they, at some contents, and the rest of its buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The worker's index list in HBM, as the body slices it off the 32 × 400 × 64 array. -/
abbrev iRowK (L : grid0.Coords) : Memref sig .scVector .hbm S400x64 .i32 :=
  ((iV).slice (Rect.unit (s := S32x400x64) (k0_off1 L) S1x400x64.size (k0_off1_inb L)) (fun _ => rfl)).squeeze S400x64 squeezes_S1x400x64_S400x64

theorem set_iRowK : (iRowK L).view.set = iRowSet (wid L) := by
  ext i
  simp only [Memref.view_squeeze, Memref.view_slice, Memref.view_whole, View.set_reshape, View.set_slice_whole]
  rw [Rect.mem_set_unit, mem_iRowSet, k0_off1_eq]
  have h1 : ((i 1 : S32x400x64.Coord 1) : ℕ) < 400 := (i 1).isLt
  have h2 : ((i 2 : S32x400x64.Coord 2) : ℕ) < 64 := (i 2).isLt
  constructor
  · intro h
    have h0 := h 0
    simp only [Matrix.cons_val_zero] at h0
    unfold wid
    have : S1x400x64.size 0 = 1 := rfl
    omega
  · intro h a
    unfold wid at h
    match a with
    | ⟨0, _⟩ => exact ⟨by show 2 * (L 1).val + (L 0).val ≤ (i 0).val; omega, by show (i 0).val < 2 * (L 1).val + (L 0).val + 1; omega⟩
    | ⟨1, _⟩ => exact ⟨Nat.zero_le _, by show (i 1).val < 0 + 400; omega⟩
    | ⟨2, _⟩ => exact ⟨Nat.zero_le _, by show (i 2).val < 0 + 64; omega⟩

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]

theorem pts_tV (q : PosShare TreeShare) (f : Buf (Elt F) (tLoc d)) :
    ((tV).view.loc (V d (cV L) (jV L)) ↦{q} f : sProp 𝕄) = tLoc d ↦{q} f := rfl
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

end Tile

end Cert.KI

end
-- ==== Proof.KI.Sets.lean ====
/-
  Set algebra for the pieces of the arrays a vector subcore works on. Every piece is the set of elements whose row
  coordinate meets a condition (a range of rows of the gathered rows; one slot of the eight row slots; one row of
  the index scratch), so unions, differences, inclusions and disjointness are statements about ranges of naturals,
  decided coordinate by coordinate and never by listing elements. The pieces as the body slices them (a rectangle
  with unit strides, then dropping an axis of extent one, which keeps the same elements) are these sets: an element
  lies in a rectangle exactly when each coordinate lies between the offset and the offset plus the extent.
-/
import proofs.«206746_g85272280694944_cont_9to1c4b_772_17_alg».proof.Proof.KI.Base

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

/-! ## Ranges of rows -/

/-- Two row ranges, the first ending where or before the second begins, share no element. -/
theorem oRows_disjoint {a b c e : ℕ} (h : b ≤ c) : Disjoint (oRows a b) (oRows c e) :=
  Finset.disjoint_left.2 fun i h1 h2 => by
    rw [mem_oRows] at h1 h2
    omega

/-- Two adjacent row ranges make one. -/
theorem oRows_union {a b c : ℕ} (h1 : a ≤ b) (h2 : b ≤ c) : oRows a b ∪ oRows b c = oRows a c := by
  ext i
  rw [Finset.mem_union, mem_oRows, mem_oRows, mem_oRows]
  omega

/-- A row range lies inside a wider one. -/
theorem oRows_subset {a b a' b' : ℕ} (h1 : a' ≤ a) (h2 : b ≤ b') : oRows a b ⊆ oRows a' b' := fun i hi => by
  rw [mem_oRows] at hi ⊢
  omega

/-- A row range less a prefix of it is the rest. -/
theorem oRows_sdiff_prefix {a b c : ℕ} (h1 : a ≤ b) (h2 : b ≤ c) : oRows a c \ oRows a b = oRows b c := by
  ext i
  rw [Finset.mem_sdiff, mem_oRows, mem_oRows, mem_oRows]
  omega

/-! ## The pieces as the body slices them -/

/-- A 64-row chunk of the gathered rows, as the body slices it, is a row range. -/
theorem set_chunk (off : Fin 2 → ℕ) (inb : ∀ a, off a + S64x128.size a ≤ S819200x128.size a) (h1 : off 1 = 0) :
    ((oV).slice (Rect.unit (s := S819200x128) off S64x128.size inb) (fun _ => rfl)).view.set = oRows (off 0) (off 0 + 64) := by
  ext i
  simp only [Memref.view_slice, Memref.view_whole, View.set_slice_whole]
  rw [Rect.mem_set_unit, mem_oRows]
  have hc : ((i 1 : S819200x128.Coord 1) : ℕ) < 128 := (i 1).isLt
  constructor
  · intro h
    have h0 := h 0
    have e0 : (![64, 128] : Fin 2 → ℕ) 0 = 64 := rfl
    omega
  · intro h a
    match a with
    | ⟨0, _⟩ => exact ⟨by show off 0 ≤ (i 0).val; omega, by show (i 0).val < off 0 + 64; omega⟩
    | ⟨1, _⟩ => exact ⟨by show off 1 ≤ (i 1).val; omega, by show (i 1).val < off 1 + 128; omega⟩

/-- Slot b of the eight row slots, as the body slices it (slice then squeeze), is the elements whose first coordinate is b. -/
theorem set_slot (b : ℕ) (inb : ∀ a, (![b, 0, 0] : Fin 3 → ℕ) a + S1x64x128.size a ≤ S8x64x128.size a) :
    (((sR).slice (Rect.unit (s := S8x64x128) ![b, 0, 0] S1x64x128.size inb) (fun _ => rfl)).squeeze S64x128 squeezes_S1x64x128_S64x128).view.set
      = Finset.univ.filter fun i : S8x64x128.Idx => (i 0).val = b := by
  ext i
  simp only [Memref.view_squeeze, Memref.view_slice, Memref.view_whole, View.set_reshape, View.set_slice_whole]
  rw [Rect.mem_set_unit, Finset.mem_filter]
  have hc1 : ((i 1 : S8x64x128.Coord 1) : ℕ) < 64 := (i 1).isLt
  have hc2 : ((i 2 : S8x64x128.Coord 2) : ℕ) < 128 := (i 2).isLt
  constructor
  · intro h
    have h0 := h 0
    simp only [Matrix.cons_val_zero] at h0
    have : S1x64x128.size 0 = 1 := rfl
    exact ⟨Finset.mem_univ _, by omega⟩
  · rintro ⟨-, h⟩ a
    match a with
    | ⟨0, _⟩ => exact ⟨by show b ≤ (i 0).val; omega, by show (i 0).val < b + 1; omega⟩
    | ⟨1, _⟩ => exact ⟨Nat.zero_le _, by show (i 1).val < 0 + 64; omega⟩
    | ⟨2, _⟩ => exact ⟨Nat.zero_le _, by show (i 2).val < 0 + 128; omega⟩

/-- Row r of the 400 × 64 index scratch, as the body slices it. -/
theorem set_listRow (off : Fin 2 → ℕ) (inb : ∀ a, off a + S1x64.size a ≤ S400x64.size a) (h1 : off 1 = 0) :
    (((sI).slice (Rect.unit (s := S400x64) off S1x64.size inb) (fun _ => rfl)).squeeze S64 squeezes_S1x64_S64).view.set
      = Finset.univ.filter fun i : S400x64.Idx => (i 0).val = off 0 := by
  ext i
  simp only [Memref.view_squeeze, Memref.view_slice, Memref.view_whole, View.set_reshape, View.set_slice_whole]
  rw [Rect.mem_set_unit, Finset.mem_filter]
  have hc : ((i 1 : S400x64.Coord 1) : ℕ) < 64 := (i 1).isLt
  constructor
  · intro h
    have h0 := h 0
    have e0 : (![1, 64] : Fin 2 → ℕ) 0 = 1 := rfl
    exact ⟨Finset.mem_univ _, by omega⟩
  · rintro ⟨-, h⟩ a
    match a with
    | ⟨0, _⟩ => exact ⟨by show off 0 ≤ (i 0).val; omega, by show (i 0).val < off 0 + 1; omega⟩
    | ⟨1, _⟩ => exact ⟨by show off 1 ≤ (i 1).val; omega, by show (i 1).val < off 1 + 64; omega⟩

end Cert.KI

end
-- ==== Proof.KI.Chunks.lean ====
/-
  How a worker's 25600 rows of the gathered rows divide: into 50 blocks of 512 rows, one per trip of the body's
  loop and one after it, and each block into eight chunks of 64 rows, one per row slot. Holding a range of rows
  is holding its parts: a range of rows is the disjoint union of two adjacent ranges, so the ownership of the
  rows still to be written splits off one block at a time, the ownership of the rows already written grows by one
  block at a time, and a block is its eight chunks. A chunk as the body slices it, at rows
  51200 s + 25600 c + 512 k + 64 r of subcore s of SparseCore c, is rows [25600 w + 512 k + 64 r, + 64) of worker
  w = 2 s + c; the eight chunks after the loop are those of block number 49.
-/
import proofs.«206746_g85272280694944_cont_9to1c4b_772_17_alg».proof.Proof.KI.Sets

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

/-- Chunk r of trip k of the gathered rows, as the body slices it. -/
abbrev chunkK (L : grid0.Coords) (k : Fin k0_t1_loop.trips) (r : Fin 8) : Memref sig .scVector .hbm S64x128 .f32 :=
  (oV).slice (Rect.unit (s := S819200x128) (k0_off3 L k (BitVec.ofNat 32 r.val)) S64x128.size (k0_off3_inb L k r)) (fun _ => rfl)
/-- Chunk r of the last eight chunks, as the body slices it after the loop. -/
abbrev lastK (L : grid0.Coords) (r : Fin 8) : Memref sig .scVector .hbm S64x128 .f32 :=
  (oV).slice (Rect.unit (s := S819200x128) (k0_off5 L (BitVec.ofNat 32 (25088 + 64 * r.val))) S64x128.size (k0_off5_inb L r)) (fun _ => rfl)

/-! ## Ranges of rows, held -/

/-- A range with equal ends has no rows. -/
theorem oRows_self (a : ℕ) : oRows a a = ∅ := by
  ext i
  rw [mem_oRows]
  constructor
  · intro h; omega
  · intro h; exact absurd h (Finset.notMem_empty _)

/-- Row ranges with equal ends are equal. -/
theorem oRows_congr {a b a' b' : ℕ} (h1 : a = a') (h2 : b = b') : oRows a b = oRows a' b' := by rw [h1, h2]

/-- Holding a range of rows is holding its two parts either side of a row b inside it. -/
theorem pts_rows_split (d : Dev nD) (a b c : ℕ) (h1 : a ≤ b) (h2 : b ≤ c) (f : Buf (Elt F) (oLoc d)) :
    (oLoc d ↦[oRows a c]{fullShare} f : sProp 𝕄)
      = iprop((oLoc d ↦[oRows a b]{fullShare} f) ∗ (oLoc d ↦[oRows b c]{fullShare} f)) := by
  have hu : (oLoc d ↦[oRows a b ∪ oRows b c]{fullShare} f : sProp 𝕄)
      ⊣⊢ iprop((oLoc d ↦[oRows a b]{fullShare} f) ∗ (oLoc d ↦[oRows b c]{fullShare} f)) :=
    pointsTo_union (oRows_disjoint (Nat.le_refl b))
  rw [oRows_union h1 h2] at hu
  exact BI.equiv_iff.mp ⟨hu.1, hu.2⟩

/-- Before the first trip no rows are done: holding none is holding nothing. -/
theorem pts_done_zero (d : Dev nD) (a : ℕ) (f : Buf (Elt F) (oLoc d)) :
    (oLoc d ↦[oRows a (a + 512 * 0)]{fullShare} f : sProp 𝕄) = iprop(emp) := by
  rw [show oRows a (a + 512 * 0) = ∅ from (oRows_congr rfl (by omega)).trans (oRows_self a), pointsTo_empty]

/-- rows to do = this trip's block + the rows to do after it -/
theorem todo_split (d : Dev nD) (base k : ℕ) (hk : 512 * k + 512 ≤ 25600) (f : Buf (Elt F) (oLoc d)) :
    (oLoc d ↦[oRows (base + 512 * k) (base + 25600)]{fullShare} f : sProp 𝕄)
      ⊣⊢ iprop((oLoc d ↦[oRows (base + 512 * k) (base + 512 * k + 512)]{fullShare} f) ∗ (oLoc d ↦[oRows (base + 512 * (k + 1)) (base + 25600)]{fullShare} f)) := by
  rw [show base + 512 * (k + 1) = base + 512 * k + 512 from by omega]
  exact BIBase.BiEntails.of_eq (pts_rows_split d _ _ _ (by omega) (by omega) f)

/-- rows done + this trip's block (at the same contents) = rows done after it -/
theorem done_join (d : Dev nD) (base k : ℕ) (f : Buf (Elt F) (oLoc d)) :
    iprop((oLoc d ↦[oRows base (base + 512 * k)]{fullShare} f) ∗ (oLoc d ↦[oRows (base + 512 * k) (base + 512 * k + 512)]{fullShare} f))
      ⊣⊢ (oLoc d ↦[oRows base (base + 512 * (k + 1))]{fullShare} f : sProp 𝕄) := by
  rw [show base + 512 * (k + 1) = base + 512 * k + 512 from by omega]
  exact BIBase.BiEntails.of_eq (pts_rows_split d _ _ _ (by omega) (by omega) f).symm

/-- a block of 512 rows is its eight chunks of 64 -/
theorem block_chunks (d : Dev nD) (s : ℕ) (f : Buf (Elt F) (oLoc d)) :
    (oLoc d ↦[oRows s (s + 512)]{fullShare} f : sProp 𝕄)
      = iprop((oLoc d ↦[oRows s (s + 64)]{fullShare} f) ∗ (oLoc d ↦[oRows (s + 64) (s + 128)]{fullShare} f) ∗ (oLoc d ↦[oRows (s + 128) (s + 192)]{fullShare} f)
          ∗ (oLoc d ↦[oRows (s + 192) (s + 256)]{fullShare} f) ∗ (oLoc d ↦[oRows (s + 256) (s + 320)]{fullShare} f) ∗ (oLoc d ↦[oRows (s + 320) (s + 384)]{fullShare} f)
          ∗ (oLoc d ↦[oRows (s + 384) (s + 448)]{fullShare} f) ∗ (oLoc d ↦[oRows (s + 448) (s + 512)]{fullShare} f)) := by
  rw [pts_rows_split d s (s + 64) (s + 512) (by omega) (by omega) f,
    pts_rows_split d (s + 64) (s + 128) (s + 512) (by omega) (by omega) f,
    pts_rows_split d (s + 128) (s + 192) (s + 512) (by omega) (by omega) f,
    pts_rows_split d (s + 192) (s + 256) (s + 512) (by omega) (by omega) f,
    pts_rows_split d (s + 256) (s + 320) (s + 512) (by omega) (by omega) f,
    pts_rows_split d (s + 320) (s + 384) (s + 512) (by omega) (by omega) f,
    pts_rows_split d (s + 384) (s + 448) (s + 512) (by omega) (by omega) f]

/-! ## The chunks as the body slices them -/

/-- The elements of chunk r of trip k. -/
theorem set_chunkK (L : grid0.Coords) (k : Fin k0_t1_loop.trips) (r : Fin 8) :
    (chunkK L k r).view.set
      = oRows (25600 * wid L + 512 * k.val + 64 * r.val) (25600 * wid L + 512 * k.val + 64 * r.val + 64) := by
  have e := k0_off3_eq L k r
  have h0 : k0_off3 L k (BitVec.ofNat 32 r.val) 0 = 51200 * (L 1).val + 25600 * (L 0).val + 512 * k.val + 64 * r.val := by rw [e]; rfl
  have h1 : k0_off3 L k (BitVec.ofNat 32 r.val) 1 = 0 := by rw [e]; rfl
  refine (set_chunk _ (k0_off3_inb L k r) h1).trans ?_
  rw [h0]
  unfold wid
  exact oRows_congr (by omega) (by omega)

/-- The elements of chunk r of the last eight. -/
theorem set_lastK (L : grid0.Coords) (r : Fin 8) :
    (lastK L r).view.set
      = oRows (25600 * wid L + 512 * 49 + 64 * r.val) (25600 * wid L + 512 * 49 + 64 * r.val + 64) := by
  have e := k0_off5_eq L r
  have h0 : k0_off5 L (BitVec.ofNat 32 (25088 + 64 * r.val)) 0 = 51200 * (L 1).val + 25600 * (L 0).val + 64 * r.val + 25088 := by rw [e]; rfl
  have h1 : k0_off5 L (BitVec.ofNat 32 (25088 + 64 * r.val)) 1 = 0 := by rw [e]; rfl
  refine (set_chunk _ (k0_off5_inb L r) h1).trans ?_
  rw [h0]
  unfold wid
  exact oRows_congr (by omega) (by omega)

/-- a chunk as the body slices it, in trip k, is rows [25600 w + 512 k + 64 r, … + 64) -/
theorem pts_chunk (d : Dev nD) (L : grid0.Coords) (k : Fin k0_t1_loop.trips) (r : Fin 8) (f : Buf (Elt F) (oLoc d)) :
    ((chunkK L k r).view.loc (V d (cV L) (jV L)) ↦[(chunkK L k r).view.set]{fullShare} f : sProp 𝕄)
      = oLoc d ↦[oRows (25600 * wid L + 512 * k.val + 64 * r.val) (25600 * wid L + 512 * k.val + 64 * r.val + 64)]{fullShare} f := by
  rw [set_chunkK]

/-- the same for the last eight chunks (after the loop: block number 49) -/
theorem pts_last (d : Dev nD) (L : grid0.Coords) (r : Fin 8) (f : Buf (Elt F) (oLoc d)) :
    ((lastK L r).view.loc (V d (cV L) (jV L)) ↦[(lastK L r).view.set]{fullShare} f : sProp 𝕄)
      = oLoc d ↦[oRows (25600 * wid L + 512 * 49 + 64 * r.val) (25600 * wid L + 512 * 49 + 64 * r.val + 64)]{fullShare} f := by
  rw [set_lastK]

end Cert.KI

end
-- ==== Proof.KI.Ring.lean ====
/-
  The ring of eight row slots, named. Slot b is the b-th 64 × 128 piece of the row scratch; a gather over row n of the
  400 × 64 index scratch lands in a slot the 64 table rows that the row's words name; while it is in flight the slot,
  the list row (at the slot's read piece of the scratch) and the table's elements (at the slot's read token) are lent
  to it. The loop's invariant before trip k: chunks 8k … 8k+7 are in flight into slots 0 … 7, the copies out are idle,
  and of the worker's 25600 rows the first 512 k hold the gathered rows while the rest are as they were.
-/
import proofs.«206746_g85272280694944_cont_9to1c4b_772_17_alg».proof.Proof.KI.Tile
import proofs.«206746_g85272280694944_cont_9to1c4b_772_17_alg».proof.Proof.KI.Chunks

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

abbrev slotK0 : Memref sig .scVector .vmem S64x128 .f32 :=
  ((sR).slice (Rect.unit (s := S8x64x128) ![0, 0, 0] S1x64x128.size inb_S8x64x128_S1x64x128_0_0_0) (fun _ => rfl)).squeeze S64x128 squeezes_S1x64x128_S64x128
abbrev slotK1 : Memref sig .scVector .vmem S64x128 .f32 :=
  ((sR).slice (Rect.unit (s := S8x64x128) ![1, 0, 0] S1x64x128.size inb_S8x64x128_S1x64x128_1_0_0) (fun _ => rfl)).squeeze S64x128 squeezes_S1x64x128_S64x128
abbrev slotK2 : Memref sig .scVector .vmem S64x128 .f32 :=
  ((sR).slice (Rect.unit (s := S8x64x128) ![2, 0, 0] S1x64x128.size inb_S8x64x128_S1x64x128_2_0_0) (fun _ => rfl)).squeeze S64x128 squeezes_S1x64x128_S64x128
abbrev slotK3 : Memref sig .scVector .vmem S64x128 .f32 :=
  ((sR).slice (Rect.unit (s := S8x64x128) ![3, 0, 0] S1x64x128.size inb_S8x64x128_S1x64x128_3_0_0) (fun _ => rfl)).squeeze S64x128 squeezes_S1x64x128_S64x128
abbrev slotK4 : Memref sig .scVector .vmem S64x128 .f32 :=
  ((sR).slice (Rect.unit (s := S8x64x128) ![4, 0, 0] S1x64x128.size inb_S8x64x128_S1x64x128_4_0_0) (fun _ => rfl)).squeeze S64x128 squeezes_S1x64x128_S64x128
abbrev slotK5 : Memref sig .scVector .vmem S64x128 .f32 :=
  ((sR).slice (Rect.unit (s := S8x64x128) ![5, 0, 0] S1x64x128.size inb_S8x64x128_S1x64x128_5_0_0) (fun _ => rfl)).squeeze S64x128 squeezes_S1x64x128_S64x128
abbrev slotK6 : Memref sig .scVector .vmem S64x128 .f32 :=
  ((sR).slice (Rect.unit (s := S8x64x128) ![6, 0, 0] S1x64x128.size inb_S8x64x128_S1x64x128_6_0_0) (fun _ => rfl)).squeeze S64x128 squeezes_S1x64x128_S64x128
abbrev slotK7 : Memref sig .scVector .vmem S64x128 .f32 :=
  ((sR).slice (Rect.unit (s := S8x64x128) ![7, 0, 0] S1x64x128.size inb_S8x64x128_S1x64x128_7_0_0) (fun _ => rfl)).squeeze S64x128 squeezes_S1x64x128_S64x128

def slotSet (b : ℕ) : Finset S8x64x128.Idx := Finset.univ.filter fun i => (i 0).val = b

theorem slots_disjoint : ∀ i ∈ (Finset.univ : Finset (Fin 8)), ∀ j ∈ (Finset.univ : Finset (Fin 8)), i ≠ j → Disjoint (slotSet i.val) (slotSet j.val) := by
  intro i _ j _ h
  rw [Finset.disjoint_left]
  intro x hx hy
  simp only [slotSet, Finset.mem_filter, Finset.mem_univ, true_and] at hx hy
  exact h (Fin.ext (hx.symm.trans hy))
theorem slots_cover : (Finset.univ : Finset (Fin 8)).biUnion (fun b => slotSet b.val) = Finset.univ := by
  ext i
  simp only [Finset.mem_biUnion, Finset.mem_univ, true_and, iff_true, slotSet, Finset.mem_filter]
  exact ⟨⟨(i 0).val, (i 0).isLt⟩, rfl⟩

section
variable (d : Dev nD) (L : grid0.Coords)

theorem sR_slots (f : Buf (Elt F) ((V d (cV L) (jV L)).loc cc0_scratch1)) :
    ((sR).view.loc (V d (cV L) (jV L)) ↦{fullShare} f : sProp 𝕄)
      = bigSep Finset.univ fun b : Fin 8 => (sR).view.loc (V d (cV L) (jV L)) ↦[slotSet b.val]{fullShare} f := by
  rw [← pointsTo_biUnion Finset.univ (ℓ := (sR).view.loc (V d (cV L) (jV L))) (fun b : Fin 8 => slotSet b.val) slots_disjoint, slots_cover]

theorem pts_slot0 (f : Buf (Elt F) ((V d (cV L) (jV L)).loc cc0_scratch1)) :
    ((slotK0).view.loc (V d (cV L) (jV L)) ↦[(slotK0).view.set]{fullShare} f : sProp 𝕄)
      = (sR).view.loc (V d (cV L) (jV L)) ↦[slotSet ((0 : Fin 8)).val]{fullShare} f := by
  rw [show (slotK0).view.set = slotSet ((0 : Fin 8)).val from set_slot 0 _]
theorem pts_slot1 (f : Buf (Elt F) ((V d (cV L) (jV L)).loc cc0_scratch1)) :
    ((slotK1).view.loc (V d (cV L) (jV L)) ↦[(slotK1).view.set]{fullShare} f : sProp 𝕄)
      = (sR).view.loc (V d (cV L) (jV L)) ↦[slotSet ((1 : Fin 8)).val]{fullShare} f := by
  rw [show (slotK1).view.set = slotSet ((1 : Fin 8)).val from set_slot 1 _]
theorem pts_slot2 (f : Buf (Elt F) ((V d (cV L) (jV L)).loc cc0_scratch1)) :
    ((slotK2).view.loc (V d (cV L) (jV L)) ↦[(slotK2).view.set]{fullShare} f : sProp 𝕄)
      = (sR).view.loc (V d (cV L) (jV L)) ↦[slotSet ((2 : Fin 8)).val]{fullShare} f := by
  rw [show (slotK2).view.set = slotSet ((2 : Fin 8)).val from set_slot 2 _]
theorem pts_slot3 (f : Buf (Elt F) ((V d (cV L) (jV L)).loc cc0_scratch1)) :
    ((slotK3).view.loc (V d (cV L) (jV L)) ↦[(slotK3).view.set]{fullShare} f : sProp 𝕄)
      = (sR).view.loc (V d (cV L) (jV L)) ↦[slotSet ((3 : Fin 8)).val]{fullShare} f := by
  rw [show (slotK3).view.set = slotSet ((3 : Fin 8)).val from set_slot 3 _]
theorem pts_slot4 (f : Buf (Elt F) ((V d (cV L) (jV L)).loc cc0_scratch1)) :
    ((slotK4).view.loc (V d (cV L) (jV L)) ↦[(slotK4).view.set]{fullShare} f : sProp 𝕄)
      = (sR).view.loc (V d (cV L) (jV L)) ↦[slotSet ((4 : Fin 8)).val]{fullShare} f := by
  rw [show (slotK4).view.set = slotSet ((4 : Fin 8)).val from set_slot 4 _]
theorem pts_slot5 (f : Buf (Elt F) ((V d (cV L) (jV L)).loc cc0_scratch1)) :
    ((slotK5).view.loc (V d (cV L) (jV L)) ↦[(slotK5).view.set]{fullShare} f : sProp 𝕄)
      = (sR).view.loc (V d (cV L) (jV L)) ↦[slotSet ((5 : Fin 8)).val]{fullShare} f := by
  rw [show (slotK5).view.set = slotSet ((5 : Fin 8)).val from set_slot 5 _]
theorem pts_slot6 (f : Buf (Elt F) ((V d (cV L) (jV L)).loc cc0_scratch1)) :
    ((slotK6).view.loc (V d (cV L) (jV L)) ↦[(slotK6).view.set]{fullShare} f : sProp 𝕄)
      = (sR).view.loc (V d (cV L) (jV L)) ↦[slotSet ((6 : Fin 8)).val]{fullShare} f := by
  rw [show (slotK6).view.set = slotSet ((6 : Fin 8)).val from set_slot 6 _]
theorem pts_slot7 (f : Buf (Elt F) ((V d (cV L) (jV L)).loc cc0_scratch1)) :
    ((slotK7).view.loc (V d (cV L) (jV L)) ↦[(slotK7).view.set]{fullShare} f : sProp 𝕄)
      = (sR).view.loc (V d (cV L) (jV L)) ↦[slotSet ((7 : Fin 8)).val]{fullShare} f := by
  rw [show (slotK7).view.set = slotSet ((7 : Fin 8)).val from set_slot 7 _]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end

/-- Row `off 0` of the index scratch, as the body slices it. -/
abbrev lrowK (off : Fin 2 → ℕ) (inb : ∀ a, off a + S1x64.size a ≤ S400x64.size a) : Memref sig .scVector .vmem S64 .i32 :=
  ((sI).slice (Rect.unit (s := S400x64) off S1x64.size inb) (fun _ => rfl)).squeeze S64 squeezes_S1x64_S64
/-- The whole table, as the body slices it. -/
abbrev tAllK : Memref sig .scVector .hbm S100002x128 .f32 :=
  (tV).slice (Rect.unit (s := S100002x128) ![0, 0] S100002x128.size inb_S100002x128_S100002x128_0_0) (fun _ => rfl)

section Inv

variable (d : Dev nD) (L : grid0.Coords) (ft : Buf (Elt F) (tLoc d)) (fI : Buf (Elt F) ((V d (cV L) (jV L)).loc cc0_scratch0))
  (hin : ∀ (off : Fin 2 → ℕ) (inb : ∀ a, off a + S1x64.size a ≤ S400x64.size a) x,
      ((lrowK off inb).view.read (Elt F) fI x).toNat < S100002x128.size gathers_S100002x128_S64x128.axis)

/-- What a gather over list row `off 0` lands: row j of the slot is the table row that entry j of the list row names. -/
def gpay (off : Fin 2 → ℕ) (inb : ∀ a, off a + S1x64.size a ≤ S400x64.size a) : S64x128.Idx → Elt F .f32 :=
  SparseCore.gatherPayload gathers_S100002x128_S64x128 ((tAllK).view.read (Elt F) ft)
    (SparseCore.rows ((lrowK off inb).view.read (Elt F) fI) rfl (hin off inb))

/-- A slot whose gather over list row `n` is in flight on semaphore `c`: the flight (the slot written, the list row
    and the table's elements lent at the slot's shares) and what of the three stays beside it. -/
def inFlight (slot : Memref sig .scVector .vmem S64x128 .f32) (c : Fin 17) (ql qt : PosShare TreeShare) (n : ℕ) : sProp 𝕄 :=
  iprop(∃ (off : Fin 2 → ℕ) (inb : ∀ a, off a + S1x64.size a ≤ S400x64.size a) (fr : Buf (Elt F) (slot.view.loc (V d (cV L) (jV L)))), ⌜off = ![n, 0]⌝
    ∗ Transfers.Flight countersEmb (V d (cV L) (jV L)) (SemLoc.dma c) (default : HIx 1) 262144
        iprop(((slot.view.loc (V d (cV L) (jV L)) ↦[slot.view.set]{fullShare} slot.view.writes (Elt F) fr [⟨Rect.whole S64x128, gpay d L ft fI hin off inb⟩])
              ∗ ((sI).view.loc (V d (cV L) (jV L)) ↦[(lrowK off inb).view.set]{ql} fI))
            ∗ ((tV).view.loc (V d (cV L) (jV L)) ↦[(tAllK).view.set]{qt} ft))
    ∗ ((tV).view.loc (V d (cV L) (jV L)) ↦[Finset.univ \ (tAllK).view.set]{qt} ft)
    ∗ (slot.view.loc (V d (cV L) (jV L)) ↦[slot.view.set \ slot.view.set]{fullShare} slot.view.writes (Elt F) fr [⟨Rect.whole S64x128, gpay d L ft fI hin off inb⟩])
    ∗ ((sI).view.loc (V d (cV L) (jV L)) ↦[Finset.univ \ (lrowK off inb).view.set]{ql} fI))

variable (fo G : Buf (Elt F) (oLoc d)) (O : CellTallies nD τ sig (HIx 1)) (W : Waits sig (HIx 1))

/-- Before trip `k`: chunks 8k … 8k+7 are in flight into slots 0 … 7, the first 512 k of the worker's rows are done. -/
def inv (k : Nat) (_ : PUnit) : sProp 𝕄 :=
  iprop(Transfers.MayWaits (V d (cV L) (jV L)) (default : HIx 1) O
    ∗ inFlight d L ft fI hin slotK0 0 (Transfers.shareDrop fullShare 7) (Transfers.shareTok (tq (wid L)) 8 0) (8 * k + 0)
    ∗ inFlight d L ft fI hin slotK1 1 (Transfers.shareTok fullShare 7 0) (Transfers.shareTok (tq (wid L)) 8 1) (8 * k + 1)
    ∗ inFlight d L ft fI hin slotK2 2 (Transfers.shareTok fullShare 7 1) (Transfers.shareTok (tq (wid L)) 8 2) (8 * k + 2)
    ∗ inFlight d L ft fI hin slotK3 3 (Transfers.shareTok fullShare 7 2) (Transfers.shareTok (tq (wid L)) 8 3) (8 * k + 3)
    ∗ inFlight d L ft fI hin slotK4 4 (Transfers.shareTok fullShare 7 3) (Transfers.shareTok (tq (wid L)) 8 4) (8 * k + 4)
    ∗ inFlight d L ft fI hin slotK5 5 (Transfers.shareTok fullShare 7 4) (Transfers.shareTok (tq (wid L)) 8 5) (8 * k + 5)
    ∗ inFlight d L ft fI hin slotK6 6 (Transfers.shareTok fullShare 7 5) (Transfers.shareTok (tq (wid L)) 8 6) (8 * k + 6)
    ∗ inFlight d L ft fI hin slotK7 7 (Transfers.shareTok fullShare 7 6) (Transfers.shareTok (tq (wid L)) 8 7) (8 * k + 7)
    ∗ semVal (cell d L 8) 0
    ∗ semVal (cell d L 9) 0
    ∗ semVal (cell d L 10) 0
    ∗ semVal (cell d L 11) 0
    ∗ semVal (cell d L 12) 0
    ∗ semVal (cell d L 13) 0
    ∗ semVal (cell d L 14) 0
    ∗ semVal (cell d L 15) 0
    ∗ (oLoc d ↦[oRows (25600 * wid L) (25600 * wid L + 512 * k)]{fullShare} G)
    ∗ (oLoc d ↦[oRows (25600 * wid L + 512 * k) (25600 * wid L + 25600)]{fullShare} fo)
    ∗ ∃ W', ⌜∀ p ∈ W', p ∈ W ∨ p.2 = none⌝ ∗ owes (V d (cV L) (jV L)) O W')

end Inv

end Cert.KI

end
-- ==== Proof.KI.Values.lean ====
/-
  What the kernel's copies leave, as values. The index fetch lands the worker's list in the 400 × 64 scratch: entry
  (a, b) is entry (w, a, b) of the 32 × 400 × 64 index lists, since dropping the leading axis of extent one keeps
  row-major positions and the slice starts at list w. Every word of the scratch then names a table row. A row slot
  written whole reads back what was written. And the value itself: a 64-row chunk of the gathered rows, written
  whole with what the gather over list row n landed, holds at its row 25600 w + 64 n + j, column c, the table's
  entry (fi (w, n, j), c): the gather reads the table at the row the j-th word of the list row names, and the
  flat position 25600 w + 64 n + j of the index lists is entry (w, n, j).
-/
import proofs.«206746_g85272280694944_cont_9to1c4b_772_17_alg».proof.Proof.KI.Ring

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

/-- A 64-row chunk of the gathered rows at offsets `off`, as the body slices it. -/
abbrev chunkAt (off : Fin 2 → ℕ) (oinb : ∀ a, off a + S64x128.size a ≤ S819200x128.size a) : Memref sig .scVector .hbm S64x128 .f32 :=
  (oV).slice (Rect.unit (s := S819200x128) off S64x128.size oinb) (fun _ => rfl)
/-- Slot `sb` of the eight row slots, as the body slices it. -/
abbrev slotAt (sb : ℕ) (sinb : ∀ a, (![sb, 0, 0] : Fin 3 → ℕ) a + S1x64x128.size a ≤ S8x64x128.size a) : Memref sig .scVector .vmem S64x128 .f32 :=
  ((sR).slice (Rect.unit (s := S8x64x128) ![sb, 0, 0] S1x64x128.size sinb) (fun _ => rfl)).squeeze S64x128 squeezes_S1x64x128_S64x128

/-! ## The index fetch -/

/-- Where entry (a, b) of the worker's list, as the body slices it off the index lists, sits: at (w, a, b). Dropping
    the leading axis of extent one keeps the row-major position, a·64 + b = (0·400 + a)·64 + b, and the slice
    starts at list w, row 0, column 0. -/
theorem emb_iRowK (L : grid0.Coords) (a : Fin 400) (b : Fin 64) :
    (iRowK L).view.emb (ValueIdx.ix2 a b) = ValueIdx.ix3 (⟨wid L, wid_lt L⟩ : Fin 32) a b := by
  have hq : Shape.reshapeEquiv (s := S1x400x64) (s' := S400x64) squeezes_S1x400x64_S400x64.numel_eq (ValueIdx.ix2 a b)
      = ValueIdx.ix3 (0 : Fin 1) a b := by
    refine Shape.reshapeEquiv_eq_of_rowMajor _ ?_
    rw [Shape.rowMajor_val_two, Shape.rowMajor_val_three]
    show (0 * 400 + a.val) * 64 + b.val = a.val * 64 + b.val
    omega
  have e := k0_off1_eq L
  have h0 : k0_off1 L 0 = wid L := by rw [e]; rfl
  have h1 : k0_off1 L 1 = 0 := by rw [e]; rfl
  have h2 : k0_off1 L 2 = 0 := by rw [e]; rfl
  show (Rect.unit (s := S32x400x64) (k0_off1 L) S1x400x64.size (k0_off1_inb L)).emb
      (Shape.reshapeEquiv (s := S1x400x64) (s' := S400x64) squeezes_S1x400x64_S400x64.numel_eq (ValueIdx.ix2 a b)) = _
  rw [hq]
  funext c
  apply Fin.ext
  rw [Rect.emb_apply]
  match c with
  | ⟨0, _⟩ => show k0_off1 L 0 + 1 * 0 = wid L; omega
  | ⟨1, _⟩ => show k0_off1 L 1 + 1 * a.val = a.val; omega
  | ⟨2, _⟩ => show k0_off1 L 2 + 1 * b.val = b.val; omega

/-- What the index fetch lands in the 400 × 64 scratch: entry (a, b) is entry (w, a, b) of the index lists, w the worker. -/
theorem list_landed (d : Dev nD) (L : grid0.Coords) (fi : Buf (Elt F) (iLoc d)) (fs : Buf (Elt F) ((V d (cV L) (jV L)).loc cc0_scratch0)) (a : Fin 400) (b : Fin 64) :
    ((sI).view.write (Elt F) fs (ReadAs.same.apply ((iRowK L).view.read (Elt F) fi)) Finset.univ) (ValueIdx.ix2 a b) = fi (ValueIdx.ix3 (⟨wid L, wid_lt L⟩ : Fin 32) a b) := by
  show (sI).view.read (Elt F) ((sI).view.write (Elt F) fs (ReadAs.same.apply ((iRowK L).view.read (Elt F) fi)) Finset.univ) (ValueIdx.ix2 a b) = _
  rw [View.read_write_univ]
  show fi ((iRowK L).view.emb (ValueIdx.ix2 a b)) = _
  rw [emb_iRowK]

/-- hence every word of every list row is a row number of the table: what each gather asks of the words it reads -/
theorem list_in_range (d : Dev nD) (L : grid0.Coords) (fI : Buf (Elt F) ((V d (cV L) (jV L)).loc cc0_scratch0)) (h : ∀ j, (fI j).toNat < 100002)
    (off : Fin 2 → ℕ) (inb : ∀ a, off a + S1x64.size a ≤ S400x64.size a) (x : S64.Idx) :
    ((lrowK off inb).view.read (Elt F) fI x).toNat < S100002x128.size gathers_S100002x128_S64x128.axis :=
  h ((lrowK off inb).view.emb x)

/-! ## A slot written whole -/

/-- a slot read back after one whole write is what was written -/
theorem slot_read_back (d : Dev nD) (L : grid0.Coords) (sb : ℕ) (sinb : ∀ a, (![sb, 0, 0] : Fin 3 → ℕ) a + S1x64x128.size a ≤ S8x64x128.size a)
    (fr : Buf (Elt F) ((slotAt sb sinb).view.loc (V d (cV L) (jV L)))) (g : S64x128.Idx → Elt F .f32) :
    ReadAs.same.apply (View.read (Elt F) (slotAt sb sinb).view ((slotAt sb sinb).view.writes (Elt F) fr [⟨Rect.whole S64x128, g⟩])) = g := by
  funext x
  have hw := View.read_writes_cons_emb (slotAt sb sinb).view fr (Rect.whole S64x128) g [] x
  rw [Rect.emb_whole_apply] at hw
  exact hw

/-! ## The value of a chunk -/

/-- The whole table, as the body slices it (offset zero, full extent), places every index at itself. -/
theorem emb_tAllK (z : S100002x128.Idx) : (tAllK).view.emb z = z := by
  show (Rect.unit (s := S100002x128) ![0, 0] S100002x128.size inb_S100002x128_S100002x128_0_0).emb z = z
  funext c
  apply Fin.ext
  rw [Rect.emb_apply]
  match c with
  | ⟨0, _⟩ => show 0 + 1 * (z 0).val = (z 0).val; omega
  | ⟨1, _⟩ => show 0 + 1 * (z 1).val = (z 1).val; omega

/-- Entry j of row n of the index scratch, as the body slices the row (slice, then drop the axis of extent one),
    sits at (n, j). -/
theorem emb_lrowK (n : ℕ) (hn : n < 400) (inb : ∀ a, (![n, 0] : Fin 2 → ℕ) a + S1x64.size a ≤ S400x64.size a) (j : Fin 64) :
    (lrowK ![n, 0] inb).view.emb (ValueIdx.ix1 j) = ValueIdx.ix2 (⟨n, hn⟩ : Fin 400) j := by
  have hq : Shape.reshapeEquiv (s := S1x64) (s' := S64) squeezes_S1x64_S64.numel_eq (ValueIdx.ix1 j) = ValueIdx.ix2 (0 : Fin 1) j := by
    refine Shape.reshapeEquiv_eq_of_rowMajor _ ?_
    rw [Shape.rowMajor_val_one, Shape.rowMajor_val_two]
    show 0 * 64 + j.val = j.val
    omega
  show (Rect.unit (s := S400x64) ![n, 0] S1x64.size inb).emb
      (Shape.reshapeEquiv (s := S1x64) (s' := S64) squeezes_S1x64_S64.numel_eq (ValueIdx.ix1 j)) = _
  rw [hq]
  funext c
  apply Fin.ext
  rw [Rect.emb_apply]
  match c with
  | ⟨0, _⟩ => show n + 1 * 0 = n; omega
  | ⟨1, _⟩ => show 0 + 1 * j.val = j.val; omega

/-- Position k of a list of 64 words is its entry k. -/
theorem rowMajor_symm_S64 (k : Fin 64) (k' : Fin S64.numel) (h : k'.val = k.val) : S64.rowMajor.symm k' = ValueIdx.ix1 k := by
  rw [Equiv.symm_apply_eq]
  apply Fin.ext
  rw [Shape.rowMajor_val_one]
  exact h

/-- Entry r of the index lists read as 32 × 400 × 64 is entry (w, n, j) when r = 25600 w + 64 n + j. -/
theorem flatIx_eq (r : Fin 819200) (w : Fin 32) (n : Fin 400) (j : Fin 64) (h : r.val = 25600 * w.val + 64 * n.val + j.val) :
    Emb.flatIx r = ValueIdx.ix3 w n j := by
  have hw := w.isLt
  have hn := n.isLt
  have hj := j.isLt
  funext a
  match a with
  | ⟨0, _⟩ => exact Fin.ext (by show r.val / 25600 = w.val; omega)
  | ⟨1, _⟩ => exact Fin.ext (by show r.val % 25600 / 64 = n.val; omega)
  | ⟨2, _⟩ => exact Fin.ext (by show r.val % 64 = j.val; omega)

section Value

variable (d : Dev nD) (L : grid0.Coords) (ft : Buf (Elt F) (tLoc d)) (fI : Buf (Elt F) ((V d (cV L) (jV L)).loc cc0_scratch0))
  (hin : ∀ (off : Fin 2 → ℕ) (inb : ∀ a, off a + S1x64.size a ≤ S400x64.size a) x,
      ((lrowK off inb).view.read (Elt F) fI x).toNat < S100002x128.size gathers_S100002x128_S64x128.axis)

/-- What the gather over list row n lands at (j, c): the table's entry (row, c), row the number the j-th word of
    the list row is. Stated for any table index `z` with those two coordinates. -/
theorem gpay_apply (n : ℕ) (hn : n < 400) (inb : ∀ a, (![n, 0] : Fin 2 → ℕ) a + S1x64.size a ≤ S400x64.size a)
    (j : Fin 64) (c : Fin 128) (z : S100002x128.Idx)
    (hz0 : (z 0).val = (fI (ValueIdx.ix2 (⟨n, hn⟩ : Fin 400) j)).toNat) (hz1 : (z 1).val = c.val) :
    gpay d L ft fI hin ![n, 0] inb (ValueIdx.ix2 j c) = ft z := by
  unfold gpay SparseCore.gatherPayload
  show ft ((tAllK).view.emb _) = ft z
  rw [emb_tAllK]
  refine congrArg ft (funext fun a => Fin.ext ?_)
  match a with
  | ⟨0, _⟩ =>
    refine (congrArg Fin.val (Shape.Gathers.idx_axis gathers_S100002x128_S64x128 _ (ValueIdx.ix2 j c))).trans ?_
    show (fI ((lrowK ![n, 0] inb).view.emb (S64.rowMajor.symm _))).toNat = (z 0).val
    rw [rowMajor_symm_S64 j]
    · rw [emb_lrowK n hn inb j, hz0]
    · rfl
  | ⟨1, _⟩ =>
    refine (Shape.Gathers.idx_of_ne gathers_S100002x128_S64x128 _ (ValueIdx.ix2 j c) ⟨1, by decide⟩ (by decide)).trans ?_
    show c.val = (z 1).val
    exact hz1.symm

end Value

/-- The value: a chunk of the gathered rows written whole with the payload of the gather over list row n holds, on its
    own elements, the specification's rows — when the chunk starts at row 25600 w + 64 n and the scratch holds the worker's list. -/
theorem chunk_value (d : Dev nD) (L : grid0.Coords) (fi : Buf (Elt F) (iLoc d)) (ft : Buf (Elt F) (tLoc d)) (hfi : ∀ j, (fi j).toNat < 100002)
    (fI : Buf (Elt F) ((V d (cV L) (jV L)).loc cc0_scratch0))
    (hfI : ∀ (a : Fin 400) (b : Fin 64), fI (ValueIdx.ix2 a b) = fi (ValueIdx.ix3 (⟨wid L, wid_lt L⟩ : Fin 32) a b))
    (hin : ∀ (off : Fin 2 → ℕ) (inb : ∀ a, off a + S1x64.size a ≤ S400x64.size a) x, ((lrowK off inb).view.read (Elt F) fI x).toNat < S100002x128.size gathers_S100002x128_S64x128.axis)
    (n : ℕ) (hn : n < 400) (inb : ∀ a, (![n, 0] : Fin 2 → ℕ) a + S1x64.size a ≤ S400x64.size a)
    (off : Fin 2 → ℕ) (oinb : ∀ a, off a + S64x128.size a ≤ S819200x128.size a) (hoff : off = ![25600 * wid L + 64 * n, 0])
    (fo : Buf (Elt F) (oLoc d)) (p : S64x128.Idx → Elt F .f32) (hp : p = gpay d L ft fI hin ![n, 0] inb) :
    ∀ i ∈ (chunkAt off oinb).view.set, (chunkAt off oinb).view.writes (Elt F) fo [⟨Rect.whole S64x128, p⟩] i = gathered d fi ft i := by
  intro i hi
  obtain ⟨y, -, rfl⟩ := Finset.mem_map.mp hi
  obtain ⟨j, c, rfl⟩ : ∃ (j : Fin 64) (c : Fin 128), y = ValueIdx.ix2 j c := ⟨y 0, y 1, ValueIdx.eq_ix2 y⟩
  -- the element under (j, c) of the chunk: row 25600 w + 64 n + j, column c
  have h0 : (((chunkAt off oinb).view.emb (ValueIdx.ix2 j c)) 0).val = 25600 * wid L + 64 * n + j.val := by
    show off 0 + 1 * j.val = _
    rw [hoff]
    show 25600 * wid L + 64 * n + 1 * j.val = _
    omega
  have h1 : (((chunkAt off oinb).view.emb (ValueIdx.ix2 j c)) 1).val = c.val := by
    show off 1 + 1 * c.val = _
    rw [hoff]
    show 0 + 1 * c.val = _
    omega
  -- the chunk written whole reads the payload there
  have hw := View.read_writes_cons_emb (chunkAt off oinb).view fo (Rect.whole S64x128) p [] (ValueIdx.ix2 j c)
  rw [Rect.emb_whole_apply] at hw
  show (chunkAt off oinb).view.read (Elt F) ((chunkAt off oinb).view.writes (Elt F) fo [⟨Rect.whole S64x128, p⟩]) (ValueIdx.ix2 j c) = _
  rw [hw, hp]
  -- the specification there
  have hf : Emb.flatIx (((chunkAt off oinb).view.emb (ValueIdx.ix2 j c)) 0) = ValueIdx.ix3 (⟨wid L, wid_lt L⟩ : Fin 32) (⟨n, hn⟩ : Fin 400) j :=
    flatIx_eq _ _ _ _ h0
  show _ = ft (ValueIdx.ix2 (Emb.rowOf (fi (Emb.flatIx (((chunkAt off oinb).view.emb (ValueIdx.ix2 j c)) 0)))) (((chunkAt off oinb).view.emb (ValueIdx.ix2 j c)) 1))
  refine gpay_apply d L ft fI hin n hn inb j c _ ?_ h1
  show (Emb.rowOf (fi (Emb.flatIx (((chunkAt off oinb).view.emb (ValueIdx.ix2 j c)) 0)))).val = _
  rw [hf, Emb.rowOf_val (hfi _), hfI]

end Cert.KI

end
-- ==== Proof.KI.Body.lean ====
/-
  One vector subcore's task, worker w = 2 s + c of the thirty-two: fetch list w of the index lists (400 chunks of
  64 row numbers) into the index scratch; then keep eight gathers in flight, one per row slot — chunk n's gather
  lands in slot n mod 8 the 64 table rows its words name —, and for each chunk in turn wait for its gather, copy
  the slot out to rows [25600 w + 64 n, 25600 w + 64 n + 64) of the gathered rows, wait for the copy, and start
  the gather of chunk n + 8 into the freed slot; the last eight chunks are copied out after the loop. Each slot has
  its own pair of semaphores (gather, copy out), so at most one transfer is pending on a semaphore at a time, and a
  slot is touched only between one transfer's completion and the next one's start. The table is only read (eight
  read tokens of the worker's share, one per slot), the index scratch is only read after the fetch (eight read
  pieces, one per slot), and every row number is below 100002 (the precondition), so every gather's rows exist.
  The invariant before trip k of the 49: chunks 8k … 8k+7 in flight, rows [25600 w, 25600 w + 512 k) holding the
  specification's rows, the rest untouched. At the end all 25600 rows hold the specification's rows, the table
  and the index list are as they were, and the scratch buffers and semaphores are back whole and at zero.
-/
import proofs.«206746_g85272280694944_cont_9to1c4b_772_17_alg».proof.Proof.KI.Values

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

section BodyLemmas

variable (d : Dev nD) (L : grid0.Coords)

/-- A wait recorded at the kernel's own index keeps the record admissible. -/
theorem waits_insert {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

/-- A chunk's first row, in trip k: 25600 w + 64 (8 k + r). -/
theorem off3_eq (k : Fin k0_t1_loop.trips) (r : Fin 8) :
    k0_off3 L k (BitVec.ofNat 32 r.val) = ![25600 * wid L + 64 * (8 * k.val + r.val), 0] := by
  rw [k0_off3_eq]; unfold wid; congr 1; omega
/-- The list row the next gather of slot r reads, in trip k: row 8 (k + 1) + r. -/
theorem off4_eq (k : Fin k0_t1_loop.trips) (r : Fin 8) :
    k0_off4 k (BitVec.ofNat 32 r.val) = ![8 * (k.val + 1) + r.val, 0] := by
  rw [k0_off4_eq]; congr 1; omega
/-- A last chunk's first row: 25600 w + 64 (392 + r). -/
theorem off5_eq (r : Fin 8) :
    k0_off5 L (BitVec.ofNat 32 (25088 + 64 * r.val)) = ![25600 * wid L + 64 * (392 + r.val), 0] := by
  rw [k0_off5_eq]; unfold wid; congr 1; omega

theorem pts_chunk_at (k : Fin k0_t1_loop.trips) (r : Fin 8) (a b : ℕ) (ha : a = 25600 * wid L + 512 * k.val + 64 * r.val) (hb : b = a + 64)
    (f : Buf (Elt F) (oLoc d)) :
    ((chunkK L k r).view.loc (V d (cV L) (jV L)) ↦[(chunkK L k r).view.set]{fullShare} f : sProp 𝕄) = oLoc d ↦[oRows a b]{fullShare} f := by
  subst ha hb; exact pts_chunk d L k r f
theorem pts_last_at (r : Fin 8) (a b : ℕ) (ha : a = 25600 * wid L + 512 * 49 + 64 * r.val) (hb : b = a + 64) (f : Buf (Elt F) (oLoc d)) :
    ((lastK L r).view.loc (V d (cV L) (jV L)) ↦[(lastK L r).view.set]{fullShare} f : sProp 𝕄) = oLoc d ↦[oRows a b]{fullShare} f := by
  subst ha hb; exact pts_last d L r f

/-- The eight slots, each at some contents, are the whole row scratch at some contents. -/
theorem slots_join8 :
    (iprop((∃ f, (sR).view.loc (V d (cV L) (jV L)) ↦[slotSet ((0 : Fin 8)).val]{fullShare} f) ∗ (∃ f, (sR).view.loc (V d (cV L) (jV L)) ↦[slotSet ((1 : Fin 8)).val]{fullShare} f) ∗ (∃ f, (sR).view.loc (V d (cV L) (jV L)) ↦[slotSet ((2 : Fin 8)).val]{fullShare} f) ∗ (∃ f, (sR).view.loc (V d (cV L) (jV L)) ↦[slotSet ((3 : Fin 8)).val]{fullShare} f) ∗ (∃ f, (sR).view.loc (V d (cV L) (jV L)) ↦[slotSet ((4 : Fin 8)).val]{fullShare} f) ∗ (∃ f, (sR).view.loc (V d (cV L) (jV L)) ↦[slotSet ((5 : Fin 8)).val]{fullShare} f) ∗ (∃ f, (sR).view.loc (V d (cV L) (jV L)) ↦[slotSet ((6 : Fin 8)).val]{fullShare} f) ∗ (∃ f, (sR).view.loc (V d (cV L) (jV L)) ↦[slotSet ((7 : Fin 8)).val]{fullShare} f)) : sProp 𝕄)
      ⊢ (iprop(∃ f, (V d (cV L) (jV L)).loc cc0_scratch1 ↦{fullShare} f) : sProp 𝕄) := by
  have e : (iprop((∃ f, (sR).view.loc (V d (cV L) (jV L)) ↦[slotSet ((0 : Fin 8)).val]{fullShare} f) ∗ (∃ f, (sR).view.loc (V d (cV L) (jV L)) ↦[slotSet ((1 : Fin 8)).val]{fullShare} f) ∗ (∃ f, (sR).view.loc (V d (cV L) (jV L)) ↦[slotSet ((2 : Fin 8)).val]{fullShare} f) ∗ (∃ f, (sR).view.loc (V d (cV L) (jV L)) ↦[slotSet ((3 : Fin 8)).val]{fullShare} f) ∗ (∃ f, (sR).view.loc (V d (cV L) (jV L)) ↦[slotSet ((4 : Fin 8)).val]{fullShare} f) ∗ (∃ f, (sR).view.loc (V d (cV L) (jV L)) ↦[slotSet ((5 : Fin 8)).val]{fullShare} f) ∗ (∃ f, (sR).view.loc (V d (cV L) (jV L)) ↦[slotSet ((6 : Fin 8)).val]{fullShare} f) ∗ (∃ f, (sR).view.loc (V d (cV L) (jV L)) ↦[slotSet ((7 : Fin 8)).val]{fullShare} f)) : sProp 𝕄)
      = bigSep Finset.univ fun b : Fin 8 => iprop(∃ f, (sR).view.loc (V d (cV L) (jV L)) ↦[slotSet b.val]{fullShare} f) :=
    (bigSep_fin8 (F := F) (fun b : Fin 8 => iprop(∃ f, (sR).view.loc (V d (cV L) (jV L)) ↦[slotSet b.val]{fullShare} f))).symm
  rw [e]
  refine (bigSep_exists_pi Finset.univ (fun (b : Fin 8) (f : Buf (Elt F) ((V d (cV L) (jV L)).loc cc0_scratch1)) =>
      (sR).view.loc (V d (cV L) (jV L)) ↦[slotSet b.val]{fullShare} f)).trans ?_
  iintro ⟨%fs, H⟩
  ihave H' := (pointsTo_biUnion_join Finset.univ (fun b : Fin 8 => slotSet b.val) fs (fs 0) slots_disjoint) $$ H
  icases H' with ⟨%g, -, Hg⟩
  rw [slots_cover]
  iexists g; iexact Hg

theorem trips_eq : Scf.trips k0_t1_loop.lb k0_t1_loop.ub k0_t1_loop.st = 49 := by decide

end BodyLemmas

set_option maxHeartbeats 8000000 in
theorem tile_body (d : Dev nD) (L : grid0.Coords) (hF : (K (F := F)).Facts)
    (fi : Buf (Elt F) (iLoc d)) (ft : Buf (Elt F) (tLoc d)) (fo : Buf (Elt F) (oLoc d)) (hfi : ∀ j, (fi j).toNat < 100002)
    (O : CellTallies nD τ sig (HIx 1)) (W : Waits sig (HIx 1)) (hO : ∀ g, O g none = 0) :
    iprop(levAts (K (F := F)).L (K (F := F)).lev ∗ emp
        ∗ (iRowPts d (wid L) fi ∗ tShPts d (wid L) ft ∗ oPartPts d (wid L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_kernel L iV (Memref.isWhole_whole _) tV (Memref.isWhole_whole _) oV (Memref.isWhole_whole _) sI (Memref.isWhole_whole _) sR (Memref.isWhole_whole _)
            cc0_scratch2 cc0_scratch3 cc0_scratch4 cc0_scratch5 cc0_scratch6 cc0_scratch7 cc0_scratch8 cc0_scratch9
            cc0_scratch10 cc0_scratch11 cc0_scratch12 cc0_scratch13 cc0_scratch14 cc0_scratch15 cc0_scratch16 cc0_scratch17 cc0_scoped0)
          fun _ => iprop((iRowPts d (wid L) fi ∗ tShPts d (wid L) ft ∗ oPartPts d (wid L) (gathered d fi ft))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_kernel_eq_skeleton]; unfold cc0__emb_kernel_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨Hg0, Hg1, Hg2, Hg3, Hg4, Hg5, Hg6, Hg7, Hp0, Hp1, Hp2, Hp3, Hp4, Hp5, Hp6, Hp7, Hsc⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (Entails.of_eq (pts_sI (F := F) d L _).symm) $$ Hs
  sl_exec
  -- the list as it landed
  generalize hfI : (View.write (Elt F) (Memref.whole cc0_scratch0).view fs (tile_body.sl.dma0 d L fi) Finset.univ : Buf (Elt F) ((V d (cV L) (jV L)).loc cc0_scratch0)) = fI
  have hfIv : ∀ (a : Fin 400) (b : Fin 64), fI (ValueIdx.ix2 a b) = fi (ValueIdx.ix3 (⟨wid L, wid_lt L⟩ : Fin 32) a b) :=
    fun a b => hfI ▸ list_landed (F := F) d L fi fs a b
  have hfI_in : ∀ j, (fI j).toNat < 100002 := by
    intro j
    obtain ⟨a, b, rfl⟩ : ∃ (a : Fin 400) (b : Fin 64), j = ValueIdx.ix2 a b := ⟨j 0, j 1, ValueIdx.eq_ix2 j⟩
    rw [hfIv a b]
    exact hfi _
  have hin : ∀ (off : Fin 2 → ℕ) (inb : ∀ a, off a + S1x64.size a ≤ S400x64.size a) x,
      ((lrowK off inb).view.read (Elt F) fI x).toNat < S100002x128.size gathers_S100002x128_S64x128.axis :=
    list_in_range (F := F) d L fI hfI_in
  -- the list in eight read pieces and the table in eight read tokens, one per slot
  ihave Hs2 := (Transfers.pointsTo_toks_split fullShare 7) $$ Hs'
  icases Hs2 with ⟨Hsd, Hst⟩
  ihave Hst' := (Entails.of_eq (bigSep_fin7 (F := F) _)) $$ Hst
  icases Hst' with ⟨Hs0, Hs1, Hs2, Hs3, Hs4, Hs5, Hs6⟩
  ihave Ht' := (Entails.of_eq (pts_tV (F := F) d L _ _).symm) $$ Ht
  ihave Ht2 := (Transfers.pointsTo_toks_split (tq (wid L)) 8) $$ Ht'
  icases Ht2 with ⟨Htd, Htt⟩
  ihave Htt' := (Entails.of_eq (bigSep_fin8 (F := F) _)) $$ Htt
  icases Htt' with ⟨Ht0, Ht1, Ht2, Ht3, Ht4, Ht5, Ht6, Ht7⟩
  -- the slots
  ihave Hr' := (Entails.of_eq (pts_sR (F := F) d L _).symm) $$ Hr
  ihave Hr2 := (Entails.of_eq (sR_slots (F := F) d L _)) $$ Hr'
  ihave Hr3 := (Entails.of_eq (bigSep_fin8 (F := F) _)) $$ Hr2
  icases Hr3 with ⟨Hq0, Hq1, Hq2, Hq3, Hq4, Hq5, Hq6, Hq7⟩
  ihave Hr0' := (Entails.of_eq (pts_slot0 (F := F) d L _).symm) $$ Hq0
  ihave Hr1' := (Entails.of_eq (pts_slot1 (F := F) d L _).symm) $$ Hq1
  ihave Hr2' := (Entails.of_eq (pts_slot2 (F := F) d L _).symm) $$ Hq2
  ihave Hr3' := (Entails.of_eq (pts_slot3 (F := F) d L _).symm) $$ Hq3
  ihave Hr4' := (Entails.of_eq (pts_slot4 (F := F) d L _).symm) $$ Hq4
  ihave Hr5' := (Entails.of_eq (pts_slot5 (F := F) d L _).symm) $$ Hq5
  ihave Hr6' := (Entails.of_eq (pts_slot6 (F := F) d L _).symm) $$ Hq6
  ihave Hr7' := (Entails.of_eq (pts_slot7 (F := F) d L _).symm) $$ Hq7
  sl_exec

  sl_for (inv d L ft fI hin fo (gathered d fi ft) O W) $$ [Hmw Hg0 Ht0 Hr0' Hsd Hg1 Ht1 Hr1' Hs0 Hg2 Ht2 Hr2' Hs1 Hg3 Ht3 Hr3' Hs2 Hg4 Ht4 Hr4' Hs3 Hg5 Ht5 Hr5' Hs4 Hg6 Ht6 Hr6' Hs5 Hg7 Ht7 Hr7' Hs6 Hp0 Hp1 Hp2 Hp3 Hp4 Hp5 Hp6 Hp7 Ho HO]
  case region =>
    intro k _
    have hk : k.val < 49 := lt_of_lt_of_le (show k.val < k0_t1_loop.trips from k.isLt) k0_t1_abs.2.1
    unfold inv inFlight
    iintro ⟨#Hmw, ⟨%off0, %inb0, %fr0, %hoff0, Hg0, Ht0, Hr0, Hs0⟩, ⟨%off1, %inb1, %fr1, %hoff1, Hg1, Ht1, Hr1, Hs1⟩, ⟨%off2, %inb2, %fr2, %hoff2, Hg2, Ht2, Hr2, Hs2⟩, ⟨%off3, %inb3, %fr3, %hoff3, Hg3, Ht3, Hr3, Hs3⟩, ⟨%off4, %inb4, %fr4, %hoff4, Hg4, Ht4, Hr4, Hs4⟩, ⟨%off5, %inb5, %fr5, %hoff5, Hg5, Ht5, Hr5, Hs5⟩, ⟨%off6, %inb6, %fr6, %hoff6, Hg6, Ht6, Hr6, Hs6⟩, ⟨%off7, %inb7, %fr7, %hoff7, Hg7, Ht7, Hr7, Hs7⟩, Hp0, Hp1, Hp2, Hp3, Hp4, Hp5, Hp6, Hp7, Hdone, Htodo, %W', %hW', HO⟩
    subst hoff0 hoff1 hoff2 hoff3 hoff4 hoff5 hoff6 hoff7
    -- this trip's block of 512 rows, and its eight chunks as the body slices them
    ihave Hsp := (todo_split (F := F) d (25600 * wid L) k.val (by omega) fo).1 $$ Htodo
    icases Hsp with ⟨Hblk, Htodo⟩
    ihave Hblk' := (Entails.of_eq (block_chunks (F := F) d (25600 * wid L + 512 * k.val) fo)) $$ Hblk
    icases Hblk' with ⟨Hc0, Hc1, Hc2, Hc3, Hc4, Hc5, Hc6, Hc7⟩
    ihave Hc0' := (Entails.of_eq (pts_chunk_at (F := F) d L k 0 (25600 * wid L + 512 * k.val + 0) (25600 * wid L + 512 * k.val + 64) (by simp) (by omega) fo).symm) $$ Hc0
    ihave Hc1' := (Entails.of_eq (pts_chunk_at (F := F) d L k 1 (25600 * wid L + 512 * k.val + 64) (25600 * wid L + 512 * k.val + 128) (by simp) (by omega) fo).symm) $$ Hc1
    ihave Hc2' := (Entails.of_eq (pts_chunk_at (F := F) d L k 2 (25600 * wid L + 512 * k.val + 128) (25600 * wid L + 512 * k.val + 192) (by simp) (by omega) fo).symm) $$ Hc2
    ihave Hc3' := (Entails.of_eq (pts_chunk_at (F := F) d L k 3 (25600 * wid L + 512 * k.val + 192) (25600 * wid L + 512 * k.val + 256) (by simp) (by omega) fo).symm) $$ Hc3
    ihave Hc4' := (Entails.of_eq (pts_chunk_at (F := F) d L k 4 (25600 * wid L + 512 * k.val + 256) (25600 * wid L + 512 * k.val + 320) (by simp) (by omega) fo).symm) $$ Hc4
    ihave Hc5' := (Entails.of_eq (pts_chunk_at (F := F) d L k 5 (25600 * wid L + 512 * k.val + 320) (25600 * wid L + 512 * k.val + 384) (by simp) (by omega) fo).symm) $$ Hc5
    ihave Hc6' := (Entails.of_eq (pts_chunk_at (F := F) d L k 6 (25600 * wid L + 512 * k.val + 384) (25600 * wid L + 512 * k.val + 448) (by simp) (by omega) fo).symm) $$ Hc6
    ihave Hc7' := (Entails.of_eq (pts_chunk_at (F := F) d L k 7 (25600 * wid L + 512 * k.val + 448) (25600 * wid L + 512 * k.val + 512) (by simp) (by omega) fo).symm) $$ Hc7
    sl_exec
    sl_step
    -- each chunk copied out holds the gathered rows; the eight are the block; the block joins the rows done
    ihave Hv0 := (Entails.of_eq (pointsTo_congr (chunk_value (F := F) d L fi ft hfi fI hfIv hin (8 * k.val + 0) (by omega) inb0
        (k0_off3 L k (BitVec.ofNat 32 0)) (k0_off3_inb L k 0) (off3_eq L k 0) fo _ (slot_read_back (F := F) d L 0 inb_S8x64x128_S1x64x128_0_0_0 fr0 _)))) $$ Hc0'
    ihave Hw0 := (Entails.of_eq (pts_chunk_at (F := F) d L k 0 (25600 * wid L + 512 * k.val + 0) (25600 * wid L + 512 * k.val + 64) (by simp) (by omega) (gathered d fi ft))) $$ Hv0
    ihave Hv1 := (Entails.of_eq (pointsTo_congr (chunk_value (F := F) d L fi ft hfi fI hfIv hin (8 * k.val + 1) (by omega) inb1
        (k0_off3 L k (BitVec.ofNat 32 1)) (k0_off3_inb L k 1) (off3_eq L k 1) fo _ (slot_read_back (F := F) d L 1 inb_S8x64x128_S1x64x128_1_0_0 fr1 _)))) $$ Hc1'
    ihave Hw1 := (Entails.of_eq (pts_chunk_at (F := F) d L k 1 (25600 * wid L + 512 * k.val + 64) (25600 * wid L + 512 * k.val + 128) (by simp) (by omega) (gathered d fi ft))) $$ Hv1
    ihave Hv2 := (Entails.of_eq (pointsTo_congr (chunk_value (F := F) d L fi ft hfi fI hfIv hin (8 * k.val + 2) (by omega) inb2
        (k0_off3 L k (BitVec.ofNat 32 2)) (k0_off3_inb L k 2) (off3_eq L k 2) fo _ (slot_read_back (F := F) d L 2 inb_S8x64x128_S1x64x128_2_0_0 fr2 _)))) $$ Hc2'
    ihave Hw2 := (Entails.of_eq (pts_chunk_at (F := F) d L k 2 (25600 * wid L + 512 * k.val + 128) (25600 * wid L + 512 * k.val + 192) (by simp) (by omega) (gathered d fi ft))) $$ Hv2
    ihave Hv3 := (Entails.of_eq (pointsTo_congr (chunk_value (F := F) d L fi ft hfi fI hfIv hin (8 * k.val + 3) (by omega) inb3
        (k0_off3 L k (BitVec.ofNat 32 3)) (k0_off3_inb L k 3) (off3_eq L k 3) fo _ (slot_read_back (F := F) d L 3 inb_S8x64x128_S1x64x128_3_0_0 fr3 _)))) $$ Hc3'
    ihave Hw3 := (Entails.of_eq (pts_chunk_at (F := F) d L k 3 (25600 * wid L + 512 * k.val + 192) (25600 * wid L + 512 * k.val + 256) (by simp) (by omega) (gathered d fi ft))) $$ Hv3
    ihave Hv4 := (Entails.of_eq (pointsTo_congr (chunk_value (F := F) d L fi ft hfi fI hfIv hin (8 * k.val + 4) (by omega) inb4
        (k0_off3 L k (BitVec.ofNat 32 4)) (k0_off3_inb L k 4) (off3_eq L k 4) fo _ (slot_read_back (F := F) d L 4 inb_S8x64x128_S1x64x128_4_0_0 fr4 _)))) $$ Hc4'
    ihave Hw4 := (Entails.of_eq (pts_chunk_at (F := F) d L k 4 (25600 * wid L + 512 * k.val + 256) (25600 * wid L + 512 * k.val + 320) (by simp) (by omega) (gathered d fi ft))) $$ Hv4
    ihave Hv5 := (Entails.of_eq (pointsTo_congr (chunk_value (F := F) d L fi ft hfi fI hfIv hin (8 * k.val + 5) (by omega) inb5
        (k0_off3 L k (BitVec.ofNat 32 5)) (k0_off3_inb L k 5) (off3_eq L k 5) fo _ (slot_read_back (F := F) d L 5 inb_S8x64x128_S1x64x128_5_0_0 fr5 _)))) $$ Hc5'
    ihave Hw5 := (Entails.of_eq (pts_chunk_at (F := F) d L k 5 (25600 * wid L + 512 * k.val + 320) (25600 * wid L + 512 * k.val + 384) (by simp) (by omega) (gathered d fi ft))) $$ Hv5
    ihave Hv6 := (Entails.of_eq (pointsTo_congr (chunk_value (F := F) d L fi ft hfi fI hfIv hin (8 * k.val + 6) (by omega) inb6
        (k0_off3 L k (BitVec.ofNat 32 6)) (k0_off3_inb L k 6) (off3_eq L k 6) fo _ (slot_read_back (F := F) d L 6 inb_S8x64x128_S1x64x128_6_0_0 fr6 _)))) $$ Hc6'
    ihave Hw6 := (Entails.of_eq (pts_chunk_at (F := F) d L k 6 (25600 * wid L + 512 * k.val + 384) (25600 * wid L + 512 * k.val + 448) (by simp) (by omega) (gathered d fi ft))) $$ Hv6
    ihave Hv7 := (Entails.of_eq (pointsTo_congr (chunk_value (F := F) d L fi ft hfi fI hfIv hin (8 * k.val + 7) (by omega) inb7
        (k0_off3 L k (BitVec.ofNat 32 7)) (k0_off3_inb L k 7) (off3_eq L k 7) fo _ (slot_read_back (F := F) d L 7 inb_S8x64x128_S1x64x128_7_0_0 fr7 _)))) $$ Hc7'
    ihave Hw7 := (Entails.of_eq (pts_chunk_at (F := F) d L k 7 (25600 * wid L + 512 * k.val + 448) (25600 * wid L + 512 * k.val + 512) (by simp) (by omega) (gathered d fi ft))) $$ Hv7
    ihave Hblk2 := (Entails.of_eq (block_chunks (F := F) d (25600 * wid L + 512 * k.val) (gathered d fi ft)).symm) $$ [Hw0 Hw1 Hw2 Hw3 Hw4 Hw5 Hw6 Hw7]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    ihave Hdone2 := (done_join (F := F) d (25600 * wid L) k.val (gathered d fi ft)).1 $$ [Hdone Hblk2]
    · isplitl [Hdone] <;> iassumption
    isplitl []; · iexact Hmw
    isplitl [Hg0 Ht0 Hr0 Hs0]
    · iexists (k0_off4 k (BitVec.ofNat 32 0)), (k0_off4_inb k 0), _
      isplitr; · ipureintro; exact off4_eq k 0
      isplitl [Hg0]; · iexact Hg0
      isplitl [Ht0]; · iexact Ht0
      isplitl [Hr0]; · iexact Hr0
      iexact Hs0
    isplitl [Hg1 Ht1 Hr1 Hs1]
    · iexists (k0_off4 k (BitVec.ofNat 32 1)), (k0_off4_inb k 1), _
      isplitr; · ipureintro; exact off4_eq k 1
      isplitl [Hg1]; · iexact Hg1
      isplitl [Ht1]; · iexact Ht1
      isplitl [Hr1]; · iexact Hr1
      iexact Hs1
    isplitl [Hg2 Ht2 Hr2 Hs2]
    · iexists (k0_off4 k (BitVec.ofNat 32 2)), (k0_off4_inb k 2), _
      isplitr; · ipureintro; exact off4_eq k 2
      isplitl [Hg2]; · iexact Hg2
      isplitl [Ht2]; · iexact Ht2
      isplitl [Hr2]; · iexact Hr2
      iexact Hs2
    isplitl [Hg3 Ht3 Hr3 Hs3]
    · iexists (k0_off4 k (BitVec.ofNat 32 3)), (k0_off4_inb k 3), _
      isplitr; · ipureintro; exact off4_eq k 3
      isplitl [Hg3]; · iexact Hg3
      isplitl [Ht3]; · iexact Ht3
      isplitl [Hr3]; · iexact Hr3
      iexact Hs3
    isplitl [Hg4 Ht4 Hr4 Hs4]
    · iexists (k0_off4 k (BitVec.ofNat 32 4)), (k0_off4_inb k 4), _
      isplitr; · ipureintro; exact off4_eq k 4
      isplitl [Hg4]; · iexact Hg4
      isplitl [Ht4]; · iexact Ht4
      isplitl [Hr4]; · iexact Hr4
      iexact Hs4
    isplitl [Hg5 Ht5 Hr5 Hs5]
    · iexists (k0_off4 k (BitVec.ofNat 32 5)), (k0_off4_inb k 5), _
      isplitr; · ipureintro; exact off4_eq k 5
      isplitl [Hg5]; · iexact Hg5
      isplitl [Ht5]; · iexact Ht5
      isplitl [Hr5]; · iexact Hr5
      iexact Hs5
    isplitl [Hg6 Ht6 Hr6 Hs6]
    · iexists (k0_off4 k (BitVec.ofNat 32 6)), (k0_off4_inb k 6), _
      isplitr; · ipureintro; exact off4_eq k 6
      isplitl [Hg6]; · iexact Hg6
      isplitl [Ht6]; · iexact Ht6
      isplitl [Hr6]; · iexact Hr6
      iexact Hs6
    isplitl [Hg7 Ht7 Hr7 Hs7]
    · iexists (k0_off4 k (BitVec.ofNat 32 7)), (k0_off4_inb k 7), _
      isplitr; · ipureintro; exact off4_eq k 7
      isplitl [Hg7]; · iexact Hg7
      isplitl [Ht7]; · iexact Ht7
      isplitl [Hr7]; · iexact Hr7
      iexact Hs7
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hdone2]; · iexact Hdone2
    isplitl [Htodo]; · iexact Htodo
    iexists _; isplitr
    swap; · iexact HO
    ipureintro
    intro p hp
    simp only [Finset.mem_insert] at hp
    rcases hp with rfl | rfl | rfl | rfl | rfl | rfl | rfl | rfl | rfl | rfl | rfl | rfl | rfl | rfl | rfl | rfl | hp
    all_goals first | exact .inr rfl | exact hW' p hp
  · unfold inv inFlight
    isplitl []; · iexact Hmw
    isplitl [Hg0 Ht0 Hr0' Hsd]
    · iexists ![0, 0], inb_S400x64_S1x64_0_0, fr
      isplitr; · ipureintro; rfl
      isplitl [Hg0]; · iexact Hg0
      isplitl [Ht0]; · iexact Ht0
      isplitl [Hr0']; · iexact Hr0'
      iexact Hsd
    isplitl [Hg1 Ht1 Hr1' Hs0]
    · iexists ![1, 0], inb_S400x64_S1x64_1_0, fr
      isplitr; · ipureintro; rfl
      isplitl [Hg1]; · iexact Hg1
      isplitl [Ht1]; · iexact Ht1
      isplitl [Hr1']; · iexact Hr1'
      iexact Hs0
    isplitl [Hg2 Ht2 Hr2' Hs1]
    · iexists ![2, 0], inb_S400x64_S1x64_2_0, fr
      isplitr; · ipureintro; rfl
      isplitl [Hg2]; · iexact Hg2
      isplitl [Ht2]; · iexact Ht2
      isplitl [Hr2']; · iexact Hr2'
      iexact Hs1
    isplitl [Hg3 Ht3 Hr3' Hs2]
    · iexists ![3, 0], inb_S400x64_S1x64_3_0, fr
      isplitr; · ipureintro; rfl
      isplitl [Hg3]; · iexact Hg3
      isplitl [Ht3]; · iexact Ht3
      isplitl [Hr3']; · iexact Hr3'
      iexact Hs2
    isplitl [Hg4 Ht4 Hr4' Hs3]
    · iexists ![4, 0], inb_S400x64_S1x64_4_0, fr
      isplitr; · ipureintro; rfl
      isplitl [Hg4]; · iexact Hg4
      isplitl [Ht4]; · iexact Ht4
      isplitl [Hr4']; · iexact Hr4'
      iexact Hs3
    isplitl [Hg5 Ht5 Hr5' Hs4]
    · iexists ![5, 0], inb_S400x64_S1x64_5_0, fr
      isplitr; · ipureintro; rfl
      isplitl [Hg5]; · iexact Hg5
      isplitl [Ht5]; · iexact Ht5
      isplitl [Hr5']; · iexact Hr5'
      iexact Hs4
    isplitl [Hg6 Ht6 Hr6' Hs5]
    · iexists ![6, 0], inb_S400x64_S1x64_6_0, fr
      isplitr; · ipureintro; rfl
      isplitl [Hg6]; · iexact Hg6
      isplitl [Ht6]; · iexact Ht6
      isplitl [Hr6']; · iexact Hr6'
      iexact Hs5
    isplitl [Hg7 Ht7 Hr7' Hs6]
    · iexists ![7, 0], inb_S400x64_S1x64_7_0, fr
      isplitr; · ipureintro; rfl
      isplitl [Hg7]; · iexact Hg7
      isplitl [Ht7]; · iexact Ht7
      isplitl [Hr7']; · iexact Hr7'
      iexact Hs6
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl []; · rw [pts_done_zero]; iempintro
    isplitl [Ho]; · iexact Ho
    iexists _; isplitr
    swap; · iexact HO
    ipureintro
    intro p hp
    simp only [Finset.mem_insert] at hp
    rcases hp with rfl | hp
    all_goals first | exact .inr rfl | exact .inl hp
  rw [trips_eq]
  iintro %_ HI
  unfold inv inFlight
  icases HI with ⟨-, ⟨%off0, %inb0, %fr0, %hoff0, Hg0, Ht0, Hr0, Hs0⟩, ⟨%off1, %inb1, %fr1, %hoff1, Hg1, Ht1, Hr1, Hs1⟩, ⟨%off2, %inb2, %fr2, %hoff2, Hg2, Ht2, Hr2, Hs2⟩, ⟨%off3, %inb3, %fr3, %hoff3, Hg3, Ht3, Hr3, Hs3⟩, ⟨%off4, %inb4, %fr4, %hoff4, Hg4, Ht4, Hr4, Hs4⟩, ⟨%off5, %inb5, %fr5, %hoff5, Hg5, Ht5, Hr5, Hs5⟩, ⟨%off6, %inb6, %fr6, %hoff6, Hg6, Ht6, Hr6, Hs6⟩, ⟨%off7, %inb7, %fr7, %hoff7, Hg7, Ht7, Hr7, Hs7⟩, Hp0, Hp1, Hp2, Hp3, Hp4, Hp5, Hp6, Hp7, Hdone, Htodo, %W', %hW', HO⟩
  subst hoff0 hoff1 hoff2 hoff3 hoff4 hoff5 hoff6 hoff7
  -- the last block of 512 rows and its eight chunks as the body slices them after the loop
  ihave Hblk' := (Entails.of_eq (block_chunks (F := F) d (25600 * wid L + 512 * 49) fo)) $$ Htodo
  icases Hblk' with ⟨Hc0, Hc1, Hc2, Hc3, Hc4, Hc5, Hc6, Hc7⟩
  ihave Hc0' := (Entails.of_eq (pts_last_at (F := F) d L 0 (25600 * wid L + 512 * 49 + 0) (25600 * wid L + 512 * 49 + 64) (by simp) (by omega) fo).symm) $$ Hc0
  ihave Hc1' := (Entails.of_eq (pts_last_at (F := F) d L 1 (25600 * wid L + 512 * 49 + 64) (25600 * wid L + 512 * 49 + 128) (by simp) (by omega) fo).symm) $$ Hc1
  ihave Hc2' := (Entails.of_eq (pts_last_at (F := F) d L 2 (25600 * wid L + 512 * 49 + 128) (25600 * wid L + 512 * 49 + 192) (by simp) (by omega) fo).symm) $$ Hc2
  ihave Hc3' := (Entails.of_eq (pts_last_at (F := F) d L 3 (25600 * wid L + 512 * 49 + 192) (25600 * wid L + 512 * 49 + 256) (by simp) (by omega) fo).symm) $$ Hc3
  ihave Hc4' := (Entails.of_eq (pts_last_at (F := F) d L 4 (25600 * wid L + 512 * 49 + 256) (25600 * wid L + 512 * 49 + 320) (by simp) (by omega) fo).symm) $$ Hc4
  ihave Hc5' := (Entails.of_eq (pts_last_at (F := F) d L 5 (25600 * wid L + 512 * 49 + 320) (25600 * wid L + 512 * 49 + 384) (by simp) (by omega) fo).symm) $$ Hc5
  ihave Hc6' := (Entails.of_eq (pts_last_at (F := F) d L 6 (25600 * wid L + 512 * 49 + 384) (25600 * wid L + 512 * 49 + 448) (by simp) (by omega) fo).symm) $$ Hc6
  ihave Hc7' := (Entails.of_eq (pts_last_at (F := F) d L 7 (25600 * wid L + 512 * 49 + 448) (25600 * wid L + 512 * 49 + 512) (by simp) (by omega) fo).symm) $$ Hc7
  sl_exec
  sl_step
  -- the last eight chunks hold the gathered rows; with the rows done they are the worker's 25600 rows
  ihave Hv0 := (Entails.of_eq (pointsTo_congr (chunk_value (F := F) d L fi ft hfi fI hfIv hin (8 * 49 + 0) (by omega) inb0
      (k0_off5 L (BitVec.ofNat 32 (25088 + 64 * 0))) (k0_off5_inb L 0) (off5_eq L 0) fo _ (slot_read_back (F := F) d L 0 inb_S8x64x128_S1x64x128_0_0_0 fr0 _)))) $$ Hc0'
  ihave Hw0 := (Entails.of_eq (pts_last_at (F := F) d L 0 (25600 * wid L + 512 * 49 + 0) (25600 * wid L + 512 * 49 + 64) (by simp) (by omega) (gathered d fi ft))) $$ Hv0
  ihave Hv1 := (Entails.of_eq (pointsTo_congr (chunk_value (F := F) d L fi ft hfi fI hfIv hin (8 * 49 + 1) (by omega) inb1
      (k0_off5 L (BitVec.ofNat 32 (25088 + 64 * 1))) (k0_off5_inb L 1) (off5_eq L 1) fo _ (slot_read_back (F := F) d L 1 inb_S8x64x128_S1x64x128_1_0_0 fr1 _)))) $$ Hc1'
  ihave Hw1 := (Entails.of_eq (pts_last_at (F := F) d L 1 (25600 * wid L + 512 * 49 + 64) (25600 * wid L + 512 * 49 + 128) (by simp) (by omega) (gathered d fi ft))) $$ Hv1
  ihave Hv2 := (Entails.of_eq (pointsTo_congr (chunk_value (F := F) d L fi ft hfi fI hfIv hin (8 * 49 + 2) (by omega) inb2
      (k0_off5 L (BitVec.ofNat 32 (25088 + 64 * 2))) (k0_off5_inb L 2) (off5_eq L 2) fo _ (slot_read_back (F := F) d L 2 inb_S8x64x128_S1x64x128_2_0_0 fr2 _)))) $$ Hc2'
  ihave Hw2 := (Entails.of_eq (pts_last_at (F := F) d L 2 (25600 * wid L + 512 * 49 + 128) (25600 * wid L + 512 * 49 + 192) (by simp) (by omega) (gathered d fi ft))) $$ Hv2
  ihave Hv3 := (Entails.of_eq (pointsTo_congr (chunk_value (F := F) d L fi ft hfi fI hfIv hin (8 * 49 + 3) (by omega) inb3
      (k0_off5 L (BitVec.ofNat 32 (25088 + 64 * 3))) (k0_off5_inb L 3) (off5_eq L 3) fo _ (slot_read_back (F := F) d L 3 inb_S8x64x128_S1x64x128_3_0_0 fr3 _)))) $$ Hc3'
  ihave Hw3 := (Entails.of_eq (pts_last_at (F := F) d L 3 (25600 * wid L + 512 * 49 + 192) (25600 * wid L + 512 * 49 + 256) (by simp) (by omega) (gathered d fi ft))) $$ Hv3
  ihave Hv4 := (Entails.of_eq (pointsTo_congr (chunk_value (F := F) d L fi ft hfi fI hfIv hin (8 * 49 + 4) (by omega) inb4
      (k0_off5 L (BitVec.ofNat 32 (25088 + 64 * 4))) (k0_off5_inb L 4) (off5_eq L 4) fo _ (slot_read_back (F := F) d L 4 inb_S8x64x128_S1x64x128_4_0_0 fr4 _)))) $$ Hc4'
  ihave Hw4 := (Entails.of_eq (pts_last_at (F := F) d L 4 (25600 * wid L + 512 * 49 + 256) (25600 * wid L + 512 * 49 + 320) (by simp) (by omega) (gathered d fi ft))) $$ Hv4
  ihave Hv5 := (Entails.of_eq (pointsTo_congr (chunk_value (F := F) d L fi ft hfi fI hfIv hin (8 * 49 + 5) (by omega) inb5
      (k0_off5 L (BitVec.ofNat 32 (25088 + 64 * 5))) (k0_off5_inb L 5) (off5_eq L 5) fo _ (slot_read_back (F := F) d L 5 inb_S8x64x128_S1x64x128_5_0_0 fr5 _)))) $$ Hc5'
  ihave Hw5 := (Entails.of_eq (pts_last_at (F := F) d L 5 (25600 * wid L + 512 * 49 + 320) (25600 * wid L + 512 * 49 + 384) (by simp) (by omega) (gathered d fi ft))) $$ Hv5
  ihave Hv6 := (Entails.of_eq (pointsTo_congr (chunk_value (F := F) d L fi ft hfi fI hfIv hin (8 * 49 + 6) (by omega) inb6
      (k0_off5 L (BitVec.ofNat 32 (25088 + 64 * 6))) (k0_off5_inb L 6) (off5_eq L 6) fo _ (slot_read_back (F := F) d L 6 inb_S8x64x128_S1x64x128_6_0_0 fr6 _)))) $$ Hc6'
  ihave Hw6 := (Entails.of_eq (pts_last_at (F := F) d L 6 (25600 * wid L + 512 * 49 + 384) (25600 * wid L + 512 * 49 + 448) (by simp) (by omega) (gathered d fi ft))) $$ Hv6
  ihave Hv7 := (Entails.of_eq (pointsTo_congr (chunk_value (F := F) d L fi ft hfi fI hfIv hin (8 * 49 + 7) (by omega) inb7
      (k0_off5 L (BitVec.ofNat 32 (25088 + 64 * 7))) (k0_off5_inb L 7) (off5_eq L 7) fo _ (slot_read_back (F := F) d L 7 inb_S8x64x128_S1x64x128_7_0_0 fr7 _)))) $$ Hc7'
  ihave Hw7 := (Entails.of_eq (pts_last_at (F := F) d L 7 (25600 * wid L + 512 * 49 + 448) (25600 * wid L + 512 * 49 + 512) (by simp) (by omega) (gathered d fi ft))) $$ Hv7
  ihave Hblk2 := (Entails.of_eq (block_chunks (F := F) d (25600 * wid L + 512 * 49) (gathered d fi ft)).symm) $$ [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  ihave Hdone2 := (done_join (F := F) d (25600 * wid L) 49 (gathered d fi ft)).1 $$ [Hdone Hblk2]
  · isplitl [Hdone] <;> iassumption
  -- the table's eight tokens and the remainder are the worker's share again
  ihave Htt := (Entails.of_eq (bigSep_fin8 (F := F) (fun i : Fin 8 => (tV).view.loc (V d (cV L) (jV L)) ↦{Transfers.shareTok (tq (wid L)) 8 i} ft)).symm) $$ [Ht0 Ht1 Ht2 Ht3 Ht4 Ht5 Ht6 Ht7]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  ihave Ht := (Transfers.pointsTo_toks_join (tq (wid L)) 8) $$ [Htd Htt]
  · isplitl [Htd] <;> iassumption
  -- the list's eight read pieces are the index scratch whole again
  ihave Hst := (Entails.of_eq (bigSep_fin7 (F := F) (fun i : Fin 7 => (sI).view.loc (V d (cV L) (jV L)) ↦{Transfers.shareTok fullShare 7 i} fI)).symm) $$ [Hs1 Hs2 Hs3 Hs4 Hs5 Hs6 Hs7]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  ihave Hs := (Transfers.pointsTo_toks_join fullShare 7) $$ [Hs0 Hst]
  · isplitl [Hs0] <;> iassumption
  -- the eight slots are the row scratch whole again
  ihave Hq0 := (Entails.of_eq (pts_slot0 (F := F) d L _)) $$ Hr0
  ihave Hq1 := (Entails.of_eq (pts_slot1 (F := F) d L _)) $$ Hr1
  ihave Hq2 := (Entails.of_eq (pts_slot2 (F := F) d L _)) $$ Hr2
  ihave Hq3 := (Entails.of_eq (pts_slot3 (F := F) d L _)) $$ Hr3
  ihave Hq4 := (Entails.of_eq (pts_slot4 (F := F) d L _)) $$ Hr4
  ihave Hq5 := (Entails.of_eq (pts_slot5 (F := F) d L _)) $$ Hr5
  ihave Hq6 := (Entails.of_eq (pts_slot6 (F := F) d L _)) $$ Hr6
  ihave Hq7 := (Entails.of_eq (pts_slot7 (F := F) d L _)) $$ Hr7
  ihave Hr := (slots_join8 (F := F) d L) $$ [Hq0 Hq1 Hq2 Hq3 Hq4 Hq5 Hq6 Hq7]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    isplitl [Hq6]; · iexists _; iexact Hq6
    iexists _; iexact Hq7
  isplitl [Hi' Ht Hdone2]
  · isplitl [Hi']; · iapply (Entails.of_eq (pts_iRowK (F := F) d L _)); iexact Hi'
    isplitl [Ht]; · iexact Ht
    iexact Hdone2
  isplitl [Hs Hr Hbufs]
  · isplitl [Hs]; · iexists _; iexact Hs
    isplitl [Hr]; · iexact Hr
    iexact Hbufs
  isplitl [Hg0 Hg1 Hg2 Hg3 Hg4 Hg5 Hg6 Hg7 Hp0 Hp1 Hp2 Hp3 Hp4 Hp5 Hp6 Hp7 Hsc]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    iexact Hsc
  iexists _; isplitr
  swap; · iexact HO
  ipureintro
  intro p hp
  simp only [Finset.mem_insert] at hp
  rcases hp with rfl | rfl | rfl | rfl | rfl | rfl | rfl | rfl | rfl | rfl | rfl | rfl | rfl | rfl | rfl | rfl | hp
  all_goals first | exact .inr rfl | exact hW' p hp

end Cert.KI

end
-- ==== Proof.KI.Obl.lean ====
/-
  What the embedding lookup's call hands over, and a vector subcore's task as the launch theorem asks for it.

  Worker w = 2 s + c (subcore s of SparseCore c) is handed list w of the 32 index lists, a read share of the whole
  table, and rows [25600 w, 25600 (w + 1)) of the flat result; it hands back the same three with its rows filled
  with the table rows its list names. A SparseCore is handed its sixteen workers' pieces as a family and hands the
  family back, so that nothing is split or joined on the SparseCore: that is done once, on the TensorCore, around
  the call. The kernel has no protocol of its own beyond local copies and their waits, so the launch deals it
  nothing but the handshakes' rounds.
-/
import proofs.«206746_g85272280694944_cont_9to1c4b_772_17_alg».proof.Proof.KI.Body

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x400x64 EltTy.i32)
local notation "tV" => (Memref.whole Cert.KernelIdeal.main_arg1_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S400x64 EltTy.i32)
local notation "sR" => (Memref.whole Cert.KernelIdeal.cc0_scratch1 : Memref Cert.KernelIdeal.sig Kind.scVector Space.vmem Cert.KernelIdeal.S8x64x128 EltTy.f32)

variable (m : (ℓ : Loc nD τ sig) → Buf (Elt F) ℓ) (ρ : Dev nD → PrngReg)

/-! ## What the handshakes carry -/

/-- The index lists as the kernel finds them: the launch's row numbers re-read as 32 × 400 × 64. -/
def fiOf (d : Dev nD) : Buf (Elt F) (iLoc d) := idx3 d (m (xLoc d))
/-- The table, at its launch contents. -/
def ftOf (d : Dev nD) : Buf (Elt F) (tLoc d) := m (tLoc d)

/-- What worker `w` is handed: its index list, its read share of the table, its rows of the flat result as the launch left them. -/
def goAt (d : Dev nD) (w : ℕ) : sProp 𝕄 :=
  iprop(iRowPts d w (fiOf m d) ∗ tShPts d w (ftOf m d) ∗ oPartPts d w (m (oLoc d)))
/-- What it hands back: the same, its rows of the flat result filled with the rows its list names. -/
def tdAt (d : Dev nD) (w : ℕ) : sProp 𝕄 :=
  iprop(iRowPts d w (fiOf m d) ∗ tShPts d w (ftOf m d) ∗ oPartPts d w (gathered d (fiOf m d) (ftOf m d)))

instance goAt_storable (d : Dev nD) (w : ℕ) : BI.Storable (upEmb : UEmb _ 𝕄) (goAt m d w) := by unfold goAt; infer_instance
instance tdAt_storable (d : Dev nD) (w : ℕ) : BI.Storable (upEmb : UEmb _ 𝕄) (tdAt m d w) := by unfold tdAt; infer_instance

/-- The one call: SparseCore `c` is handed its sixteen workers' pieces, worker `2 i + c` for subcore `i`, and hands them back filled. -/
def P : (K (F := F)).Pay (nD := nD) (Val := Elt F) (Name := ℕ) (U := UU) where
  st := fun q d c => bigSep Finset.univ fun i : Fin ((K (F := F)).nSub q) => goAt m d (2 * i.val + c.val)
  dn := fun q d c => bigSep Finset.univ fun i : Fin ((K (F := F)).nSub q) => tdAt m d (2 * i.val + c.val)
  go := fun _ d c i => goAt m d (2 * i.val + c.val)
  td := fun _ d c i => tdAt m d (2 * i.val + c.val)
  x := fun _ _ => iprop(emp)

instance P_storable : (P (F := F) m).IsStorable where
  st _ d c := by unfold P; infer_instance
  dn _ d c := by unfold P; infer_instance
  go _ d c i := by unfold P; infer_instance
  td _ d c i := by unfold P; infer_instance

theorem P_st (q : Fin 1) (d : Dev nD) (c : Fin ((K (F := F)).nCore q)) :
    (P m).st q d c = bigSep Finset.univ fun i : Fin ((K (F := F)).nSub q) => goAt m d (2 * i.val + c.val) := rfl
theorem P_dn (q : Fin 1) (d : Dev nD) (c : Fin ((K (F := F)).nCore q)) :
    (P m).dn q d c = bigSep Finset.univ fun i : Fin ((K (F := F)).nSub q) => tdAt m d (2 * i.val + c.val) := rfl
theorem P_go (q : Fin 1) (d : Dev nD) (c : Fin ((K (F := F)).nCore q)) (i : Fin ((K (F := F)).nSub q)) :
    (P m).go q d c i = goAt m d (2 * i.val + c.val) := rfl
theorem P_td (q : Fin 1) (d : Dev nD) (c : Fin ((K (F := F)).nCore q)) (i : Fin ((K (F := F)).nSub q)) :
    (P m).td q d c i = tdAt m d (2 * i.val + c.val) := rfl

/-! ## The launch theorem's obligations -/

theorem defs₀_vector (c : Fin τ.nSC) (s : Fin τ.nSub) :
    defs₀ (F := F) (.scVector c s) 0 ()
      = SparseCore.onTile hcore0 hsub0 (fun c s => cc0__emb_kernel (coordsV c s)
          iV (Memref.isWhole_whole _) tV (Memref.isWhole_whole _) oV (Memref.isWhole_whole _)
          sI (Memref.isWhole_whole _) sR (Memref.isWhole_whole _)
          cc0_scratch2 cc0_scratch3 cc0_scratch4 cc0_scratch5 cc0_scratch6 cc0_scratch7 cc0_scratch8 cc0_scratch9
          cc0_scratch10 cc0_scratch11 cc0_scratch12 cc0_scratch13 cc0_scratch14 cc0_scratch15 cc0_scratch16 cc0_scratch17 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every entry of the re-read index lists is an entry of the launch's row numbers, so names a table row. -/
theorem fiOf_lt (hpre : PreOK m) (d : Dev nD) (j : S32x400x64.Idx) : (fiOf m d j).toNat < 100002 :=
  hpre d _

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fiOf m d) (ftOf m d) (m (oLoc d)) (fiOf_lt m hpre d) O W hO).trans
    (wp_mono frame _ _ fun _ => obl_post)

/-- A SparseCore's operands are already its workers' pieces, and its results their results: nothing to split. -/
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    rw [show (fun thr : Thread nD τ => bigSep Finset.univ fun q : Fin 1 => (P m).x q thr) = fun _ => (iprop(emp) : sProp 𝕄) from
      funext fun _ => bigSep_emp' _, bigSep_emp']]
  iempintro

end Cert.KI

end
-- ==== Proof.KI.Split.lean ====
/-
  The algebra of the workers' pieces. The 32 × 400 × 64 index lists are the disjoint union of the 32 lists (first
  coordinate w); the 819200 rows of the flat result are the disjoint union of the 32 ranges [25600 w, 25600 (w + 1));
  the table's full share is 32 read tokens and a remainder. Hence the three arrays held whole are the table's
  remainder beside, for each worker w < 32, its list, its token and its rows; and the 32 workers are the pairs
  (SparseCore c < 2, subcore i < 16) through w = 2 i + c. Membership is decided by the row coordinate and
  arithmetic, never by listing elements.
-/
import proofs.«206746_g85272280694944_cont_9to1c4b_772_17_alg».proof.Proof.KI.Base

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The index lists, by first coordinate -/

theorem iRows_disjoint : ∀ w ∈ (Finset.univ : Finset (Fin 32)), ∀ w' ∈ (Finset.univ : Finset (Fin 32)), w ≠ w' →
    Disjoint (iRowSet w.val) (iRowSet w'.val) :=
  fun w _ w' _ h => Finset.disjoint_left.mpr fun _ hi hi' => h (Fin.ext ((mem_iRowSet.mp hi).symm.trans (mem_iRowSet.mp hi')))

theorem iRows_cover : (Finset.univ : Finset (Fin 32)).biUnion (fun w => iRowSet w.val) = Finset.univ :=
  Finset.ext fun i => by
    simp only [Finset.mem_biUnion, Finset.mem_univ, true_and, iff_true, mem_iRowSet]
    exact ⟨⟨(i 0).val, (i 0).isLt⟩, rfl⟩

/-! ## The flat result, by ranges of 25600 rows -/

theorem oRanges_disjoint : ∀ w ∈ (Finset.univ : Finset (Fin 32)), ∀ w' ∈ (Finset.univ : Finset (Fin 32)), w ≠ w' →
    Disjoint (oRows (25600 * w.val) (25600 * w.val + 25600)) (oRows (25600 * w'.val) (25600 * w'.val + 25600)) :=
  fun w _ w' _ h => Finset.disjoint_left.mpr fun _ hi hi' => by
    have h1 := mem_oRows.mp hi
    have h2 := mem_oRows.mp hi'
    exact h (Fin.ext (by omega))

theorem oRows_cover : (Finset.univ : Finset (Fin 32)).biUnion (fun w => oRows (25600 * w.val) (25600 * w.val + 25600)) = Finset.univ :=
  Finset.ext fun i => by
    simp only [Finset.mem_biUnion, Finset.mem_univ, true_and, iff_true, mem_oRows]
    have hi : (i 0).val < 819200 := (i 0).isLt
    exact ⟨⟨(i 0).val / 25600, by omega⟩, by show 25600 * ((i 0).val / 25600) ≤ _ ∧ _ < 25600 * ((i 0).val / 25600) + 25600; omega⟩

/-! ## The three arrays whole, and the workers' pieces -/

/-- Worker `w`'s three pieces: its index list at `fi`, its read token of the table at `ft`, its rows of the flat result at `fo`. -/
def piece (d : Dev nD) (fi : Buf (Elt F) (iLoc d)) (ft : Buf (Elt F) (tLoc d)) (fo : Buf (Elt F) (oLoc d)) (w : ℕ) : sProp 𝕄 :=
  iprop(iRowPts d w fi ∗ tShPts d w ft ∗ oPartPts d w fo)

theorem iPts_lists (d : Dev nD) (f : Buf (Elt F) (iLoc d)) :
    (iLoc d ↦{fullShare} f : sProp 𝕄) = bigSep Finset.univ fun w : Fin 32 => iRowPts d w.val f := by
  rw [← pointsTo_biUnion Finset.univ (ℓ := iLoc d) (fun w : Fin 32 => iRowSet w.val) iRows_disjoint, iRows_cover]; try rfl

theorem oPts_ranges (d : Dev nD) (f : Buf (Elt F) (oLoc d)) :
    (oLoc d ↦{fullShare} f : sProp 𝕄) = bigSep Finset.univ fun w : Fin 32 => oPartPts d w.val f := by
  rw [← pointsTo_biUnion Finset.univ (ℓ := oLoc d) (fun w : Fin 32 => oRows (25600 * w.val) (25600 * w.val + 25600)) oRanges_disjoint, oRows_cover]; try rfl

theorem tPts_tokens (d : Dev nD) (f : Buf (Elt F) (tLoc d)) :
    (tLoc d ↦{fullShare} f : sProp 𝕄)
      = iprop((tLoc d ↦{Transfers.shareDrop fullShare 32} f) ∗ bigSep Finset.univ fun w : Fin 32 => tShPts d w.val f) :=
  BI.equiv_iff.mp ⟨(Transfers.pointsTo_toks fullShare 32).1, (Transfers.pointsTo_toks fullShare 32).2⟩

/-- The three arrays held whole are the table's remainder and the 32 workers' pieces. -/
theorem whole_eq_pieces (d : Dev nD) (fi : Buf (Elt F) (iLoc d)) (ft : Buf (Elt F) (tLoc d)) (fo : Buf (Elt F) (oLoc d)) :
    (iprop((iLoc d ↦{fullShare} fi) ∗ (tLoc d ↦{fullShare} ft) ∗ (oLoc d ↦{fullShare} fo)) : sProp 𝕄)
      ⊣⊢ iprop((tLoc d ↦{Transfers.shareDrop fullShare 32} ft) ∗ bigSep Finset.univ fun w : Fin 32 => piece d fi ft fo w.val) := by
  unfold piece
  rw [bigSep_sep', bigSep_sep', ← iPts_lists, ← oPts_ranges, tPts_tokens]
  constructor
  · iintro ⟨Hi, ⟨Hr, Ht⟩, Ho⟩
    isplitl [Hr]; · iexact Hr
    isplitl [Hi]; · iexact Hi
    isplitl [Ht]; · iexact Ht
    iexact Ho
  · iintro ⟨Hr, Hi, Ht, Ho⟩
    isplitl [Hi]; · iexact Hi
    isplitl [Hr Ht]
    · isplitl [Hr]; · iexact Hr
      iexact Ht
    iexact Ho

/-! ## The 32 workers as (SparseCore, subcore) pairs -/

/-- Worker `2 i + c` for subcore `i` of SparseCore `c`: a bijection of the 2 × 16 pairs with the 32 workers. -/
def wEquiv : Fin 2 × Fin 16 ≃ Fin 32 where
  toFun p := ⟨2 * p.2.val + p.1.val, by have := p.1.isLt; have := p.2.isLt; omega⟩
  invFun w := (⟨w.val % 2, by omega⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem bigSep_workers (Φ : ℕ → sProp 𝕄) :
    (bigSep Finset.univ fun w : Fin 32 => Φ w.val)
      = bigSep Finset.univ fun c : Fin 2 => bigSep Finset.univ fun i : Fin 16 => Φ (2 * i.val + c.val) := by
  rw [bigSep_univ_equiv wEquiv (fun w : Fin 32 => Φ w.val), bigSep_univ_prod]; rfl

end Cert.KI

end
-- ==== Proof.KI.Launch.lean ====
/-
  The launch of the embedding lookup: @main on the TensorCore, and the program's run.

  @main reshapes the 4096 × 200 row numbers to 32 lists of 400 chunks of 64, starts the two SparseCores, whose
  thirty-two vector subcores each gather one list's rows into 25600 rows of the flat result, and reshapes the
  819200 × 128 flat result to 4096 × 200 × 128. After the first reshape the TensorCore holds the index lists, the
  table and the flat result whole; it cuts them into the table's remainder share, kept aside, and the 32 workers'
  pieces, which go to the two SparseCores (worker 2 i + c to subcore i of SparseCore c); what comes back is the
  same pieces with every worker's rows at the one function "row r is the table row entry r of the lists names",
  so they join to the flat result whole at that function, and the second reshape reads it as the lookup. The row
  numbers and the table are never written. The final memory then reads: the result is the lookup, the arguments
  are unchanged.
-/
import proofs.«206746_g85272280694944_cont_9to1c4b_772_17_alg».proof.Proof.KI.Obl
import proofs.«206746_g85272280694944_cont_9to1c4b_772_17_alg».proof.Proof.KI.Split

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and its two reshapes -/

abbrev x' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The row numbers re-read as the index lists. -/
abbrev opIn : HloOp τ sig (Elt F) := StableHlo.reshape main_arg0 main_v0 rfl shapeCasts_S4096x200_S32x400x64
/-- The flat result re-read as the lookup. -/
abbrev opOut : HloOp τ sig (Elt F) := StableHlo.reshape main_v1 main_v2 rfl shapeCasts_S819200x128_S4096x200x128

/-- The TensorCore's arrays, all unscoped. -/
abbrev S5 : Finset (DevRef τ sig) := {x', t', i', o', r'}

omit [FloatOps F] in
theorem held_S5 (d : Dev nD) (W : Valuation τ sig (Elt F)) :
    (held (T d) S5 W : sProp 𝕄) = iprop((xLoc d ↦{fullShare} W x') ∗ (tLoc d ↦{fullShare} W t') ∗ (iLoc d ↦{fullShare} W i')
      ∗ (oLoc d ↦{fullShare} W o') ∗ (rLoc d ↦{fullShare} W r')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (iLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)
/-- After the first reshape: the index lists filled. -/
def V1 (d : Dev nD) : Valuation τ sig (Elt F) := (opIn (F := F)).result (V0 m d)
/-- After the call: the flat result at the gathered rows. -/
def V2 (d : Dev nD) : Valuation τ sig (Elt F) := Function.update (V1 m d) o' (gathered d (fiOf m d) (ftOf m d))
/-- After the second reshape. -/
def V3 (d : Dev nD) : Valuation τ sig (Elt F) := (opOut (F := F)).result (V2 m d)

theorem unscoped_held (d : Dev nD) : (unscopedBufs d (fun b => m ((SparseCore.T d).loc b)) : sProp 𝕄) = held (T d) S5 (V0 m d) := by
  rw [unscopedBufs_eq, held_S5]; rfl

theorem V1_x (d : Dev nD) : V1 m d x' = m (xLoc d) := (opIn (F := F)).result_of_not_mem (V0 m d) (b := x') (show x' ∉ ({i'} : Finset (DevRef τ sig)) by decide)
theorem V1_t (d : Dev nD) : V1 m d t' = m (tLoc d) := (opIn (F := F)).result_of_not_mem (V0 m d) (b := t') (show t' ∉ ({i'} : Finset (DevRef τ sig)) by decide)
theorem V1_o (d : Dev nD) : V1 m d o' = m (oLoc d) := (opIn (F := F)).result_of_not_mem (V0 m d) (b := o') (show o' ∉ ({i'} : Finset (DevRef τ sig)) by decide)
theorem V1_r (d : Dev nD) : V1 m d r' = m (rLoc d) := (opIn (F := F)).result_of_not_mem (V0 m d) (b := r') (show r' ∉ ({i'} : Finset (DevRef τ sig)) by decide)
theorem V1_i (d : Dev nD) : V1 m d i' = fiOf m d :=
  StableHlo.reshape_result main_arg0 main_v0 rfl shapeCasts_S4096x200_S32x400x64 ⟨by decide, rfl⟩ ⟨by decide, rfl⟩ (V0 m d)

theorem V2_x (d : Dev nD) : V2 m d x' = m (xLoc d) := (Function.update_of_ne (show x' ≠ o' by decide) _ _).trans (V1_x m d)
theorem V2_t (d : Dev nD) : V2 m d t' = m (tLoc d) := (Function.update_of_ne (show t' ≠ o' by decide) _ _).trans (V1_t m d)
theorem V2_i (d : Dev nD) : V2 m d i' = fiOf m d := (Function.update_of_ne (show i' ≠ o' by decide) _ _).trans (V1_i m d)
theorem V2_r (d : Dev nD) : V2 m d r' = m (rLoc d) := (Function.update_of_ne (show r' ≠ o' by decide) _ _).trans (V1_r m d)
theorem V2_o (d : Dev nD) : V2 m d o' = gathered d (fiOf m d) (ftOf m d) := Function.update_self _ _ _

theorem V3_x (d : Dev nD) : V3 m d x' = m (xLoc d) :=
  ((opOut (F := F)).result_of_not_mem (V2 m d) (b := x') (show x' ∉ ({r'} : Finset (DevRef τ sig)) by decide)).trans (V2_x m d)
theorem V3_t (d : Dev nD) : V3 m d t' = m (tLoc d) :=
  ((opOut (F := F)).result_of_not_mem (V2 m d) (b := t') (show t' ∉ ({r'} : Finset (DevRef τ sig)) by decide)).trans (V2_t m d)
theorem V3_r (d : Dev nD) : V3 m d r' = result d (m (xLoc d)) (m (tLoc d)) := by
  refine (StableHlo.reshape_result main_v1 main_v2 rfl shapeCasts_S819200x128_S4096x200x128 ⟨by decide, rfl⟩ ⟨by decide, rfl⟩ (V2 m d)).trans ?_
  show (fun i => shapeCast S4096x200x128 (V2 m d o') shapeCasts_S819200x128_S4096x200x128 i) = _
  rw [V2_o]; rfl

theorem hIn : (opIn (F := F)).bufs ⊆ S5 := show ({x', i'} : Finset (DevRef τ sig)) ⊆ S5 by decide
theorem hOut : (opOut (F := F)).bufs ⊆ S5 := show ({o', r'} : Finset (DevRef τ sig)) ⊆ S5 by decide

theorem V3_i (d : Dev nD) : V3 m d i' = fiOf m d :=
  ((opOut (F := F)).result_of_not_mem (V2 m d) (b := i') (show i' ∉ ({r'} : Finset (DevRef τ sig)) by decide)).trans (V2_i m d)
theorem V3_o (d : Dev nD) : V3 m d o' = gathered d (fiOf m d) (ftOf m d) :=
  ((opOut (F := F)).result_of_not_mem (V2 m d) (b := o') (show o' ∉ ({r'} : Finset (DevRef τ sig)) by decide)).trans (V2_o m d)

/-- After the first reshape: the arguments and the two results as the launch left them, the index lists filled. -/
theorem held_V1 (d : Dev nD) : (held (T d) S5 ((opIn (F := F)).result (V0 m d)) : sProp 𝕄)
    = iprop((xLoc d ↦{fullShare} m (xLoc d)) ∗ (tLoc d ↦{fullShare} m (tLoc d)) ∗ (iLoc d ↦{fullShare} fiOf m d)
      ∗ (oLoc d ↦{fullShare} m (oLoc d)) ∗ (rLoc d ↦{fullShare} m (rLoc d))) := by
  show held (T d) S5 (V1 m d) = _
  rw [held_S5, V1_x, V1_t, V1_i, V1_o, V1_r]

/-- After the call: the flat result at the gathered rows. -/
theorem held_V2 (d : Dev nD) : (held (T d) S5 (V2 m d) : sProp 𝕄)
    = iprop((xLoc d ↦{fullShare} m (xLoc d)) ∗ (tLoc d ↦{fullShare} m (tLoc d)) ∗ (iLoc d ↦{fullShare} fiOf m d)
      ∗ (oLoc d ↦{fullShare} gathered d (fiOf m d) (ftOf m d)) ∗ (rLoc d ↦{fullShare} m (rLoc d))) := by
  rw [held_S5, V2_x, V2_t, V2_i, V2_o, V2_r]

/-- After the second reshape: the result is the lookup. -/
theorem held_V3 (d : Dev nD) : (held (T d) S5 ((opOut (F := F)).result (V2 m d)) : sProp 𝕄)
    = iprop((xLoc d ↦{fullShare} m (xLoc d)) ∗ (tLoc d ↦{fullShare} m (tLoc d)) ∗ (iLoc d ↦{fullShare} fiOf m d)
      ∗ (oLoc d ↦{fullShare} gathered d (fiOf m d) (ftOf m d)) ∗ (rLoc d ↦{fullShare} result d (m (xLoc d)) (m (tLoc d)))) := by
  show held (T d) S5 (V3 m d) = _
  rw [held_S5, V3_x, V3_t, V3_i, V3_o, V3_r]

/-! ## The call's operands and results, as the workers' pieces -/

theorem st0_eq (d : Dev nD) :
    (bigSep Finset.univ fun c : Fin ((K (F := F)).nCore 0) => (P m).st 0 d c)
      = bigSep Finset.univ fun w : Fin 32 => piece d (fiOf m d) (ftOf m d) (m (oLoc d)) w.val := by
  rw [bigSep_workers (F := F) (piece d (fiOf m d) (ftOf m d) (m (oLoc d)))]; rfl

theorem dn0_eq (d : Dev nD) :
    (bigSep Finset.univ fun c : Fin ((K (F := F)).nCore 0) => (P m).dn 0 d c)
      = bigSep Finset.univ fun w : Fin 32 => piece d (fiOf m d) (ftOf m d) (gathered d (fiOf m d) (ftOf m d)) w.val := by
  rw [bigSep_workers (F := F) (piece d (fiOf m d) (ftOf m d) (gathered d (fiOf m d) (ftOf m d)))]; rfl

/-! ## @main on the TensorCore -/

/-- What @main leaves the claim: the arguments at their launch contents, the result at the lookup. -/
abbrev FIN (d : Dev nD) : sProp 𝕄 :=
  iprop((xLoc d ↦{fullShare} m (xLoc d)) ∗ (tLoc d ↦{fullShare} m (tLoc d)) ∗ (rLoc d ↦{fullShare} result d (m (xLoc d)) (m (tLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the row numbers re-read as the index lists
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Hx, Ht, Hi, Ho, Hr⟩
  -- the lists, the table and the flat result cut into the table's remainder and the 32 workers' pieces
  ihave Hp := (whole_eq_pieces d (fiOf m d) (ftOf m d) (m (oLoc d))).1 $$ [Hi Ht Ho]
  · isplitl [Hi]; · iexact Hi
    isplitl [Ht]; · iexact Ht
    iexact Ho
  icases Hp with ⟨Hrem, Hpieces⟩
  -- the call: the pieces to the two SparseCores and back, every worker's rows filled
  iapply ((K (F := F)).wp_run (D (F := F)) 𝒱 (EH := EH) (P := P m) κ d 0) $$ [Hst Hpieces Hb Hx Hr Hrem]
  isplitr; · iexact Hctx
  isplitl [Hst]; · iexact Hst
  isplitl [Hpieces]
  · rw [st0_eq]; iexact Hpieces
  iintro ⟨Hst, Hdn⟩
  ihave Hdn' := (Entails.of_eq (dn0_eq m d)) $$ Hdn
  ihave Hw := (whole_eq_pieces d (fiOf m d) (ftOf m d) (gathered d (fiOf m d) (ftOf m d))).2 $$ [Hrem Hdn']
  · isplitl [Hrem]; · iexact Hrem
    iexact Hdn'
  icases Hw with ⟨Hi, Ht, Ho⟩
  -- the second reshape: the flat result re-read as the lookup
  iapply (wp_hlo_within 𝒱 (SparseCore.T d) none Set.univ (op := opOut) (S := S5) hOut (V := V2 m d)) $$ [Hb Hx Ht Hi Ho Hr]
  · isplitl [Hb]; · iexact Hb
    rw [held_V2]
    isplitl [Hx]; · iexact Hx
    isplitl [Ht]; · iexact Ht
    isplitl [Hi]; · iexact Hi
    isplitl [Ho]; · iexact Ho
    iexact Hr
  iintro ⟨Hb, Hheld⟩
  ihave Hh := (Entails.of_eq (held_V3 m d)) $$ Hheld
  icases Hh with ⟨Hx, Ht, -, -, Hr⟩
  rw [wp_ret]; imodintro; imodintro
  isplitl [Hst]; · iexact Hst
  isplitl [Hx]; · iexact Hx
  isplitl [Ht]; · iexact Ht
  iexact Hr

/-! ## The final memory reads the claim -/

def fq (d : Dev nD) (s' : Phys nD τ sig (Elt F)) : Prop :=
  s'.mem.mem (rLoc d) = result d (m (xLoc d)) (m (tLoc d)) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := result d (m (xLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.KI

/-! ## The program's run -/

open Cert.KernelIdeal Idealize.ShloMosaic Idealize.SL Idealize.SL.BI Idealize.SL.BI.Laws Idealize.SL.Sem in
/-- Every weakly fair execution of the device's threads from a launch memory whose row numbers all name table rows
    terminates, nothing faulting, the result the lookup of the launch's row numbers in the launch's table, both
    arguments unchanged. -/
theorem Cert.KI.run_main {F : FTy → Type} [FloatOps F] [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩
      (fun r => ∀ c : Dev nD, r.2.mem (rLoc c) = result c (m (xLoc c)) (m (tLoc c)) ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = result c (m (xLoc c)) (m (tLoc c)) ∧ r.2.mem (xLoc c) = m (xLoc c) ∧ r.2.mem (tLoc c) = m (tLoc c))
    (fun _ h => h)

end
-- ==== Proof.KB.Base.lean ====
/-
  The embedding-lookup kernel as its proof names it: the program as the SparseCore launch theorem sees it, the five
  HBM arrays (row numbers x, table, the row numbers re-read as 32 × 400 × 64, the 819200 gathered rows, the result),
  and the pieces of them a vector subcore works on. Subcore s of SparseCore c is worker w = 2 s + c: it owns list w
  of the 32 index lists and rows [25600 w, 25600 (w + 1)) of the gathered rows, and it reads the table, of which
  every worker holds a read share. Element sets are given by conditions on the row coordinate, never enumerated.
-/
import proofs.«206746_g85272280694944_cont_9to1c4b_772_17_alg».proof.Defs
import proofs.«206746_g85272280694944_cont_9to1c4b_772_17_alg».proof.Proof.Gen.Kernel
import proofs.«206746_g85272280694944_cont_9to1c4b_772_17_alg».proof.Proof.Gen.Kernel.Skeleton
import proofs.«206746_g85272280694944_cont_9to1c4b_772_17_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev 𝕄' (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-! ## A worker's pieces -/

/-- List `w` of the 32 index lists: the elements whose first coordinate is `w`. -/
def iRowSet (w : ℕ) : Finset S32x400x64.Idx := Finset.univ.filter fun i => (i 0).val = w

/-- Rows `lo ≤ r < hi` of the gathered rows, all 128 columns. -/
def oRows (lo hi : ℕ) : Finset S819200x128.Idx := Finset.univ.filter fun i => lo ≤ (i 0).val ∧ (i 0).val < hi

theorem mem_iRowSet {w : ℕ} {i : S32x400x64.Idx} : i ∈ iRowSet w ↔ (i 0).val = w := by
  simp [iRowSet]
theorem mem_oRows {lo hi : ℕ} {i : S819200x128.Idx} : i ∈ oRows lo hi ↔ lo ≤ (i 0).val ∧ (i 0).val < hi := by
  simp [oRows]

/-- Worker `w`'s read share of the table: the full share's token number `w` of 32. -/
abbrev tq (w : ℕ) : PosShare TreeShare := Transfers.shareTokN fullShare w

variable [FloatOps F]

/-- List `w` of the index lists, outright, at contents `fi`. -/
abbrev iRowPts (d : Dev nD) (w : ℕ) (fi : Buf (Elt F) (iLoc d)) : sProp 𝕄 := iLoc d ↦[iRowSet w]{fullShare} fi
/-- Worker `w`'s read share of the whole table at contents `ft`. -/
abbrev tShPts (d : Dev nD) (w : ℕ) (ft : Buf (Elt F) (tLoc d)) : sProp 𝕄 := tLoc d ↦{tq w} ft
/-- Worker `w`'s 25600 rows of the gathered rows, outright, at contents `fo`. -/
abbrev oPartPts (d : Dev nD) (w : ℕ) (fo : Buf (Elt F) (oLoc d)) : sProp 𝕄 := oLoc d ↦[oRows (25600 * w) (25600 * w + 25600)]{fullShare} fo

/-- What the gathered rows hold at the end: row r the table row that entry r of the index lists names. -/
def gathered (d : Dev nD) (fi : Buf (Elt F) (iLoc d)) (ft : Buf (Elt F) (tLoc d)) : Buf (Elt F) (oLoc d) := Emb.gath fi ft

/-- The row numbers re-read as 32 lists of 400 chunks of 64: what @main's first reshape leaves in the kernel's index operand. -/
def idx3 (d : Dev nD) (x : Buf (Elt F) (xLoc d)) : Buf (Elt F) (iLoc d) :=
  shapeCast S32x400x64 x shapeCasts_S4096x200_S32x400x64

/-- The program's result: the gathered rows re-read as 4096 × 200 × 128 (what @main's last reshape leaves). -/
def result (d : Dev nD) (x : Buf (Elt F) (xLoc d)) (t : Buf (Elt F) (tLoc d)) : Buf (Elt F) (rLoc d) :=
  shapeCast S4096x200x128 (gathered d (idx3 d x) t) shapeCasts_S819200x128_S4096x200x128

/-- Every row number of the launch memory names a table row. -/
def PreOK (m : (ℓ : Loc nD τ sig) → Buf (Elt F) ℓ) : Prop := ∀ (d : Dev nD) (j : S4096x200.Idx), (m (xLoc d) j).toNat < 100002

/-! ## A vector subcore, by its grid coordinates -/

abbrev cV (L : grid0.Coords) : Fin τ.nSC := (L 0).castLE hcore0
abbrev jV (L : grid0.Coords) : Fin τ.nSub := (L 1).castLE hsub0
/-- The worker number of the subcore at grid coordinates `L`. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

def coordsV (c : Fin (grid0.bound 0)) (s : Fin (grid0.bound 1)) : grid0.Coords :=
  fun | 0 => c | 1 => s | ⟨_ + 2, h⟩ => absurd h (Nat.not_lt.2 (Nat.le_add_left _ _))

end Cert.KB

end
-- ==== Proof.KB.Tile.lean ====
/-
  One vector subcore's own storage, named: its seventeen DMA semaphores (eight for the gathers, one per slot; eight
  for the copies out, one per slot; one for the index fetch), its two scratch buffers (the 400 × 64 index list and the
  eight 64 × 128 row slots), and the worker's index list in HBM as the body slices it.
-/
import proofs.«206746_g85272280694944_cont_9to1c4b_772_17_alg».proof.Proof.KB.Base

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

section Tile

variable (d : Dev nD) (L : grid0.Coords)

/-- DMA semaphore number `k` of the subcore at `L`. -/
abbrev cell (k : Fin 17) : GSem nD τ sig := (V d (cV L) (jV L), SemLoc.dma k)

theorem reg_not_scoped : ∀ s : Fin 4, (SemLoc.reg s : SemLoc sig).isScoped .scVector = false := by decide
theorem dma_scoped : ∀ k : Fin 17, (SemLoc.dma k : SemLoc sig).isScoped .scVector = true := by decide

theorem ownCells_V : ownCells (V d (cV L) (jV L))
    = (Finset.univ : Finset (Fin 17)).map ⟨fun k => cell d L k, fun _ _ e => SemLoc.dma.inj (Prod.mk.inj e).2⟩ := by
  ext g
  rw [mem_ownCells, Finset.mem_map]
  constructor
  · rintro ⟨h1, h2⟩
    rcases g with ⟨thr, sm⟩
    dsimp only at h1
    subst h1
    cases sm with
    | reg s => exact absurd (show (SemLoc.reg s : SemLoc sig).isScoped .scVector = true from h2) (by rw [reg_not_scoped s]; decide)
    | dma k => exact ⟨k, Finset.mem_univ _, rfl⟩
  · rintro ⟨k, -, rfl⟩
    exact ⟨rfl, dma_scoped k⟩

theorem ownSems0_V :
    (ownSems0 (V d (cV L) (jV L)) : sProp 𝕄)
      = iprop(semVal (cell d L 0) 0 ∗ semVal (cell d L 1) 0 ∗ semVal (cell d L 2) 0 ∗ semVal (cell d L 3) 0 ∗ semVal (cell d L 4) 0 ∗ semVal (cell d L 5) 0 ∗ semVal (cell d L 6) 0 ∗ semVal (cell d L 7) 0 ∗ semVal (cell d L 8) 0 ∗ semVal (cell d L 9) 0 ∗ semVal (cell d L 10) 0 ∗ semVal (cell d L 11) 0 ∗ semVal (cell d L 12) 0 ∗ semVal (cell d L 13) 0 ∗ semVal (cell d L 14) 0 ∗ semVal (cell d L 15) 0 ∗ semVal (cell d L 16) 0) := by
  unfold SparseCore.Cfg.ownSems0
  rw [ownCells_V, bigSep_map, show (Finset.univ : Finset (Fin 17)) = {0, 1, 2, 3, 4, 5, 6, 7, 8, 9, 10, 11, 12, 13, 14, 15, 16} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch buffers are the subcore's own: they, at some contents, and the rest of its buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The worker's index list in HBM, as the body slices it off the 32 × 400 × 64 array. -/
abbrev iRowK (L : grid0.Coords) : Memref sig .scVector .hbm S400x64 .i32 :=
  ((iV).slice (Rect.unit (s := S32x400x64) (k0_off1 L) S1x400x64.size (k0_off1_inb L)) (fun _ => rfl)).squeeze S400x64 squeezes_S1x400x64_S400x64

theorem set_iRowK : (iRowK L).view.set = iRowSet (wid L) := by
  ext i
  simp only [Memref.view_squeeze, Memref.view_slice, Memref.view_whole, View.set_reshape, View.set_slice_whole]
  rw [Rect.mem_set_unit, mem_iRowSet, k0_off1_eq]
  have h1 : ((i 1 : S32x400x64.Coord 1) : ℕ) < 400 := (i 1).isLt
  have h2 : ((i 2 : S32x400x64.Coord 2) : ℕ) < 64 := (i 2).isLt
  constructor
  · intro h
    have h0 := h 0
    simp only [Matrix.cons_val_zero] at h0
    unfold wid
    have : S1x400x64.size 0 = 1 := rfl
    omega
  · intro h a
    unfold wid at h
    match a with
    | ⟨0, _⟩ => exact ⟨by show 2 * (L 1).val + (L 0).val ≤ (i 0).val; omega, by show (i 0).val < 2 * (L 1).val + (L 0).val + 1; omega⟩
    | ⟨1, _⟩ => exact ⟨Nat.zero_le _, by show (i 1).val < 0 + 400; omega⟩
    | ⟨2, _⟩ => exact ⟨Nat.zero_le _, by show (i 2).val < 0 + 64; omega⟩

theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]

theorem pts_tV (q : PosShare TreeShare) (f : Buf (Elt F) (tLoc d)) :
    ((tV).view.loc (V d (cV L) (jV L)) ↦{q} f : sProp 𝕄) = tLoc d ↦{q} f := rfl
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

end Tile

end Cert.KB

end
-- ==== Proof.KB.Sets.lean ====
/-
  Set algebra for the pieces of the arrays a vector subcore works on. Every piece is the set of elements whose row
  coordinate meets a condition (a range of rows of the gathered rows; one slot of the eight row slots; one row of
  the index scratch), so unions, differences, inclusions and disjointness are statements about ranges of naturals,
  decided coordinate by coordinate and never by listing elements. The pieces as the body slices them (a rectangle
  with unit strides, then dropping an axis of extent one, which keeps the same elements) are these sets: an element
  lies in a rectangle exactly when each coordinate lies between the offset and the offset plus the extent.
-/
import proofs.«206746_g85272280694944_cont_9to1c4b_772_17_alg».proof.Proof.KB.Base

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

/-! ## Ranges of rows -/

/-- Two row ranges, the first ending where or before the second begins, share no element. -/
theorem oRows_disjoint {a b c e : ℕ} (h : b ≤ c) : Disjoint (oRows a b) (oRows c e) :=
  Finset.disjoint_left.2 fun i h1 h2 => by
    rw [mem_oRows] at h1 h2
    omega

/-- Two adjacent row ranges make one. -/
theorem oRows_union {a b c : ℕ} (h1 : a ≤ b) (h2 : b ≤ c) : oRows a b ∪ oRows b c = oRows a c := by
  ext i
  rw [Finset.mem_union, mem_oRows, mem_oRows, mem_oRows]
  omega

/-- A row range lies inside a wider one. -/
theorem oRows_subset {a b a' b' : ℕ} (h1 : a' ≤ a) (h2 : b ≤ b') : oRows a b ⊆ oRows a' b' := fun i hi => by
  rw [mem_oRows] at hi ⊢
  omega

/-- A row range less a prefix of it is the rest. -/
theorem oRows_sdiff_prefix {a b c : ℕ} (h1 : a ≤ b) (h2 : b ≤ c) : oRows a c \ oRows a b = oRows b c := by
  ext i
  rw [Finset.mem_sdiff, mem_oRows, mem_oRows, mem_oRows]
  omega

/-! ## The pieces as the body slices them -/

/-- A 64-row chunk of the gathered rows, as the body slices it, is a row range. -/
theorem set_chunk (off : Fin 2 → ℕ) (inb : ∀ a, off a + S64x128.size a ≤ S819200x128.size a) (h1 : off 1 = 0) :
    ((oV).slice (Rect.unit (s := S819200x128) off S64x128.size inb) (fun _ => rfl)).view.set = oRows (off 0) (off 0 + 64) := by
  ext i
  simp only [Memref.view_slice, Memref.view_whole, View.set_slice_whole]
  rw [Rect.mem_set_unit, mem_oRows]
  have hc : ((i 1 : S819200x128.Coord 1) : ℕ) < 128 := (i 1).isLt
  constructor
  · intro h
    have h0 := h 0
    have e0 : (![64, 128] : Fin 2 → ℕ) 0 = 64 := rfl
    omega
  · intro h a
    match a with
    | ⟨0, _⟩ => exact ⟨by show off 0 ≤ (i 0).val; omega, by show (i 0).val < off 0 + 64; omega⟩
    | ⟨1, _⟩ => exact ⟨by show off 1 ≤ (i 1).val; omega, by show (i 1).val < off 1 + 128; omega⟩

/-- Slot b of the eight row slots, as the body slices it (slice then squeeze), is the elements whose first coordinate is b. -/
theorem set_slot (b : ℕ) (inb : ∀ a, (![b, 0, 0] : Fin 3 → ℕ) a + S1x64x128.size a ≤ S8x64x128.size a) :
    (((sR).slice (Rect.unit (s := S8x64x128) ![b, 0, 0] S1x64x128.size inb) (fun _ => rfl)).squeeze S64x128 squeezes_S1x64x128_S64x128).view.set
      = Finset.univ.filter fun i : S8x64x128.Idx => (i 0).val = b := by
  ext i
  simp only [Memref.view_squeeze, Memref.view_slice, Memref.view_whole, View.set_reshape, View.set_slice_whole]
  rw [Rect.mem_set_unit, Finset.mem_filter]
  have hc1 : ((i 1 : S8x64x128.Coord 1) : ℕ) < 64 := (i 1).isLt
  have hc2 : ((i 2 : S8x64x128.Coord 2) : ℕ) < 128 := (i 2).isLt
  constructor
  · intro h
    have h0 := h 0
    simp only [Matrix.cons_val_zero] at h0
    have : S1x64x128.size 0 = 1 := rfl
    exact ⟨Finset.mem_univ _, by omega⟩
  · rintro ⟨-, h⟩ a
    match a with
    | ⟨0, _⟩ => exact ⟨by show b ≤ (i 0).val; omega, by show (i 0).val < b + 1; omega⟩
    | ⟨1, _⟩ => exact ⟨Nat.zero_le _, by show (i 1).val < 0 + 64; omega⟩
    | ⟨2, _⟩ => exact ⟨Nat.zero_le _, by show (i 2).val < 0 + 128; omega⟩

/-- Row r of the 400 × 64 index scratch, as the body slices it. -/
theorem set_listRow (off : Fin 2 → ℕ) (inb : ∀ a, off a + S1x64.size a ≤ S400x64.size a) (h1 : off 1 = 0) :
    (((sI).slice (Rect.unit (s := S400x64) off S1x64.size inb) (fun _ => rfl)).squeeze S64 squeezes_S1x64_S64).view.set
      = Finset.univ.filter fun i : S400x64.Idx => (i 0).val = off 0 := by
  ext i
  simp only [Memref.view_squeeze, Memref.view_slice, Memref.view_whole, View.set_reshape, View.set_slice_whole]
  rw [Rect.mem_set_unit, Finset.mem_filter]
  have hc : ((i 1 : S400x64.Coord 1) : ℕ) < 64 := (i 1).isLt
  constructor
  · intro h
    have h0 := h 0
    have e0 : (![1, 64] : Fin 2 → ℕ) 0 = 1 := rfl
    exact ⟨Finset.mem_univ _, by omega⟩
  · rintro ⟨-, h⟩ a
    match a with
    | ⟨0, _⟩ => exact ⟨by show off 0 ≤ (i 0).val; omega, by show (i 0).val < off 0 + 1; omega⟩
    | ⟨1, _⟩ => exact ⟨by show off 1 ≤ (i 1).val; omega, by show (i 1).val < off 1 + 64; omega⟩

end Cert.KB

end
-- ==== Proof.KB.Chunks.lean ====
/-
  How a worker's 25600 rows of the gathered rows divide: into 50 blocks of 512 rows, one per trip of the body's
  loop and one after it, and each block into eight chunks of 64 rows, one per row slot. Holding a range of rows
  is holding its parts: a range of rows is the disjoint union of two adjacent ranges, so the ownership of the
  rows still to be written splits off one block at a time, the ownership of the rows already written grows by one
  block at a time, and a block is its eight chunks. A chunk as the body slices it, at rows
  51200 s + 25600 c + 512 k + 64 r of subcore s of SparseCore c, is rows [25600 w + 512 k + 64 r, + 64) of worker
  w = 2 s + c; the eight chunks after the loop are those of block number 49.
-/
import proofs.«206746_g85272280694944_cont_9to1c4b_772_17_alg».proof.Proof.KB.Sets

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

/-- Chunk r of trip k of the gathered rows, as the body slices it. -/
abbrev chunkK (L : grid0.Coords) (k : Fin k0_t1_loop.trips) (r : Fin 8) : Memref sig .scVector .hbm S64x128 .f32 :=
  (oV).slice (Rect.unit (s := S819200x128) (k0_off3 L k (BitVec.ofNat 32 r.val)) S64x128.size (k0_off3_inb L k r)) (fun _ => rfl)
/-- Chunk r of the last eight chunks, as the body slices it after the loop. -/
abbrev lastK (L : grid0.Coords) (r : Fin 8) : Memref sig .scVector .hbm S64x128 .f32 :=
  (oV).slice (Rect.unit (s := S819200x128) (k0_off5 L (BitVec.ofNat 32 (25088 + 64 * r.val))) S64x128.size (k0_off5_inb L r)) (fun _ => rfl)

/-! ## Ranges of rows, held -/

/-- A range with equal ends has no rows. -/
theorem oRows_self (a : ℕ) : oRows a a = ∅ := by
  ext i
  rw [mem_oRows]
  constructor
  · intro h; omega
  · intro h; exact absurd h (Finset.notMem_empty _)

/-- Row ranges with equal ends are equal. -/
theorem oRows_congr {a b a' b' : ℕ} (h1 : a = a') (h2 : b = b') : oRows a b = oRows a' b' := by rw [h1, h2]

/-- Holding a range of rows is holding its two parts either side of a row b inside it. -/
theorem pts_rows_split (d : Dev nD) (a b c : ℕ) (h1 : a ≤ b) (h2 : b ≤ c) (f : Buf (Elt F) (oLoc d)) :
    (oLoc d ↦[oRows a c]{fullShare} f : sProp 𝕄)
      = iprop((oLoc d ↦[oRows a b]{fullShare} f) ∗ (oLoc d ↦[oRows b c]{fullShare} f)) := by
  have hu : (oLoc d ↦[oRows a b ∪ oRows b c]{fullShare} f : sProp 𝕄)
      ⊣⊢ iprop((oLoc d ↦[oRows a b]{fullShare} f) ∗ (oLoc d ↦[oRows b c]{fullShare} f)) :=
    pointsTo_union (oRows_disjoint (Nat.le_refl b))
  rw [oRows_union h1 h2] at hu
  exact BI.equiv_iff.mp ⟨hu.1, hu.2⟩

/-- Before the first trip no rows are done: holding none is holding nothing. -/
theorem pts_done_zero (d : Dev nD) (a : ℕ) (f : Buf (Elt F) (oLoc d)) :
    (oLoc d ↦[oRows a (a + 512 * 0)]{fullShare} f : sProp 𝕄) = iprop(emp) := by
  rw [show oRows a (a + 512 * 0) = ∅ from (oRows_congr rfl (by omega)).trans (oRows_self a), pointsTo_empty]

/-- rows to do = this trip's block + the rows to do after it -/
theorem todo_split (d : Dev nD) (base k : ℕ) (hk : 512 * k + 512 ≤ 25600) (f : Buf (Elt F) (oLoc d)) :
    (oLoc d ↦[oRows (base + 512 * k) (base + 25600)]{fullShare} f : sProp 𝕄)
      ⊣⊢ iprop((oLoc d ↦[oRows (base + 512 * k) (base + 512 * k + 512)]{fullShare} f) ∗ (oLoc d ↦[oRows (base + 512 * (k + 1)) (base + 25600)]{fullShare} f)) := by
  rw [show base + 512 * (k + 1) = base + 512 * k + 512 from by omega]
  exact BIBase.BiEntails.of_eq (pts_rows_split d _ _ _ (by omega) (by omega) f)

/-- rows done + this trip's block (at the same contents) = rows done after it -/
theorem done_join (d : Dev nD) (base k : ℕ) (f : Buf (Elt F) (oLoc d)) :
    iprop((oLoc d ↦[oRows base (base + 512 * k)]{fullShare} f) ∗ (oLoc d ↦[oRows (base + 512 * k) (base + 512 * k + 512)]{fullShare} f))
      ⊣⊢ (oLoc d ↦[oRows base (base + 512 * (k + 1))]{fullShare} f : sProp 𝕄) := by
  rw [show base + 512 * (k + 1) = base + 512 * k + 512 from by omega]
  exact BIBase.BiEntails.of_eq (pts_rows_split d _ _ _ (by omega) (by omega) f).symm

/-- a block of 512 rows is its eight chunks of 64 -/
theorem block_chunks (d : Dev nD) (s : ℕ) (f : Buf (Elt F) (oLoc d)) :
    (oLoc d ↦[oRows s (s + 512)]{fullShare} f : sProp 𝕄)
      = iprop((oLoc d ↦[oRows s (s + 64)]{fullShare} f) ∗ (oLoc d ↦[oRows (s + 64) (s + 128)]{fullShare} f) ∗ (oLoc d ↦[oRows (s + 128) (s + 192)]{fullShare} f)
          ∗ (oLoc d ↦[oRows (s + 192) (s + 256)]{fullShare} f) ∗ (oLoc d ↦[oRows (s + 256) (s + 320)]{fullShare} f) ∗ (oLoc d ↦[oRows (s + 320) (s + 384)]{fullShare} f)
          ∗ (oLoc d ↦[oRows (s + 384) (s + 448)]{fullShare} f) ∗ (oLoc d ↦[oRows (s + 448) (s + 512)]{fullShare} f)) := by
  rw [pts_rows_split d s (s + 64) (s + 512) (by omega) (by omega) f,
    pts_rows_split d (s + 64) (s + 128) (s + 512) (by omega) (by omega) f,
    pts_rows_split d (s + 128) (s + 192) (s + 512) (by omega) (by omega) f,
    pts_rows_split d (s + 192) (s + 256) (s + 512) (by omega) (by omega) f,
    pts_rows_split d (s + 256) (s + 320) (s + 512) (by omega) (by omega) f,
    pts_rows_split d (s + 320) (s + 384) (s + 512) (by omega) (by omega) f,
    pts_rows_split d (s + 384) (s + 448) (s + 512) (by omega) (by omega) f]

/-! ## The chunks as the body slices them -/

/-- The elements of chunk r of trip k. -/
theorem set_chunkK (L : grid0.Coords) (k : Fin k0_t1_loop.trips) (r : Fin 8) :
    (chunkK L k r).view.set
      = oRows (25600 * wid L + 512 * k.val + 64 * r.val) (25600 * wid L + 512 * k.val + 64 * r.val + 64) := by
  have e := k0_off3_eq L k r
  have h0 : k0_off3 L k (BitVec.ofNat 32 r.val) 0 = 51200 * (L 1).val + 25600 * (L 0).val + 512 * k.val + 64 * r.val := by rw [e]; rfl
  have h1 : k0_off3 L k (BitVec.ofNat 32 r.val) 1 = 0 := by rw [e]; rfl
  refine (set_chunk _ (k0_off3_inb L k r) h1).trans ?_
  rw [h0]
  unfold wid
  exact oRows_congr (by omega) (by omega)

/-- The elements of chunk r of the last eight. -/
theorem set_lastK (L : grid0.Coords) (r : Fin 8) :
    (lastK L r).view.set
      = oRows (25600 * wid L + 512 * 49 + 64 * r.val) (25600 * wid L + 512 * 49 + 64 * r.val + 64) := by
  have e := k0_off5_eq L r
  have h0 : k0_off5 L (BitVec.ofNat 32 (25088 + 64 * r.val)) 0 = 51200 * (L 1).val + 25600 * (L 0).val + 64 * r.val + 25088 := by rw [e]; rfl
  have h1 : k0_off5 L (BitVec.ofNat 32 (25088 + 64 * r.val)) 1 = 0 := by rw [e]; rfl
  refine (set_chunk _ (k0_off5_inb L r) h1).trans ?_
  rw [h0]
  unfold wid
  exact oRows_congr (by omega) (by omega)

/-- a chunk as the body slices it, in trip k, is rows [25600 w + 512 k + 64 r, … + 64) -/
theorem pts_chunk (d : Dev nD) (L : grid0.Coords) (k : Fin k0_t1_loop.trips) (r : Fin 8) (f : Buf (Elt F) (oLoc d)) :
    ((chunkK L k r).view.loc (V d (cV L) (jV L)) ↦[(chunkK L k r).view.set]{fullShare} f : sProp 𝕄)
      = oLoc d ↦[oRows (25600 * wid L + 512 * k.val + 64 * r.val) (25600 * wid L + 512 * k.val + 64 * r.val + 64)]{fullShare} f := by
  rw [set_chunkK]

/-- the same for the last eight chunks (after the loop: block number 49) -/
theorem pts_last (d : Dev nD) (L : grid0.Coords) (r : Fin 8) (f : Buf (Elt F) (oLoc d)) :
    ((lastK L r).view.loc (V d (cV L) (jV L)) ↦[(lastK L r).view.set]{fullShare} f : sProp 𝕄)
      = oLoc d ↦[oRows (25600 * wid L + 512 * 49 + 64 * r.val) (25600 * wid L + 512 * 49 + 64 * r.val + 64)]{fullShare} f := by
  rw [set_lastK]

end Cert.KB

end
-- ==== Proof.KB.Ring.lean ====
/-
  The ring of eight row slots, named. Slot b is the b-th 64 × 128 piece of the row scratch; a gather over row n of the
  400 × 64 index scratch lands in a slot the 64 table rows that the row's words name; while it is in flight the slot,
  the list row (at the slot's read piece of the scratch) and the table's elements (at the slot's read token) are lent
  to it. The loop's invariant before trip k: chunks 8k … 8k+7 are in flight into slots 0 … 7, the copies out are idle,
  and of the worker's 25600 rows the first 512 k hold the gathered rows while the rest are as they were.
-/
import proofs.«206746_g85272280694944_cont_9to1c4b_772_17_alg».proof.Proof.KB.Tile
import proofs.«206746_g85272280694944_cont_9to1c4b_772_17_alg».proof.Proof.KB.Chunks

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

abbrev slotK0 : Memref sig .scVector .vmem S64x128 .f32 :=
  ((sR).slice (Rect.unit (s := S8x64x128) ![0, 0, 0] S1x64x128.size inb_S8x64x128_S1x64x128_0_0_0) (fun _ => rfl)).squeeze S64x128 squeezes_S1x64x128_S64x128
abbrev slotK1 : Memref sig .scVector .vmem S64x128 .f32 :=
  ((sR).slice (Rect.unit (s := S8x64x128) ![1, 0, 0] S1x64x128.size inb_S8x64x128_S1x64x128_1_0_0) (fun _ => rfl)).squeeze S64x128 squeezes_S1x64x128_S64x128
abbrev slotK2 : Memref sig .scVector .vmem S64x128 .f32 :=
  ((sR).slice (Rect.unit (s := S8x64x128) ![2, 0, 0] S1x64x128.size inb_S8x64x128_S1x64x128_2_0_0) (fun _ => rfl)).squeeze S64x128 squeezes_S1x64x128_S64x128
abbrev slotK3 : Memref sig .scVector .vmem S64x128 .f32 :=
  ((sR).slice (Rect.unit (s := S8x64x128) ![3, 0, 0] S1x64x128.size inb_S8x64x128_S1x64x128_3_0_0) (fun _ => rfl)).squeeze S64x128 squeezes_S1x64x128_S64x128
abbrev slotK4 : Memref sig .scVector .vmem S64x128 .f32 :=
  ((sR).slice (Rect.unit (s := S8x64x128) ![4, 0, 0] S1x64x128.size inb_S8x64x128_S1x64x128_4_0_0) (fun _ => rfl)).squeeze S64x128 squeezes_S1x64x128_S64x128
abbrev slotK5 : Memref sig .scVector .vmem S64x128 .f32 :=
  ((sR).slice (Rect.unit (s := S8x64x128) ![5, 0, 0] S1x64x128.size inb_S8x64x128_S1x64x128_5_0_0) (fun _ => rfl)).squeeze S64x128 squeezes_S1x64x128_S64x128
abbrev slotK6 : Memref sig .scVector .vmem S64x128 .f32 :=
  ((sR).slice (Rect.unit (s := S8x64x128) ![6, 0, 0] S1x64x128.size inb_S8x64x128_S1x64x128_6_0_0) (fun _ => rfl)).squeeze S64x128 squeezes_S1x64x128_S64x128
abbrev slotK7 : Memref sig .scVector .vmem S64x128 .f32 :=
  ((sR).slice (Rect.unit (s := S8x64x128) ![7, 0, 0] S1x64x128.size inb_S8x64x128_S1x64x128_7_0_0) (fun _ => rfl)).squeeze S64x128 squeezes_S1x64x128_S64x128

def slotSet (b : ℕ) : Finset S8x64x128.Idx := Finset.univ.filter fun i => (i 0).val = b

theorem slots_disjoint : ∀ i ∈ (Finset.univ : Finset (Fin 8)), ∀ j ∈ (Finset.univ : Finset (Fin 8)), i ≠ j → Disjoint (slotSet i.val) (slotSet j.val) := by
  intro i _ j _ h
  rw [Finset.disjoint_left]
  intro x hx hy
  simp only [slotSet, Finset.mem_filter, Finset.mem_univ, true_and] at hx hy
  exact h (Fin.ext (hx.symm.trans hy))
theorem slots_cover : (Finset.univ : Finset (Fin 8)).biUnion (fun b => slotSet b.val) = Finset.univ := by
  ext i
  simp only [Finset.mem_biUnion, Finset.mem_univ, true_and, iff_true, slotSet, Finset.mem_filter]
  exact ⟨⟨(i 0).val, (i 0).isLt⟩, rfl⟩

section
variable (d : Dev nD) (L : grid0.Coords)

theorem sR_slots (f : Buf (Elt F) ((V d (cV L) (jV L)).loc cc0_scratch1)) :
    ((sR).view.loc (V d (cV L) (jV L)) ↦{fullShare} f : sProp 𝕄)
      = bigSep Finset.univ fun b : Fin 8 => (sR).view.loc (V d (cV L) (jV L)) ↦[slotSet b.val]{fullShare} f := by
  rw [← pointsTo_biUnion Finset.univ (ℓ := (sR).view.loc (V d (cV L) (jV L))) (fun b : Fin 8 => slotSet b.val) slots_disjoint, slots_cover]

theorem pts_slot0 (f : Buf (Elt F) ((V d (cV L) (jV L)).loc cc0_scratch1)) :
    ((slotK0).view.loc (V d (cV L) (jV L)) ↦[(slotK0).view.set]{fullShare} f : sProp 𝕄)
      = (sR).view.loc (V d (cV L) (jV L)) ↦[slotSet ((0 : Fin 8)).val]{fullShare} f := by
  rw [show (slotK0).view.set = slotSet ((0 : Fin 8)).val from set_slot 0 _]
theorem pts_slot1 (f : Buf (Elt F) ((V d (cV L) (jV L)).loc cc0_scratch1)) :
    ((slotK1).view.loc (V d (cV L) (jV L)) ↦[(slotK1).view.set]{fullShare} f : sProp 𝕄)
      = (sR).view.loc (V d (cV L) (jV L)) ↦[slotSet ((1 : Fin 8)).val]{fullShare} f := by
  rw [show (slotK1).view.set = slotSet ((1 : Fin 8)).val from set_slot 1 _]
theorem pts_slot2 (f : Buf (Elt F) ((V d (cV L) (jV L)).loc cc0_scratch1)) :
    ((slotK2).view.loc (V d (cV L) (jV L)) ↦[(slotK2).view.set]{fullShare} f : sProp 𝕄)
      = (sR).view.loc (V d (cV L) (jV L)) ↦[slotSet ((2 : Fin 8)).val]{fullShare} f := by
  rw [show (slotK2).view.set = slotSet ((2 : Fin 8)).val from set_slot 2 _]
theorem pts_slot3 (f : Buf (Elt F) ((V d (cV L) (jV L)).loc cc0_scratch1)) :
    ((slotK3).view.loc (V d (cV L) (jV L)) ↦[(slotK3).view.set]{fullShare} f : sProp 𝕄)
      = (sR).view.loc (V d (cV L) (jV L)) ↦[slotSet ((3 : Fin 8)).val]{fullShare} f := by
  rw [show (slotK3).view.set = slotSet ((3 : Fin 8)).val from set_slot 3 _]
theorem pts_slot4 (f : Buf (Elt F) ((V d (cV L) (jV L)).loc cc0_scratch1)) :
    ((slotK4).view.loc (V d (cV L) (jV L)) ↦[(slotK4).view.set]{fullShare} f : sProp 𝕄)
      = (sR).view.loc (V d (cV L) (jV L)) ↦[slotSet ((4 : Fin 8)).val]{fullShare} f := by
  rw [show (slotK4).view.set = slotSet ((4 : Fin 8)).val from set_slot 4 _]
theorem pts_slot5 (f : Buf (Elt F) ((V d (cV L) (jV L)).loc cc0_scratch1)) :
    ((slotK5).view.loc (V d (cV L) (jV L)) ↦[(slotK5).view.set]{fullShare} f : sProp 𝕄)
      = (sR).view.loc (V d (cV L) (jV L)) ↦[slotSet ((5 : Fin 8)).val]{fullShare} f := by
  rw [show (slotK5).view.set = slotSet ((5 : Fin 8)).val from set_slot 5 _]
theorem pts_slot6 (f : Buf (Elt F) ((V d (cV L) (jV L)).loc cc0_scratch1)) :
    ((slotK6).view.loc (V d (cV L) (jV L)) ↦[(slotK6).view.set]{fullShare} f : sProp 𝕄)
      = (sR).view.loc (V d (cV L) (jV L)) ↦[slotSet ((6 : Fin 8)).val]{fullShare} f := by
  rw [show (slotK6).view.set = slotSet ((6 : Fin 8)).val from set_slot 6 _]
theorem pts_slot7 (f : Buf (Elt F) ((V d (cV L) (jV L)).loc cc0_scratch1)) :
    ((slotK7).view.loc (V d (cV L) (jV L)) ↦[(slotK7).view.set]{fullShare} f : sProp 𝕄)
      = (sR).view.loc (V d (cV L) (jV L)) ↦[slotSet ((7 : Fin 8)).val]{fullShare} f := by
  rw [show (slotK7).view.set = slotSet ((7 : Fin 8)).val from set_slot 7 _]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end

/-- Row `off 0` of the index scratch, as the body slices it. -/
abbrev lrowK (off : Fin 2 → ℕ) (inb : ∀ a, off a + S1x64.size a ≤ S400x64.size a) : Memref sig .scVector .vmem S64 .i32 :=
  ((sI).slice (Rect.unit (s := S400x64) off S1x64.size inb) (fun _ => rfl)).squeeze S64 squeezes_S1x64_S64
/-- The whole table, as the body slices it. -/
abbrev tAllK : Memref sig .scVector .hbm S100002x128 .f32 :=
  (tV).slice (Rect.unit (s := S100002x128) ![0, 0] S100002x128.size inb_S100002x128_S100002x128_0_0) (fun _ => rfl)

section Inv

variable (d : Dev nD) (L : grid0.Coords) (ft : Buf (Elt F) (tLoc d)) (fI : Buf (Elt F) ((V d (cV L) (jV L)).loc cc0_scratch0))
  (hin : ∀ (off : Fin 2 → ℕ) (inb : ∀ a, off a + S1x64.size a ≤ S400x64.size a) x,
      ((lrowK off inb).view.read (Elt F) fI x).toNat < S100002x128.size gathers_S100002x128_S64x128.axis)

/-- What a gather over list row `off 0` lands: row j of the slot is the table row that entry j of the list row names. -/
def gpay (off : Fin 2 → ℕ) (inb : ∀ a, off a + S1x64.size a ≤ S400x64.size a) : S64x128.Idx → Elt F .f32 :=
  SparseCore.gatherPayload gathers_S100002x128_S64x128 ((tAllK).view.read (Elt F) ft)
    (SparseCore.rows ((lrowK off inb).view.read (Elt F) fI) rfl (hin off inb))

/-- A slot whose gather over list row `n` is in flight on semaphore `c`: the flight (the slot written, the list row
    and the table's elements lent at the slot's shares) and what of the three stays beside it. -/
def inFlight (slot : Memref sig .scVector .vmem S64x128 .f32) (c : Fin 17) (ql qt : PosShare TreeShare) (n : ℕ) : sProp 𝕄 :=
  iprop(∃ (off : Fin 2 → ℕ) (inb : ∀ a, off a + S1x64.size a ≤ S400x64.size a) (fr : Buf (Elt F) (slot.view.loc (V d (cV L) (jV L)))), ⌜off = ![n, 0]⌝
    ∗ Transfers.Flight countersEmb (V d (cV L) (jV L)) (SemLoc.dma c) (default : HIx 1) 262144
        iprop(((slot.view.loc (V d (cV L) (jV L)) ↦[slot.view.set]{fullShare} slot.view.writes (Elt F) fr [⟨Rect.whole S64x128, gpay d L ft fI hin off inb⟩])
              ∗ ((sI).view.loc (V d (cV L) (jV L)) ↦[(lrowK off inb).view.set]{ql} fI))
            ∗ ((tV).view.loc (V d (cV L) (jV L)) ↦[(tAllK).view.set]{qt} ft))
    ∗ ((tV).view.loc (V d (cV L) (jV L)) ↦[Finset.univ \ (tAllK).view.set]{qt} ft)
    ∗ (slot.view.loc (V d (cV L) (jV L)) ↦[slot.view.set \ slot.view.set]{fullShare} slot.view.writes (Elt F) fr [⟨Rect.whole S64x128, gpay d L ft fI hin off inb⟩])
    ∗ ((sI).view.loc (V d (cV L) (jV L)) ↦[Finset.univ \ (lrowK off inb).view.set]{ql} fI))

variable (fo G : Buf (Elt F) (oLoc d)) (O : CellTallies nD τ sig (HIx 1)) (W : Waits sig (HIx 1))

/-- Before trip `k`: chunks 8k … 8k+7 are in flight into slots 0 … 7, the first 512 k of the worker's rows are done. -/
def inv (k : Nat) (_ : PUnit) : sProp 𝕄 :=
  iprop(Transfers.MayWaits (V d (cV L) (jV L)) (default : HIx 1) O
    ∗ inFlight d L ft fI hin slotK0 0 (Transfers.shareDrop fullShare 7) (Transfers.shareTok (tq (wid L)) 8 0) (8 * k + 0)
    ∗ inFlight d L ft fI hin slotK1 1 (Transfers.shareTok fullShare 7 0) (Transfers.shareTok (tq (wid L)) 8 1) (8 * k + 1)
    ∗ inFlight d L ft fI hin slotK2 2 (Transfers.shareTok fullShare 7 1) (Transfers.shareTok (tq (wid L)) 8 2) (8 * k + 2)
    ∗ inFlight d L ft fI hin slotK3 3 (Transfers.shareTok fullShare 7 2) (Transfers.shareTok (tq (wid L)) 8 3) (8 * k + 3)
    ∗ inFlight d L ft fI hin slotK4 4 (Transfers.shareTok fullShare 7 3) (Transfers.shareTok (tq (wid L)) 8 4) (8 * k + 4)
    ∗ inFlight d L ft fI hin slotK5 5 (Transfers.shareTok fullShare 7 4) (Transfers.shareTok (tq (wid L)) 8 5) (8 * k + 5)
    ∗ inFlight d L ft fI hin slotK6 6 (Transfers.shareTok fullShare 7 5) (Transfers.shareTok (tq (wid L)) 8 6) (8 * k + 6)
    ∗ inFlight d L ft fI hin slotK7 7 (Transfers.shareTok fullShare 7 6) (Transfers.shareTok (tq (wid L)) 8 7) (8 * k + 7)
    ∗ semVal (cell d L 8) 0
    ∗ semVal (cell d L 9) 0
    ∗ semVal (cell d L 10) 0
    ∗ semVal (cell d L 11) 0
    ∗ semVal (cell d L 12) 0
    ∗ semVal (cell d L 13) 0
    ∗ semVal (cell d L 14) 0
    ∗ semVal (cell d L 15) 0
    ∗ (oLoc d ↦[oRows (25600 * wid L) (25600 * wid L + 512 * k)]{fullShare} G)
    ∗ (oLoc d ↦[oRows (25600 * wid L + 512 * k) (25600 * wid L + 25600)]{fullShare} fo)
    ∗ ∃ W', ⌜∀ p ∈ W', p ∈ W ∨ p.2 = none⌝ ∗ owes (V d (cV L) (jV L)) O W')

end Inv

end Cert.KB

end
-- ==== Proof.KB.Values.lean ====
/-
  What the kernel's copies leave, as values. The index fetch lands the worker's list in the 400 × 64 scratch: entry
  (a, b) is entry (w, a, b) of the 32 × 400 × 64 index lists, since dropping the leading axis of extent one keeps
  row-major positions and the slice starts at list w. Every word of the scratch then names a table row. A row slot
  written whole reads back what was written. And the value itself: a 64-row chunk of the gathered rows, written
  whole with what the gather over list row n landed, holds at its row 25600 w + 64 n + j, column c, the table's
  entry (fi (w, n, j), c): the gather reads the table at the row the j-th word of the list row names, and the
  flat position 25600 w + 64 n + j of the index lists is entry (w, n, j).
-/
import proofs.«206746_g85272280694944_cont_9to1c4b_772_17_alg».proof.Proof.KB.Ring

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

/-- A 64-row chunk of the gathered rows at offsets `off`, as the body slices it. -/
abbrev chunkAt (off : Fin 2 → ℕ) (oinb : ∀ a, off a + S64x128.size a ≤ S819200x128.size a) : Memref sig .scVector .hbm S64x128 .f32 :=
  (oV).slice (Rect.unit (s := S819200x128) off S64x128.size oinb) (fun _ => rfl)
/-- Slot `sb` of the eight row slots, as the body slices it. -/
abbrev slotAt (sb : ℕ) (sinb : ∀ a, (![sb, 0, 0] : Fin 3 → ℕ) a + S1x64x128.size a ≤ S8x64x128.size a) : Memref sig .scVector .vmem S64x128 .f32 :=
  ((sR).slice (Rect.unit (s := S8x64x128) ![sb, 0, 0] S1x64x128.size sinb) (fun _ => rfl)).squeeze S64x128 squeezes_S1x64x128_S64x128

/-! ## The index fetch -/

/-- Where entry (a, b) of the worker's list, as the body slices it off the index lists, sits: at (w, a, b). Dropping
    the leading axis of extent one keeps the row-major position, a·64 + b = (0·400 + a)·64 + b, and the slice
    starts at list w, row 0, column 0. -/
theorem emb_iRowK (L : grid0.Coords) (a : Fin 400) (b : Fin 64) :
    (iRowK L).view.emb (ValueIdx.ix2 a b) = ValueIdx.ix3 (⟨wid L, wid_lt L⟩ : Fin 32) a b := by
  have hq : Shape.reshapeEquiv (s := S1x400x64) (s' := S400x64) squeezes_S1x400x64_S400x64.numel_eq (ValueIdx.ix2 a b)
      = ValueIdx.ix3 (0 : Fin 1) a b := by
    refine Shape.reshapeEquiv_eq_of_rowMajor _ ?_
    rw [Shape.rowMajor_val_two, Shape.rowMajor_val_three]
    show (0 * 400 + a.val) * 64 + b.val = a.val * 64 + b.val
    omega
  have e := k0_off1_eq L
  have h0 : k0_off1 L 0 = wid L := by rw [e]; rfl
  have h1 : k0_off1 L 1 = 0 := by rw [e]; rfl
  have h2 : k0_off1 L 2 = 0 := by rw [e]; rfl
  show (Rect.unit (s := S32x400x64) (k0_off1 L) S1x400x64.size (k0_off1_inb L)).emb
      (Shape.reshapeEquiv (s := S1x400x64) (s' := S400x64) squeezes_S1x400x64_S400x64.numel_eq (ValueIdx.ix2 a b)) = _
  rw [hq]
  funext c
  apply Fin.ext
  rw [Rect.emb_apply]
  match c with
  | ⟨0, _⟩ => show k0_off1 L 0 + 1 * 0 = wid L; omega
  | ⟨1, _⟩ => show k0_off1 L 1 + 1 * a.val = a.val; omega
  | ⟨2, _⟩ => show k0_off1 L 2 + 1 * b.val = b.val; omega

/-- What the index fetch lands in the 400 × 64 scratch: entry (a, b) is entry (w, a, b) of the index lists, w the worker. -/
theorem list_landed (d : Dev nD) (L : grid0.Coords) (fi : Buf (Elt F) (iLoc d)) (fs : Buf (Elt F) ((V d (cV L) (jV L)).loc cc0_scratch0)) (a : Fin 400) (b : Fin 64) :
    ((sI).view.write (Elt F) fs (ReadAs.same.apply ((iRowK L).view.read (Elt F) fi)) Finset.univ) (ValueIdx.ix2 a b) = fi (ValueIdx.ix3 (⟨wid L, wid_lt L⟩ : Fin 32) a b) := by
  show (sI).view.read (Elt F) ((sI).view.write (Elt F) fs (ReadAs.same.apply ((iRowK L).view.read (Elt F) fi)) Finset.univ) (ValueIdx.ix2 a b) = _
  rw [View.read_write_univ]
  show fi ((iRowK L).view.emb (ValueIdx.ix2 a b)) = _
  rw [emb_iRowK]

/-- hence every word of every list row is a row number of the table: what each gather asks of the words it reads -/
theorem list_in_range (d : Dev nD) (L : grid0.Coords) (fI : Buf (Elt F) ((V d (cV L) (jV L)).loc cc0_scratch0)) (h : ∀ j, (fI j).toNat < 100002)
    (off : Fin 2 → ℕ) (inb : ∀ a, off a + S1x64.size a ≤ S400x64.size a) (x : S64.Idx) :
    ((lrowK off inb).view.read (Elt F) fI x).toNat < S100002x128.size gathers_S100002x128_S64x128.axis :=
  h ((lrowK off inb).view.emb x)

/-! ## A slot written whole -/

/-- a slot read back after one whole write is what was written -/
theorem slot_read_back (d : Dev nD) (L : grid0.Coords) (sb : ℕ) (sinb : ∀ a, (![sb, 0, 0] : Fin 3 → ℕ) a + S1x64x128.size a ≤ S8x64x128.size a)
    (fr : Buf (Elt F) ((slotAt sb sinb).view.loc (V d (cV L) (jV L)))) (g : S64x128.Idx → Elt F .f32) :
    ReadAs.same.apply (View.read (Elt F) (slotAt sb sinb).view ((slotAt sb sinb).view.writes (Elt F) fr [⟨Rect.whole S64x128, g⟩])) = g := by
  funext x
  have hw := View.read_writes_cons_emb (slotAt sb sinb).view fr (Rect.whole S64x128) g [] x
  rw [Rect.emb_whole_apply] at hw
  exact hw

/-! ## The value of a chunk -/

/-- The whole table, as the body slices it (offset zero, full extent), places every index at itself. -/
theorem emb_tAllK (z : S100002x128.Idx) : (tAllK).view.emb z = z := by
  show (Rect.unit (s := S100002x128) ![0, 0] S100002x128.size inb_S100002x128_S100002x128_0_0).emb z = z
  funext c
  apply Fin.ext
  rw [Rect.emb_apply]
  match c with
  | ⟨0, _⟩ => show 0 + 1 * (z 0).val = (z 0).val; omega
  | ⟨1, _⟩ => show 0 + 1 * (z 1).val = (z 1).val; omega

/-- Entry j of row n of the index scratch, as the body slices the row (slice, then drop the axis of extent one),
    sits at (n, j). -/
theorem emb_lrowK (n : ℕ) (hn : n < 400) (inb : ∀ a, (![n, 0] : Fin 2 → ℕ) a + S1x64.size a ≤ S400x64.size a) (j : Fin 64) :
    (lrowK ![n, 0] inb).view.emb (ValueIdx.ix1 j) = ValueIdx.ix2 (⟨n, hn⟩ : Fin 400) j := by
  have hq : Shape.reshapeEquiv (s := S1x64) (s' := S64) squeezes_S1x64_S64.numel_eq (ValueIdx.ix1 j) = ValueIdx.ix2 (0 : Fin 1) j := by
    refine Shape.reshapeEquiv_eq_of_rowMajor _ ?_
    rw [Shape.rowMajor_val_one, Shape.rowMajor_val_two]
    show 0 * 64 + j.val = j.val
    omega
  show (Rect.unit (s := S400x64) ![n, 0] S1x64.size inb).emb
      (Shape.reshapeEquiv (s := S1x64) (s' := S64) squeezes_S1x64_S64.numel_eq (ValueIdx.ix1 j)) = _
  rw [hq]
  funext c
  apply Fin.ext
  rw [Rect.emb_apply]
  match c with
  | ⟨0, _⟩ => show n + 1 * 0 = n; omega
  | ⟨1, _⟩ => show 0 + 1 * j.val = j.val; omega

/-- Position k of a list of 64 words is its entry k. -/
theorem rowMajor_symm_S64 (k : Fin 64) (k' : Fin S64.numel) (h : k'.val = k.val) : S64.rowMajor.symm k' = ValueIdx.ix1 k := by
  rw [Equiv.symm_apply_eq]
  apply Fin.ext
  rw [Shape.rowMajor_val_one]
  exact h

/-- Entry r of the index lists read as 32 × 400 × 64 is entry (w, n, j) when r = 25600 w + 64 n + j. -/
theorem flatIx_eq (r : Fin 819200) (w : Fin 32) (n : Fin 400) (j : Fin 64) (h : r.val = 25600 * w.val + 64 * n.val + j.val) :
    Emb.flatIx r = ValueIdx.ix3 w n j := by
  have hw := w.isLt
  have hn := n.isLt
  have hj := j.isLt
  funext a
  match a with
  | ⟨0, _⟩ => exact Fin.ext (by show r.val / 25600 = w.val; omega)
  | ⟨1, _⟩ => exact Fin.ext (by show r.val % 25600 / 64 = n.val; omega)
  | ⟨2, _⟩ => exact Fin.ext (by show r.val % 64 = j.val; omega)

section Value

variable (d : Dev nD) (L : grid0.Coords) (ft : Buf (Elt F) (tLoc d)) (fI : Buf (Elt F) ((V d (cV L) (jV L)).loc cc0_scratch0))
  (hin : ∀ (off : Fin 2 → ℕ) (inb : ∀ a, off a + S1x64.size a ≤ S400x64.size a) x,
      ((lrowK off inb).view.read (Elt F) fI x).toNat < S100002x128.size gathers_S100002x128_S64x128.axis)

/-- What the gather over list row n lands at (j, c): the table's entry (row, c), row the number the j-th word of
    the list row is. Stated for any table index `z` with those two coordinates. -/
theorem gpay_apply (n : ℕ) (hn : n < 400) (inb : ∀ a, (![n, 0] : Fin 2 → ℕ) a + S1x64.size a ≤ S400x64.size a)
    (j : Fin 64) (c : Fin 128) (z : S100002x128.Idx)
    (hz0 : (z 0).val = (fI (ValueIdx.ix2 (⟨n, hn⟩ : Fin 400) j)).toNat) (hz1 : (z 1).val = c.val) :
    gpay d L ft fI hin ![n, 0] inb (ValueIdx.ix2 j c) = ft z := by
  unfold gpay SparseCore.gatherPayload
  show ft ((tAllK).view.emb _) = ft z
  rw [emb_tAllK]
  refine congrArg ft (funext fun a => Fin.ext ?_)
  match a with
  | ⟨0, _⟩ =>
    refine (congrArg Fin.val (Shape.Gathers.idx_axis gathers_S100002x128_S64x128 _ (ValueIdx.ix2 j c))).trans ?_
    show (fI ((lrowK ![n, 0] inb).view.emb (S64.rowMajor.symm _))).toNat = (z 0).val
    rw [rowMajor_symm_S64 j]
    · rw [emb_lrowK n hn inb j, hz0]
    · rfl
  | ⟨1, _⟩ =>
    refine (Shape.Gathers.idx_of_ne gathers_S100002x128_S64x128 _ (ValueIdx.ix2 j c) ⟨1, by decide⟩ (by decide)).trans ?_
    show c.val = (z 1).val
    exact hz1.symm

end Value

/-- The value: a chunk of the gathered rows written whole with the payload of the gather over list row n holds, on its
    own elements, the specification's rows — when the chunk starts at row 25600 w + 64 n and the scratch holds the worker's list. -/
theorem chunk_value (d : Dev nD) (L : grid0.Coords) (fi : Buf (Elt F) (iLoc d)) (ft : Buf (Elt F) (tLoc d)) (hfi : ∀ j, (fi j).toNat < 100002)
    (fI : Buf (Elt F) ((V d (cV L) (jV L)).loc cc0_scratch0))
    (hfI : ∀ (a : Fin 400) (b : Fin 64), fI (ValueIdx.ix2 a b) = fi (ValueIdx.ix3 (⟨wid L, wid_lt L⟩ : Fin 32) a b))
    (hin : ∀ (off : Fin 2 → ℕ) (inb : ∀ a, off a + S1x64.size a ≤ S400x64.size a) x, ((lrowK off inb).view.read (Elt F) fI x).toNat < S100002x128.size gathers_S100002x128_S64x128.axis)
    (n : ℕ) (hn : n < 400) (inb : ∀ a, (![n, 0] : Fin 2 → ℕ) a + S1x64.size a ≤ S400x64.size a)
    (off : Fin 2 → ℕ) (oinb : ∀ a, off a + S64x128.size a ≤ S819200x128.size a) (hoff : off = ![25600 * wid L + 64 * n, 0])
    (fo : Buf (Elt F) (oLoc d)) (p : S64x128.Idx → Elt F .f32) (hp : p = gpay d L ft fI hin ![n, 0] inb) :
    ∀ i ∈ (chunkAt off oinb).view.set, (chunkAt off oinb).view.writes (Elt F) fo [⟨Rect.whole S64x128, p⟩] i = gathered d fi ft i := by
  intro i hi
  obtain ⟨y, -, rfl⟩ := Finset.mem_map.mp hi
  obtain ⟨j, c, rfl⟩ : ∃ (j : Fin 64) (c : Fin 128), y = ValueIdx.ix2 j c := ⟨y 0, y 1, ValueIdx.eq_ix2 y⟩
  -- the element under (j, c) of the chunk: row 25600 w + 64 n + j, column c
  have h0 : (((chunkAt off oinb).view.emb (ValueIdx.ix2 j c)) 0).val = 25600 * wid L + 64 * n + j.val := by
    show off 0 + 1 * j.val = _
    rw [hoff]
    show 25600 * wid L + 64 * n + 1 * j.val = _
    omega
  have h1 : (((chunkAt off oinb).view.emb (ValueIdx.ix2 j c)) 1).val = c.val := by
    show off 1 + 1 * c.val = _
    rw [hoff]
    show 0 + 1 * c.val = _
    omega
  -- the chunk written whole reads the payload there
  have hw := View.read_writes_cons_emb (chunkAt off oinb).view fo (Rect.whole S64x128) p [] (ValueIdx.ix2 j c)
  rw [Rect.emb_whole_apply] at hw
  show (chunkAt off oinb).view.read (Elt F) ((chunkAt off oinb).view.writes (Elt F) fo [⟨Rect.whole S64x128, p⟩]) (ValueIdx.ix2 j c) = _
  rw [hw, hp]
  -- the specification there
  have hf : Emb.flatIx (((chunkAt off oinb).view.emb (ValueIdx.ix2 j c)) 0) = ValueIdx.ix3 (⟨wid L, wid_lt L⟩ : Fin 32) (⟨n, hn⟩ : Fin 400) j :=
    flatIx_eq _ _ _ _ h0
  show _ = ft (ValueIdx.ix2 (Emb.rowOf (fi (Emb.flatIx (((chunkAt off oinb).view.emb (ValueIdx.ix2 j c)) 0)))) (((chunkAt off oinb).view.emb (ValueIdx.ix2 j c)) 1))
  refine gpay_apply d L ft fI hin n hn inb j c _ ?_ h1
  show (Emb.rowOf (fi (Emb.flatIx (((chunkAt off oinb).view.emb (ValueIdx.ix2 j c)) 0)))).val = _
  rw [hf, Emb.rowOf_val (hfi _), hfI]

end Cert.KB

end
-- ==== Proof.KB.Body.lean ====
/-
  One vector subcore's task, worker w = 2 s + c of the thirty-two: fetch list w of the index lists (400 chunks of
  64 row numbers) into the index scratch; then keep eight gathers in flight, one per row slot — chunk n's gather
  lands in slot n mod 8 the 64 table rows its words name —, and for each chunk in turn wait for its gather, copy
  the slot out to rows [25600 w + 64 n, 25600 w + 64 n + 64) of the gathered rows, wait for the copy, and start
  the gather of chunk n + 8 into the freed slot; the last eight chunks are copied out after the loop. Each slot has
  its own pair of semaphores (gather, copy out), so at most one transfer is pending on a semaphore at a time, and a
  slot is touched only between one transfer's completion and the next one's start. The table is only read (eight
  read tokens of the worker's share, one per slot), the index scratch is only read after the fetch (eight read
  pieces, one per slot), and every row number is below 100002 (the precondition), so every gather's rows exist.
  The invariant before trip k of the 49: chunks 8k … 8k+7 in flight, rows [25600 w, 25600 w + 512 k) holding the
  specification's rows, the rest untouched. At the end all 25600 rows hold the specification's rows, the table
  and the index list are as they were, and the scratch buffers and semaphores are back whole and at zero.
-/
import proofs.«206746_g85272280694944_cont_9to1c4b_772_17_alg».proof.Proof.KB.Values

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

section BodyLemmas

variable (d : Dev nD) (L : grid0.Coords)

/-- A wait recorded at the kernel's own index keeps the record admissible. -/
theorem waits_insert {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

/-- A chunk's first row, in trip k: 25600 w + 64 (8 k + r). -/
theorem off3_eq (k : Fin k0_t1_loop.trips) (r : Fin 8) :
    k0_off3 L k (BitVec.ofNat 32 r.val) = ![25600 * wid L + 64 * (8 * k.val + r.val), 0] := by
  rw [k0_off3_eq]; unfold wid; congr 1; omega
/-- The list row the next gather of slot r reads, in trip k: row 8 (k + 1) + r. -/
theorem off4_eq (k : Fin k0_t1_loop.trips) (r : Fin 8) :
    k0_off4 k (BitVec.ofNat 32 r.val) = ![8 * (k.val + 1) + r.val, 0] := by
  rw [k0_off4_eq]; congr 1; omega
/-- A last chunk's first row: 25600 w + 64 (392 + r). -/
theorem off5_eq (r : Fin 8) :
    k0_off5 L (BitVec.ofNat 32 (25088 + 64 * r.val)) = ![25600 * wid L + 64 * (392 + r.val), 0] := by
  rw [k0_off5_eq]; unfold wid; congr 1; omega

theorem pts_chunk_at (k : Fin k0_t1_loop.trips) (r : Fin 8) (a b : ℕ) (ha : a = 25600 * wid L + 512 * k.val + 64 * r.val) (hb : b = a + 64)
    (f : Buf (Elt F) (oLoc d)) :
    ((chunkK L k r).view.loc (V d (cV L) (jV L)) ↦[(chunkK L k r).view.set]{fullShare} f : sProp 𝕄) = oLoc d ↦[oRows a b]{fullShare} f := by
  subst ha hb; exact pts_chunk d L k r f
theorem pts_last_at (r : Fin 8) (a b : ℕ) (ha : a = 25600 * wid L + 512 * 49 + 64 * r.val) (hb : b = a + 64) (f : Buf (Elt F) (oLoc d)) :
    ((lastK L r).view.loc (V d (cV L) (jV L)) ↦[(lastK L r).view.set]{fullShare} f : sProp 𝕄) = oLoc d ↦[oRows a b]{fullShare} f := by
  subst ha hb; exact pts_last d L r f

/-- The eight slots, each at some contents, are the whole row scratch at some contents. -/
theorem slots_join8 :
    (iprop((∃ f, (sR).view.loc (V d (cV L) (jV L)) ↦[slotSet ((0 : Fin 8)).val]{fullShare} f) ∗ (∃ f, (sR).view.loc (V d (cV L) (jV L)) ↦[slotSet ((1 : Fin 8)).val]{fullShare} f) ∗ (∃ f, (sR).view.loc (V d (cV L) (jV L)) ↦[slotSet ((2 : Fin 8)).val]{fullShare} f) ∗ (∃ f, (sR).view.loc (V d (cV L) (jV L)) ↦[slotSet ((3 : Fin 8)).val]{fullShare} f) ∗ (∃ f, (sR).view.loc (V d (cV L) (jV L)) ↦[slotSet ((4 : Fin 8)).val]{fullShare} f) ∗ (∃ f, (sR).view.loc (V d (cV L) (jV L)) ↦[slotSet ((5 : Fin 8)).val]{fullShare} f) ∗ (∃ f, (sR).view.loc (V d (cV L) (jV L)) ↦[slotSet ((6 : Fin 8)).val]{fullShare} f) ∗ (∃ f, (sR).view.loc (V d (cV L) (jV L)) ↦[slotSet ((7 : Fin 8)).val]{fullShare} f)) : sProp 𝕄)
      ⊢ (iprop(∃ f, (V d (cV L) (jV L)).loc cc0_scratch1 ↦{fullShare} f) : sProp 𝕄) := by
  have e : (iprop((∃ f, (sR).view.loc (V d (cV L) (jV L)) ↦[slotSet ((0 : Fin 8)).val]{fullShare} f) ∗ (∃ f, (sR).view.loc (V d (cV L) (jV L)) ↦[slotSet ((1 : Fin 8)).val]{fullShare} f) ∗ (∃ f, (sR).view.loc (V d (cV L) (jV L)) ↦[slotSet ((2 : Fin 8)).val]{fullShare} f) ∗ (∃ f, (sR).view.loc (V d (cV L) (jV L)) ↦[slotSet ((3 : Fin 8)).val]{fullShare} f) ∗ (∃ f, (sR).view.loc (V d (cV L) (jV L)) ↦[slotSet ((4 : Fin 8)).val]{fullShare} f) ∗ (∃ f, (sR).view.loc (V d (cV L) (jV L)) ↦[slotSet ((5 : Fin 8)).val]{fullShare} f) ∗ (∃ f, (sR).view.loc (V d (cV L) (jV L)) ↦[slotSet ((6 : Fin 8)).val]{fullShare} f) ∗ (∃ f, (sR).view.loc (V d (cV L) (jV L)) ↦[slotSet ((7 : Fin 8)).val]{fullShare} f)) : sProp 𝕄)
      = bigSep Finset.univ fun b : Fin 8 => iprop(∃ f, (sR).view.loc (V d (cV L) (jV L)) ↦[slotSet b.val]{fullShare} f) :=
    (bigSep_fin8 (F := F) (fun b : Fin 8 => iprop(∃ f, (sR).view.loc (V d (cV L) (jV L)) ↦[slotSet b.val]{fullShare} f))).symm
  rw [e]
  refine (bigSep_exists_pi Finset.univ (fun (b : Fin 8) (f : Buf (Elt F) ((V d (cV L) (jV L)).loc cc0_scratch1)) =>
      (sR).view.loc (V d (cV L) (jV L)) ↦[slotSet b.val]{fullShare} f)).trans ?_
  iintro ⟨%fs, H⟩
  ihave H' := (pointsTo_biUnion_join Finset.univ (fun b : Fin 8 => slotSet b.val) fs (fs 0) slots_disjoint) $$ H
  icases H' with ⟨%g, -, Hg⟩
  rw [slots_cover]
  iexists g; iexact Hg

theorem trips_eq : Scf.trips k0_t1_loop.lb k0_t1_loop.ub k0_t1_loop.st = 49 := by decide

end BodyLemmas

set_option maxHeartbeats 8000000 in
theorem tile_body (d : Dev nD) (L : grid0.Coords) (hF : (K (F := F)).Facts)
    (fi : Buf (Elt F) (iLoc d)) (ft : Buf (Elt F) (tLoc d)) (fo : Buf (Elt F) (oLoc d)) (hfi : ∀ j, (fi j).toNat < 100002)
    (O : CellTallies nD τ sig (HIx 1)) (W : Waits sig (HIx 1)) (hO : ∀ g, O g none = 0) :
    iprop(levAts (K (F := F)).L (K (F := F)).lev ∗ emp
        ∗ (iRowPts d (wid L) fi ∗ tShPts d (wid L) ft ∗ oPartPts d (wid L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_kernel L iV (Memref.isWhole_whole _) tV (Memref.isWhole_whole _) oV (Memref.isWhole_whole _) sI (Memref.isWhole_whole _) sR (Memref.isWhole_whole _)
            cc0_scratch2 cc0_scratch3 cc0_scratch4 cc0_scratch5 cc0_scratch6 cc0_scratch7 cc0_scratch8 cc0_scratch9
            cc0_scratch10 cc0_scratch11 cc0_scratch12 cc0_scratch13 cc0_scratch14 cc0_scratch15 cc0_scratch16 cc0_scratch17 cc0_scoped0)
          fun _ => iprop((iRowPts d (wid L) fi ∗ tShPts d (wid L) ft ∗ oPartPts d (wid L) (gathered d fi ft))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_kernel_eq_skeleton]; unfold cc0__emb_kernel_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨Hg0, Hg1, Hg2, Hg3, Hg4, Hg5, Hg6, Hg7, Hp0, Hp1, Hp2, Hp3, Hp4, Hp5, Hp6, Hp7, Hsc⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (Entails.of_eq (pts_sI (F := F) d L _).symm) $$ Hs
  sl_exec
  -- the list as it landed
  generalize hfI : (View.write (Elt F) (Memref.whole cc0_scratch0).view fs (tile_body.sl.dma0 d L fi) Finset.univ : Buf (Elt F) ((V d (cV L) (jV L)).loc cc0_scratch0)) = fI
  have hfIv : ∀ (a : Fin 400) (b : Fin 64), fI (ValueIdx.ix2 a b) = fi (ValueIdx.ix3 (⟨wid L, wid_lt L⟩ : Fin 32) a b) :=
    fun a b => hfI ▸ list_landed (F := F) d L fi fs a b
  have hfI_in : ∀ j, (fI j).toNat < 100002 := by
    intro j
    obtain ⟨a, b, rfl⟩ : ∃ (a : Fin 400) (b : Fin 64), j = ValueIdx.ix2 a b := ⟨j 0, j 1, ValueIdx.eq_ix2 j⟩
    rw [hfIv a b]
    exact hfi _
  have hin : ∀ (off : Fin 2 → ℕ) (inb : ∀ a, off a + S1x64.size a ≤ S400x64.size a) x,
      ((lrowK off inb).view.read (Elt F) fI x).toNat < S100002x128.size gathers_S100002x128_S64x128.axis :=
    list_in_range (F := F) d L fI hfI_in
  -- the list in eight read pieces and the table in eight read tokens, one per slot
  ihave Hs2 := (Transfers.pointsTo_toks_split fullShare 7) $$ Hs'
  icases Hs2 with ⟨Hsd, Hst⟩
  ihave Hst' := (Entails.of_eq (bigSep_fin7 (F := F) _)) $$ Hst
  icases Hst' with ⟨Hs0, Hs1, Hs2, Hs3, Hs4, Hs5, Hs6⟩
  ihave Ht' := (Entails.of_eq (pts_tV (F := F) d L _ _).symm) $$ Ht
  ihave Ht2 := (Transfers.pointsTo_toks_split (tq (wid L)) 8) $$ Ht'
  icases Ht2 with ⟨Htd, Htt⟩
  ihave Htt' := (Entails.of_eq (bigSep_fin8 (F := F) _)) $$ Htt
  icases Htt' with ⟨Ht0, Ht1, Ht2, Ht3, Ht4, Ht5, Ht6, Ht7⟩
  -- the slots
  ihave Hr' := (Entails.of_eq (pts_sR (F := F) d L _).symm) $$ Hr
  ihave Hr2 := (Entails.of_eq (sR_slots (F := F) d L _)) $$ Hr'
  ihave Hr3 := (Entails.of_eq (bigSep_fin8 (F := F) _)) $$ Hr2
  icases Hr3 with ⟨Hq0, Hq1, Hq2, Hq3, Hq4, Hq5, Hq6, Hq7⟩
  ihave Hr0' := (Entails.of_eq (pts_slot0 (F := F) d L _).symm) $$ Hq0
  ihave Hr1' := (Entails.of_eq (pts_slot1 (F := F) d L _).symm) $$ Hq1
  ihave Hr2' := (Entails.of_eq (pts_slot2 (F := F) d L _).symm) $$ Hq2
  ihave Hr3' := (Entails.of_eq (pts_slot3 (F := F) d L _).symm) $$ Hq3
  ihave Hr4' := (Entails.of_eq (pts_slot4 (F := F) d L _).symm) $$ Hq4
  ihave Hr5' := (Entails.of_eq (pts_slot5 (F := F) d L _).symm) $$ Hq5
  ihave Hr6' := (Entails.of_eq (pts_slot6 (F := F) d L _).symm) $$ Hq6
  ihave Hr7' := (Entails.of_eq (pts_slot7 (F := F) d L _).symm) $$ Hq7
  sl_exec

  sl_for (inv d L ft fI hin fo (gathered d fi ft) O W) $$ [Hmw Hg0 Ht0 Hr0' Hsd Hg1 Ht1 Hr1' Hs0 Hg2 Ht2 Hr2' Hs1 Hg3 Ht3 Hr3' Hs2 Hg4 Ht4 Hr4' Hs3 Hg5 Ht5 Hr5' Hs4 Hg6 Ht6 Hr6' Hs5 Hg7 Ht7 Hr7' Hs6 Hp0 Hp1 Hp2 Hp3 Hp4 Hp5 Hp6 Hp7 Ho HO]
  case region =>
    intro k _
    have hk : k.val < 49 := lt_of_lt_of_le (show k.val < k0_t1_loop.trips from k.isLt) k0_t1_abs.2.1
    unfold inv inFlight
    iintro ⟨#Hmw, ⟨%off0, %inb0, %fr0, %hoff0, Hg0, Ht0, Hr0, Hs0⟩, ⟨%off1, %inb1, %fr1, %hoff1, Hg1, Ht1, Hr1, Hs1⟩, ⟨%off2, %inb2, %fr2, %hoff2, Hg2, Ht2, Hr2, Hs2⟩, ⟨%off3, %inb3, %fr3, %hoff3, Hg3, Ht3, Hr3, Hs3⟩, ⟨%off4, %inb4, %fr4, %hoff4, Hg4, Ht4, Hr4, Hs4⟩, ⟨%off5, %inb5, %fr5, %hoff5, Hg5, Ht5, Hr5, Hs5⟩, ⟨%off6, %inb6, %fr6, %hoff6, Hg6, Ht6, Hr6, Hs6⟩, ⟨%off7, %inb7, %fr7, %hoff7, Hg7, Ht7, Hr7, Hs7⟩, Hp0, Hp1, Hp2, Hp3, Hp4, Hp5, Hp6, Hp7, Hdone, Htodo, %W', %hW', HO⟩
    subst hoff0 hoff1 hoff2 hoff3 hoff4 hoff5 hoff6 hoff7
    -- this trip's block of 512 rows, and its eight chunks as the body slices them
    ihave Hsp := (todo_split (F := F) d (25600 * wid L) k.val (by omega) fo).1 $$ Htodo
    icases Hsp with ⟨Hblk, Htodo⟩
    ihave Hblk' := (Entails.of_eq (block_chunks (F := F) d (25600 * wid L + 512 * k.val) fo)) $$ Hblk
    icases Hblk' with ⟨Hc0, Hc1, Hc2, Hc3, Hc4, Hc5, Hc6, Hc7⟩
    ihave Hc0' := (Entails.of_eq (pts_chunk_at (F := F) d L k 0 (25600 * wid L + 512 * k.val + 0) (25600 * wid L + 512 * k.val + 64) (by simp) (by omega) fo).symm) $$ Hc0
    ihave Hc1' := (Entails.of_eq (pts_chunk_at (F := F) d L k 1 (25600 * wid L + 512 * k.val + 64) (25600 * wid L + 512 * k.val + 128) (by simp) (by omega) fo).symm) $$ Hc1
    ihave Hc2' := (Entails.of_eq (pts_chunk_at (F := F) d L k 2 (25600 * wid L + 512 * k.val + 128) (25600 * wid L + 512 * k.val + 192) (by simp) (by omega) fo).symm) $$ Hc2
    ihave Hc3' := (Entails.of_eq (pts_chunk_at (F := F) d L k 3 (25600 * wid L + 512 * k.val + 192) (25600 * wid L + 512 * k.val + 256) (by simp) (by omega) fo).symm) $$ Hc3
    ihave Hc4' := (Entails.of_eq (pts_chunk_at (F := F) d L k 4 (25600 * wid L + 512 * k.val + 256) (25600 * wid L + 512 * k.val + 320) (by simp) (by omega) fo).symm) $$ Hc4
    ihave Hc5' := (Entails.of_eq (pts_chunk_at (F := F) d L k 5 (25600 * wid L + 512 * k.val + 320) (25600 * wid L + 512 * k.val + 384) (by simp) (by omega) fo).symm) $$ Hc5
    ihave Hc6' := (Entails.of_eq (pts_chunk_at (F := F) d L k 6 (25600 * wid L + 512 * k.val + 384) (25600 * wid L + 512 * k.val + 448) (by simp) (by omega) fo).symm) $$ Hc6
    ihave Hc7' := (Entails.of_eq (pts_chunk_at (F := F) d L k 7 (25600 * wid L + 512 * k.val + 448) (25600 * wid L + 512 * k.val + 512) (by simp) (by omega) fo).symm) $$ Hc7
    sl_exec
    sl_step
    -- each chunk copied out holds the gathered rows; the eight are the block; the block joins the rows done
    ihave Hv0 := (Entails.of_eq (pointsTo_congr (chunk_value (F := F) d L fi ft hfi fI hfIv hin (8 * k.val + 0) (by omega) inb0
        (k0_off3 L k (BitVec.ofNat 32 0)) (k0_off3_inb L k 0) (off3_eq L k 0) fo _ (slot_read_back (F := F) d L 0 inb_S8x64x128_S1x64x128_0_0_0 fr0 _)))) $$ Hc0'
    ihave Hw0 := (Entails.of_eq (pts_chunk_at (F := F) d L k 0 (25600 * wid L + 512 * k.val + 0) (25600 * wid L + 512 * k.val + 64) (by simp) (by omega) (gathered d fi ft))) $$ Hv0
    ihave Hv1 := (Entails.of_eq (pointsTo_congr (chunk_value (F := F) d L fi ft hfi fI hfIv hin (8 * k.val + 1) (by omega) inb1
        (k0_off3 L k (BitVec.ofNat 32 1)) (k0_off3_inb L k 1) (off3_eq L k 1) fo _ (slot_read_back (F := F) d L 1 inb_S8x64x128_S1x64x128_1_0_0 fr1 _)))) $$ Hc1'
    ihave Hw1 := (Entails.of_eq (pts_chunk_at (F := F) d L k 1 (25600 * wid L + 512 * k.val + 64) (25600 * wid L + 512 * k.val + 128) (by simp) (by omega) (gathered d fi ft))) $$ Hv1
    ihave Hv2 := (Entails.of_eq (pointsTo_congr (chunk_value (F := F) d L fi ft hfi fI hfIv hin (8 * k.val + 2) (by omega) inb2
        (k0_off3 L k (BitVec.ofNat 32 2)) (k0_off3_inb L k 2) (off3_eq L k 2) fo _ (slot_read_back (F := F) d L 2 inb_S8x64x128_S1x64x128_2_0_0 fr2 _)))) $$ Hc2'
    ihave Hw2 := (Entails.of_eq (pts_chunk_at (F := F) d L k 2 (25600 * wid L + 512 * k.val + 128) (25600 * wid L + 512 * k.val + 192) (by simp) (by omega) (gathered d fi ft))) $$ Hv2
    ihave Hv3 := (Entails.of_eq (pointsTo_congr (chunk_value (F := F) d L fi ft hfi fI hfIv hin (8 * k.val + 3) (by omega) inb3
        (k0_off3 L k (BitVec.ofNat 32 3)) (k0_off3_inb L k 3) (off3_eq L k 3) fo _ (slot_read_back (F := F) d L 3 inb_S8x64x128_S1x64x128_3_0_0 fr3 _)))) $$ Hc3'
    ihave Hw3 := (Entails.of_eq (pts_chunk_at (F := F) d L k 3 (25600 * wid L + 512 * k.val + 192) (25600 * wid L + 512 * k.val + 256) (by simp) (by omega) (gathered d fi ft))) $$ Hv3
    ihave Hv4 := (Entails.of_eq (pointsTo_congr (chunk_value (F := F) d L fi ft hfi fI hfIv hin (8 * k.val + 4) (by omega) inb4
        (k0_off3 L k (BitVec.ofNat 32 4)) (k0_off3_inb L k 4) (off3_eq L k 4) fo _ (slot_read_back (F := F) d L 4 inb_S8x64x128_S1x64x128_4_0_0 fr4 _)))) $$ Hc4'
    ihave Hw4 := (Entails.of_eq (pts_chunk_at (F := F) d L k 4 (25600 * wid L + 512 * k.val + 256) (25600 * wid L + 512 * k.val + 320) (by simp) (by omega) (gathered d fi ft))) $$ Hv4
    ihave Hv5 := (Entails.of_eq (pointsTo_congr (chunk_value (F := F) d L fi ft hfi fI hfIv hin (8 * k.val + 5) (by omega) inb5
        (k0_off3 L k (BitVec.ofNat 32 5)) (k0_off3_inb L k 5) (off3_eq L k 5) fo _ (slot_read_back (F := F) d L 5 inb_S8x64x128_S1x64x128_5_0_0 fr5 _)))) $$ Hc5'
    ihave Hw5 := (Entails.of_eq (pts_chunk_at (F := F) d L k 5 (25600 * wid L + 512 * k.val + 320) (25600 * wid L + 512 * k.val + 384) (by simp) (by omega) (gathered d fi ft))) $$ Hv5
    ihave Hv6 := (Entails.of_eq (pointsTo_congr (chunk_value (F := F) d L fi ft hfi fI hfIv hin (8 * k.val + 6) (by omega) inb6
        (k0_off3 L k (BitVec.ofNat 32 6)) (k0_off3_inb L k 6) (off3_eq L k 6) fo _ (slot_read_back (F := F) d L 6 inb_S8x64x128_S1x64x128_6_0_0 fr6 _)))) $$ Hc6'
    ihave Hw6 := (Entails.of_eq (pts_chunk_at (F := F) d L k 6 (25600 * wid L + 512 * k.val + 384) (25600 * wid L + 512 * k.val + 448) (by simp) (by omega) (gathered d fi ft))) $$ Hv6
    ihave Hv7 := (Entails.of_eq (pointsTo_congr (chunk_value (F := F) d L fi ft hfi fI hfIv hin (8 * k.val + 7) (by omega) inb7
        (k0_off3 L k (BitVec.ofNat 32 7)) (k0_off3_inb L k 7) (off3_eq L k 7) fo _ (slot_read_back (F := F) d L 7 inb_S8x64x128_S1x64x128_7_0_0 fr7 _)))) $$ Hc7'
    ihave Hw7 := (Entails.of_eq (pts_chunk_at (F := F) d L k 7 (25600 * wid L + 512 * k.val + 448) (25600 * wid L + 512 * k.val + 512) (by simp) (by omega) (gathered d fi ft))) $$ Hv7
    ihave Hblk2 := (Entails.of_eq (block_chunks (F := F) d (25600 * wid L + 512 * k.val) (gathered d fi ft)).symm) $$ [Hw0 Hw1 Hw2 Hw3 Hw4 Hw5 Hw6 Hw7]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    ihave Hdone2 := (done_join (F := F) d (25600 * wid L) k.val (gathered d fi ft)).1 $$ [Hdone Hblk2]
    · isplitl [Hdone] <;> iassumption
    isplitl []; · iexact Hmw
    isplitl [Hg0 Ht0 Hr0 Hs0]
    · iexists (k0_off4 k (BitVec.ofNat 32 0)), (k0_off4_inb k 0), _
      isplitr; · ipureintro; exact off4_eq k 0
      isplitl [Hg0]; · iexact Hg0
      isplitl [Ht0]; · iexact Ht0
      isplitl [Hr0]; · iexact Hr0
      iexact Hs0
    isplitl [Hg1 Ht1 Hr1 Hs1]
    · iexists (k0_off4 k (BitVec.ofNat 32 1)), (k0_off4_inb k 1), _
      isplitr; · ipureintro; exact off4_eq k 1
      isplitl [Hg1]; · iexact Hg1
      isplitl [Ht1]; · iexact Ht1
      isplitl [Hr1]; · iexact Hr1
      iexact Hs1
    isplitl [Hg2 Ht2 Hr2 Hs2]
    · iexists (k0_off4 k (BitVec.ofNat 32 2)), (k0_off4_inb k 2), _
      isplitr; · ipureintro; exact off4_eq k 2
      isplitl [Hg2]; · iexact Hg2
      isplitl [Ht2]; · iexact Ht2
      isplitl [Hr2]; · iexact Hr2
      iexact Hs2
    isplitl [Hg3 Ht3 Hr3 Hs3]
    · iexists (k0_off4 k (BitVec.ofNat 32 3)), (k0_off4_inb k 3), _
      isplitr; · ipureintro; exact off4_eq k 3
      isplitl [Hg3]; · iexact Hg3
      isplitl [Ht3]; · iexact Ht3
      isplitl [Hr3]; · iexact Hr3
      iexact Hs3
    isplitl [Hg4 Ht4 Hr4 Hs4]
    · iexists (k0_off4 k (BitVec.ofNat 32 4)), (k0_off4_inb k 4), _
      isplitr; · ipureintro; exact off4_eq k 4
      isplitl [Hg4]; · iexact Hg4
      isplitl [Ht4]; · iexact Ht4
      isplitl [Hr4]; · iexact Hr4
      iexact Hs4
    isplitl [Hg5 Ht5 Hr5 Hs5]
    · iexists (k0_off4 k (BitVec.ofNat 32 5)), (k0_off4_inb k 5), _
      isplitr; · ipureintro; exact off4_eq k 5
      isplitl [Hg5]; · iexact Hg5
      isplitl [Ht5]; · iexact Ht5
      isplitl [Hr5]; · iexact Hr5
      iexact Hs5
    isplitl [Hg6 Ht6 Hr6 Hs6]
    · iexists (k0_off4 k (BitVec.ofNat 32 6)), (k0_off4_inb k 6), _
      isplitr; · ipureintro; exact off4_eq k 6
      isplitl [Hg6]; · iexact Hg6
      isplitl [Ht6]; · iexact Ht6
      isplitl [Hr6]; · iexact Hr6
      iexact Hs6
    isplitl [Hg7 Ht7 Hr7 Hs7]
    · iexists (k0_off4 k (BitVec.ofNat 32 7)), (k0_off4_inb k 7), _
      isplitr; · ipureintro; exact off4_eq k 7
      isplitl [Hg7]; · iexact Hg7
      isplitl [Ht7]; · iexact Ht7
      isplitl [Hr7]; · iexact Hr7
      iexact Hs7
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hdone2]; · iexact Hdone2
    isplitl [Htodo]; · iexact Htodo
    iexists _; isplitr
    swap; · iexact HO
    ipureintro
    intro p hp
    simp only [Finset.mem_insert] at hp
    rcases hp with rfl | rfl | rfl | rfl | rfl | rfl | rfl | rfl | rfl | rfl | rfl | rfl | rfl | rfl | rfl | rfl | hp
    all_goals first | exact .inr rfl | exact hW' p hp
  · unfold inv inFlight
    isplitl []; · iexact Hmw
    isplitl [Hg0 Ht0 Hr0' Hsd]
    · iexists ![0, 0], inb_S400x64_S1x64_0_0, fr
      isplitr; · ipureintro; rfl
      isplitl [Hg0]; · iexact Hg0
      isplitl [Ht0]; · iexact Ht0
      isplitl [Hr0']; · iexact Hr0'
      iexact Hsd
    isplitl [Hg1 Ht1 Hr1' Hs0]
    · iexists ![1, 0], inb_S400x64_S1x64_1_0, fr
      isplitr; · ipureintro; rfl
      isplitl [Hg1]; · iexact Hg1
      isplitl [Ht1]; · iexact Ht1
      isplitl [Hr1']; · iexact Hr1'
      iexact Hs0
    isplitl [Hg2 Ht2 Hr2' Hs1]
    · iexists ![2, 0], inb_S400x64_S1x64_2_0, fr
      isplitr; · ipureintro; rfl
      isplitl [Hg2]; · iexact Hg2
      isplitl [Ht2]; · iexact Ht2
      isplitl [Hr2']; · iexact Hr2'
      iexact Hs1
    isplitl [Hg3 Ht3 Hr3' Hs2]
    · iexists ![3, 0], inb_S400x64_S1x64_3_0, fr
      isplitr; · ipureintro; rfl
      isplitl [Hg3]; · iexact Hg3
      isplitl [Ht3]; · iexact Ht3
      isplitl [Hr3']; · iexact Hr3'
      iexact Hs2
    isplitl [Hg4 Ht4 Hr4' Hs3]
    · iexists ![4, 0], inb_S400x64_S1x64_4_0, fr
      isplitr; · ipureintro; rfl
      isplitl [Hg4]; · iexact Hg4
      isplitl [Ht4]; · iexact Ht4
      isplitl [Hr4']; · iexact Hr4'
      iexact Hs3
    isplitl [Hg5 Ht5 Hr5' Hs4]
    · iexists ![5, 0], inb_S400x64_S1x64_5_0, fr
      isplitr; · ipureintro; rfl
      isplitl [Hg5]; · iexact Hg5
      isplitl [Ht5]; · iexact Ht5
      isplitl [Hr5']; · iexact Hr5'
      iexact Hs4
    isplitl [Hg6 Ht6 Hr6' Hs5]
    · iexists ![6, 0], inb_S400x64_S1x64_6_0, fr
      isplitr; · ipureintro; rfl
      isplitl [Hg6]; · iexact Hg6
      isplitl [Ht6]; · iexact Ht6
      isplitl [Hr6']; · iexact Hr6'
      iexact Hs5
    isplitl [Hg7 Ht7 Hr7' Hs6]
    · iexists ![7, 0], inb_S400x64_S1x64_7_0, fr
      isplitr; · ipureintro; rfl
      isplitl [Hg7]; · iexact Hg7
      isplitl [Ht7]; · iexact Ht7
      isplitl [Hr7']; · iexact Hr7'
      iexact Hs6
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl []; · rw [pts_done_zero]; iempintro
    isplitl [Ho]; · iexact Ho
    iexists _; isplitr
    swap; · iexact HO
    ipureintro
    intro p hp
    simp only [Finset.mem_insert] at hp
    rcases hp with rfl | hp
    all_goals first | exact .inr rfl | exact .inl hp
  rw [trips_eq]
  iintro %_ HI
  unfold inv inFlight
  icases HI with ⟨-, ⟨%off0, %inb0, %fr0, %hoff0, Hg0, Ht0, Hr0, Hs0⟩, ⟨%off1, %inb1, %fr1, %hoff1, Hg1, Ht1, Hr1, Hs1⟩, ⟨%off2, %inb2, %fr2, %hoff2, Hg2, Ht2, Hr2, Hs2⟩, ⟨%off3, %inb3, %fr3, %hoff3, Hg3, Ht3, Hr3, Hs3⟩, ⟨%off4, %inb4, %fr4, %hoff4, Hg4, Ht4, Hr4, Hs4⟩, ⟨%off5, %inb5, %fr5, %hoff5, Hg5, Ht5, Hr5, Hs5⟩, ⟨%off6, %inb6, %fr6, %hoff6, Hg6, Ht6, Hr6, Hs6⟩, ⟨%off7, %inb7, %fr7, %hoff7, Hg7, Ht7, Hr7, Hs7⟩, Hp0, Hp1, Hp2, Hp3, Hp4, Hp5, Hp6, Hp7, Hdone, Htodo, %W', %hW', HO⟩
  subst hoff0 hoff1 hoff2 hoff3 hoff4 hoff5 hoff6 hoff7
  -- the last block of 512 rows and its eight chunks as the body slices them after the loop
  ihave Hblk' := (Entails.of_eq (block_chunks (F := F) d (25600 * wid L + 512 * 49) fo)) $$ Htodo
  icases Hblk' with ⟨Hc0, Hc1, Hc2, Hc3, Hc4, Hc5, Hc6, Hc7⟩
  ihave Hc0' := (Entails.of_eq (pts_last_at (F := F) d L 0 (25600 * wid L + 512 * 49 + 0) (25600 * wid L + 512 * 49 + 64) (by simp) (by omega) fo).symm) $$ Hc0
  ihave Hc1' := (Entails.of_eq (pts_last_at (F := F) d L 1 (25600 * wid L + 512 * 49 + 64) (25600 * wid L + 512 * 49 + 128) (by simp) (by omega) fo).symm) $$ Hc1
  ihave Hc2' := (Entails.of_eq (pts_last_at (F := F) d L 2 (25600 * wid L + 512 * 49 + 128) (25600 * wid L + 512 * 49 + 192) (by simp) (by omega) fo).symm) $$ Hc2
  ihave Hc3' := (Entails.of_eq (pts_last_at (F := F) d L 3 (25600 * wid L + 512 * 49 + 192) (25600 * wid L + 512 * 49 + 256) (by simp) (by omega) fo).symm) $$ Hc3
  ihave Hc4' := (Entails.of_eq (pts_last_at (F := F) d L 4 (25600 * wid L + 512 * 49 + 256) (25600 * wid L + 512 * 49 + 320) (by simp) (by omega) fo).symm) $$ Hc4
  ihave Hc5' := (Entails.of_eq (pts_last_at (F := F) d L 5 (25600 * wid L + 512 * 49 + 320) (25600 * wid L + 512 * 49 + 384) (by simp) (by omega) fo).symm) $$ Hc5
  ihave Hc6' := (Entails.of_eq (pts_last_at (F := F) d L 6 (25600 * wid L + 512 * 49 + 384) (25600 * wid L + 512 * 49 + 448) (by simp) (by omega) fo).symm) $$ Hc6
  ihave Hc7' := (Entails.of_eq (pts_last_at (F := F) d L 7 (25600 * wid L + 512 * 49 + 448) (25600 * wid L + 512 * 49 + 512) (by simp) (by omega) fo).symm) $$ Hc7
  sl_exec
  sl_step
  -- the last eight chunks hold the gathered rows; with the rows done they are the worker's 25600 rows
  ihave Hv0 := (Entails.of_eq (pointsTo_congr (chunk_value (F := F) d L fi ft hfi fI hfIv hin (8 * 49 + 0) (by omega) inb0
      (k0_off5 L (BitVec.ofNat 32 (25088 + 64 * 0))) (k0_off5_inb L 0) (off5_eq L 0) fo _ (slot_read_back (F := F) d L 0 inb_S8x64x128_S1x64x128_0_0_0 fr0 _)))) $$ Hc0'
  ihave Hw0 := (Entails.of_eq (pts_last_at (F := F) d L 0 (25600 * wid L + 512 * 49 + 0) (25600 * wid L + 512 * 49 + 64) (by simp) (by omega) (gathered d fi ft))) $$ Hv0
  ihave Hv1 := (Entails.of_eq (pointsTo_congr (chunk_value (F := F) d L fi ft hfi fI hfIv hin (8 * 49 + 1) (by omega) inb1
      (k0_off5 L (BitVec.ofNat 32 (25088 + 64 * 1))) (k0_off5_inb L 1) (off5_eq L 1) fo _ (slot_read_back (F := F) d L 1 inb_S8x64x128_S1x64x128_1_0_0 fr1 _)))) $$ Hc1'
  ihave Hw1 := (Entails.of_eq (pts_last_at (F := F) d L 1 (25600 * wid L + 512 * 49 + 64) (25600 * wid L + 512 * 49 + 128) (by simp) (by omega) (gathered d fi ft))) $$ Hv1
  ihave Hv2 := (Entails.of_eq (pointsTo_congr (chunk_value (F := F) d L fi ft hfi fI hfIv hin (8 * 49 + 2) (by omega) inb2
      (k0_off5 L (BitVec.ofNat 32 (25088 + 64 * 2))) (k0_off5_inb L 2) (off5_eq L 2) fo _ (slot_read_back (F := F) d L 2 inb_S8x64x128_S1x64x128_2_0_0 fr2 _)))) $$ Hc2'
  ihave Hw2 := (Entails.of_eq (pts_last_at (F := F) d L 2 (25600 * wid L + 512 * 49 + 128) (25600 * wid L + 512 * 49 + 192) (by simp) (by omega) (gathered d fi ft))) $$ Hv2
  ihave Hv3 := (Entails.of_eq (pointsTo_congr (chunk_value (F := F) d L fi ft hfi fI hfIv hin (8 * 49 + 3) (by omega) inb3
      (k0_off5 L (BitVec.ofNat 32 (25088 + 64 * 3))) (k0_off5_inb L 3) (off5_eq L 3) fo _ (slot_read_back (F := F) d L 3 inb_S8x64x128_S1x64x128_3_0_0 fr3 _)))) $$ Hc3'
  ihave Hw3 := (Entails.of_eq (pts_last_at (F := F) d L 3 (25600 * wid L + 512 * 49 + 192) (25600 * wid L + 512 * 49 + 256) (by simp) (by omega) (gathered d fi ft))) $$ Hv3
  ihave Hv4 := (Entails.of_eq (pointsTo_congr (chunk_value (F := F) d L fi ft hfi fI hfIv hin (8 * 49 + 4) (by omega) inb4
      (k0_off5 L (BitVec.ofNat 32 (25088 + 64 * 4))) (k0_off5_inb L 4) (off5_eq L 4) fo _ (slot_read_back (F := F) d L 4 inb_S8x64x128_S1x64x128_4_0_0 fr4 _)))) $$ Hc4'
  ihave Hw4 := (Entails.of_eq (pts_last_at (F := F) d L 4 (25600 * wid L + 512 * 49 + 256) (25600 * wid L + 512 * 49 + 320) (by simp) (by omega) (gathered d fi ft))) $$ Hv4
  ihave Hv5 := (Entails.of_eq (pointsTo_congr (chunk_value (F := F) d L fi ft hfi fI hfIv hin (8 * 49 + 5) (by omega) inb5
      (k0_off5 L (BitVec.ofNat 32 (25088 + 64 * 5))) (k0_off5_inb L 5) (off5_eq L 5) fo _ (slot_read_back (F := F) d L 5 inb_S8x64x128_S1x64x128_5_0_0 fr5 _)))) $$ Hc5'
  ihave Hw5 := (Entails.of_eq (pts_last_at (F := F) d L 5 (25600 * wid L + 512 * 49 + 320) (25600 * wid L + 512 * 49 + 384) (by simp) (by omega) (gathered d fi ft))) $$ Hv5
  ihave Hv6 := (Entails.of_eq (pointsTo_congr (chunk_value (F := F) d L fi ft hfi fI hfIv hin (8 * 49 + 6) (by omega) inb6
      (k0_off5 L (BitVec.ofNat 32 (25088 + 64 * 6))) (k0_off5_inb L 6) (off5_eq L 6) fo _ (slot_read_back (F := F) d L 6 inb_S8x64x128_S1x64x128_6_0_0 fr6 _)))) $$ Hc6'
  ihave Hw6 := (Entails.of_eq (pts_last_at (F := F) d L 6 (25600 * wid L + 512 * 49 + 384) (25600 * wid L + 512 * 49 + 448) (by simp) (by omega) (gathered d fi ft))) $$ Hv6
  ihave Hv7 := (Entails.of_eq (pointsTo_congr (chunk_value (F := F) d L fi ft hfi fI hfIv hin (8 * 49 + 7) (by omega) inb7
      (k0_off5 L (BitVec.ofNat 32 (25088 + 64 * 7))) (k0_off5_inb L 7) (off5_eq L 7) fo _ (slot_read_back (F := F) d L 7 inb_S8x64x128_S1x64x128_7_0_0 fr7 _)))) $$ Hc7'
  ihave Hw7 := (Entails.of_eq (pts_last_at (F := F) d L 7 (25600 * wid L + 512 * 49 + 448) (25600 * wid L + 512 * 49 + 512) (by simp) (by omega) (gathered d fi ft))) $$ Hv7
  ihave Hblk2 := (Entails.of_eq (block_chunks (F := F) d (25600 * wid L + 512 * 49) (gathered d fi ft)).symm) $$ [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  ihave Hdone2 := (done_join (F := F) d (25600 * wid L) 49 (gathered d fi ft)).1 $$ [Hdone Hblk2]
  · isplitl [Hdone] <;> iassumption
  -- the table's eight tokens and the remainder are the worker's share again
  ihave Htt := (Entails.of_eq (bigSep_fin8 (F := F) (fun i : Fin 8 => (tV).view.loc (V d (cV L) (jV L)) ↦{Transfers.shareTok (tq (wid L)) 8 i} ft)).symm) $$ [Ht0 Ht1 Ht2 Ht3 Ht4 Ht5 Ht6 Ht7]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  ihave Ht := (Transfers.pointsTo_toks_join (tq (wid L)) 8) $$ [Htd Htt]
  · isplitl [Htd] <;> iassumption
  -- the list's eight read pieces are the index scratch whole again
  ihave Hst := (Entails.of_eq (bigSep_fin7 (F := F) (fun i : Fin 7 => (sI).view.loc (V d (cV L) (jV L)) ↦{Transfers.shareTok fullShare 7 i} fI)).symm) $$ [Hs1 Hs2 Hs3 Hs4 Hs5 Hs6 Hs7]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  ihave Hs := (Transfers.pointsTo_toks_join fullShare 7) $$ [Hs0 Hst]
  · isplitl [Hs0] <;> iassumption
  -- the eight slots are the row scratch whole again
  ihave Hq0 := (Entails.of_eq (pts_slot0 (F := F) d L _)) $$ Hr0
  ihave Hq1 := (Entails.of_eq (pts_slot1 (F := F) d L _)) $$ Hr1
  ihave Hq2 := (Entails.of_eq (pts_slot2 (F := F) d L _)) $$ Hr2
  ihave Hq3 := (Entails.of_eq (pts_slot3 (F := F) d L _)) $$ Hr3
  ihave Hq4 := (Entails.of_eq (pts_slot4 (F := F) d L _)) $$ Hr4
  ihave Hq5 := (Entails.of_eq (pts_slot5 (F := F) d L _)) $$ Hr5
  ihave Hq6 := (Entails.of_eq (pts_slot6 (F := F) d L _)) $$ Hr6
  ihave Hq7 := (Entails.of_eq (pts_slot7 (F := F) d L _)) $$ Hr7
  ihave Hr := (slots_join8 (F := F) d L) $$ [Hq0 Hq1 Hq2 Hq3 Hq4 Hq5 Hq6 Hq7]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    isplitl [Hq6]; · iexists _; iexact Hq6
    iexists _; iexact Hq7
  isplitl [Hi' Ht Hdone2]
  · isplitl [Hi']; · iapply (Entails.of_eq (pts_iRowK (F := F) d L _)); iexact Hi'
    isplitl [Ht]; · iexact Ht
    iexact Hdone2
  isplitl [Hs Hr Hbufs]
  · isplitl [Hs]; · iexists _; iexact Hs
    isplitl [Hr]; · iexact Hr
    iexact Hbufs
  isplitl [Hg0 Hg1 Hg2 Hg3 Hg4 Hg5 Hg6 Hg7 Hp0 Hp1 Hp2 Hp3 Hp4 Hp5 Hp6 Hp7 Hsc]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    iexact Hsc
  iexists _; isplitr
  swap; · iexact HO
  ipureintro
  intro p hp
  simp only [Finset.mem_insert] at hp
  rcases hp with rfl | rfl | rfl | rfl | rfl | rfl | rfl | rfl | rfl | rfl | rfl | rfl | rfl | rfl | rfl | rfl | hp
  all_goals first | exact .inr rfl | exact hW' p hp

end Cert.KB

end
-- ==== Proof.KB.Obl.lean ====
/-
  What the embedding lookup's call hands over, and a vector subcore's task as the launch theorem asks for it.

  Worker w = 2 s + c (subcore s of SparseCore c) is handed list w of the 32 index lists, a read share of the whole
  table, and rows [25600 w, 25600 (w + 1)) of the flat result; it hands back the same three with its rows filled
  with the table rows its list names. A SparseCore is handed its sixteen workers' pieces as a family and hands the
  family back, so that nothing is split or joined on the SparseCore: that is done once, on the TensorCore, around
  the call. The kernel has no protocol of its own beyond local copies and their waits, so the launch deals it
  nothing but the handshakes' rounds.
-/
import proofs.«206746_g85272280694944_cont_9to1c4b_772_17_alg».proof.Proof.KB.Body

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S32x400x64 EltTy.i32)
local notation "tV" => (Memref.whole Cert.Kernel.main_arg1_scv : Memref Cert.Kernel.sig Kind.scVector Space.hbm Cert.Kernel.S100002x128 EltTy.f32)
local notation "oV" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S400x64 EltTy.i32)
local notation "sR" => (Memref.whole Cert.Kernel.cc0_scratch1 : Memref Cert.Kernel.sig Kind.scVector Space.vmem Cert.Kernel.S8x64x128 EltTy.f32)

variable (m : (ℓ : Loc nD τ sig) → Buf (Elt F) ℓ) (ρ : Dev nD → PrngReg)

/-! ## What the handshakes carry -/

/-- The index lists as the kernel finds them: the launch's row numbers re-read as 32 × 400 × 64. -/
def fiOf (d : Dev nD) : Buf (Elt F) (iLoc d) := idx3 d (m (xLoc d))
/-- The table, at its launch contents. -/
def ftOf (d : Dev nD) : Buf (Elt F) (tLoc d) := m (tLoc d)

/-- What worker `w` is handed: its index list, its read share of the table, its rows of the flat result as the launch left them. -/
def goAt (d : Dev nD) (w : ℕ) : sProp 𝕄 :=
  iprop(iRowPts d w (fiOf m d) ∗ tShPts d w (ftOf m d) ∗ oPartPts d w (m (oLoc d)))
/-- What it hands back: the same, its rows of the flat result filled with the rows its list names. -/
def tdAt (d : Dev nD) (w : ℕ) : sProp 𝕄 :=
  iprop(iRowPts d w (fiOf m d) ∗ tShPts d w (ftOf m d) ∗ oPartPts d w (gathered d (fiOf m d) (ftOf m d)))

instance goAt_storable (d : Dev nD) (w : ℕ) : BI.Storable (upEmb : UEmb _ 𝕄) (goAt m d w) := by unfold goAt; infer_instance
instance tdAt_storable (d : Dev nD) (w : ℕ) : BI.Storable (upEmb : UEmb _ 𝕄) (tdAt m d w) := by unfold tdAt; infer_instance

/-- The one call: SparseCore `c` is handed its sixteen workers' pieces, worker `2 i + c` for subcore `i`, and hands them back filled. -/
def P : (K (F := F)).Pay (nD := nD) (Val := Elt F) (Name := ℕ) (U := UU) where
  st := fun q d c => bigSep Finset.univ fun i : Fin ((K (F := F)).nSub q) => goAt m d (2 * i.val + c.val)
  dn := fun q d c => bigSep Finset.univ fun i : Fin ((K (F := F)).nSub q) => tdAt m d (2 * i.val + c.val)
  go := fun _ d c i => goAt m d (2 * i.val + c.val)
  td := fun _ d c i => tdAt m d (2 * i.val + c.val)
  x := fun _ _ => iprop(emp)

instance P_storable : (P (F := F) m).IsStorable where
  st _ d c := by unfold P; infer_instance
  dn _ d c := by unfold P; infer_instance
  go _ d c i := by unfold P; infer_instance
  td _ d c i := by unfold P; infer_instance

theorem P_st (q : Fin 1) (d : Dev nD) (c : Fin ((K (F := F)).nCore q)) :
    (P m).st q d c = bigSep Finset.univ fun i : Fin ((K (F := F)).nSub q) => goAt m d (2 * i.val + c.val) := rfl
theorem P_dn (q : Fin 1) (d : Dev nD) (c : Fin ((K (F := F)).nCore q)) :
    (P m).dn q d c = bigSep Finset.univ fun i : Fin ((K (F := F)).nSub q) => tdAt m d (2 * i.val + c.val) := rfl
theorem P_go (q : Fin 1) (d : Dev nD) (c : Fin ((K (F := F)).nCore q)) (i : Fin ((K (F := F)).nSub q)) :
    (P m).go q d c i = goAt m d (2 * i.val + c.val) := rfl
theorem P_td (q : Fin 1) (d : Dev nD) (c : Fin ((K (F := F)).nCore q)) (i : Fin ((K (F := F)).nSub q)) :
    (P m).td q d c i = tdAt m d (2 * i.val + c.val) := rfl

/-! ## The launch theorem's obligations -/

theorem defs₀_vector (c : Fin τ.nSC) (s : Fin τ.nSub) :
    defs₀ (F := F) (.scVector c s) 0 ()
      = SparseCore.onTile hcore0 hsub0 (fun c s => cc0__emb_kernel (coordsV c s)
          iV (Memref.isWhole_whole _) tV (Memref.isWhole_whole _) oV (Memref.isWhole_whole _)
          sI (Memref.isWhole_whole _) sR (Memref.isWhole_whole _)
          cc0_scratch2 cc0_scratch3 cc0_scratch4 cc0_scratch5 cc0_scratch6 cc0_scratch7 cc0_scratch8 cc0_scratch9
          cc0_scratch10 cc0_scratch11 cc0_scratch12 cc0_scratch13 cc0_scratch14 cc0_scratch15 cc0_scratch16 cc0_scratch17 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every entry of the re-read index lists is an entry of the launch's row numbers, so names a table row. -/
theorem fiOf_lt (hpre : PreOK m) (d : Dev nD) (j : S32x400x64.Idx) : (fiOf m d j).toNat < 100002 :=
  hpre d _

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fiOf m d) (ftOf m d) (m (oLoc d)) (fiOf_lt m hpre d) O W hO).trans
    (wp_mono frame _ _ fun _ => obl_post)

/-- A SparseCore's operands are already its workers' pieces, and its results their results: nothing to split. -/
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    rw [show (fun thr : Thread nD τ => bigSep Finset.univ fun q : Fin 1 => (P m).x q thr) = fun _ => (iprop(emp) : sProp 𝕄) from
      funext fun _ => bigSep_emp' _, bigSep_emp']]
  iempintro

end Cert.KB

end
-- ==== Proof.KB.Split.lean ====
/-
  The algebra of the workers' pieces. The 32 × 400 × 64 index lists are the disjoint union of the 32 lists (first
  coordinate w); the 819200 rows of the flat result are the disjoint union of the 32 ranges [25600 w, 25600 (w + 1));
  the table's full share is 32 read tokens and a remainder. Hence the three arrays held whole are the table's
  remainder beside, for each worker w < 32, its list, its token and its rows; and the 32 workers are the pairs
  (SparseCore c < 2, subcore i < 16) through w = 2 i + c. Membership is decided by the row coordinate and
  arithmetic, never by listing elements.
-/
import proofs.«206746_g85272280694944_cont_9to1c4b_772_17_alg».proof.Proof.KB.Base

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The index lists, by first coordinate -/

theorem iRows_disjoint : ∀ w ∈ (Finset.univ : Finset (Fin 32)), ∀ w' ∈ (Finset.univ : Finset (Fin 32)), w ≠ w' →
    Disjoint (iRowSet w.val) (iRowSet w'.val) :=
  fun w _ w' _ h => Finset.disjoint_left.mpr fun _ hi hi' => h (Fin.ext ((mem_iRowSet.mp hi).symm.trans (mem_iRowSet.mp hi')))

theorem iRows_cover : (Finset.univ : Finset (Fin 32)).biUnion (fun w => iRowSet w.val) = Finset.univ :=
  Finset.ext fun i => by
    simp only [Finset.mem_biUnion, Finset.mem_univ, true_and, iff_true, mem_iRowSet]
    exact ⟨⟨(i 0).val, (i 0).isLt⟩, rfl⟩

/-! ## The flat result, by ranges of 25600 rows -/

theorem oRanges_disjoint : ∀ w ∈ (Finset.univ : Finset (Fin 32)), ∀ w' ∈ (Finset.univ : Finset (Fin 32)), w ≠ w' →
    Disjoint (oRows (25600 * w.val) (25600 * w.val + 25600)) (oRows (25600 * w'.val) (25600 * w'.val + 25600)) :=
  fun w _ w' _ h => Finset.disjoint_left.mpr fun _ hi hi' => by
    have h1 := mem_oRows.mp hi
    have h2 := mem_oRows.mp hi'
    exact h (Fin.ext (by omega))

theorem oRows_cover : (Finset.univ : Finset (Fin 32)).biUnion (fun w => oRows (25600 * w.val) (25600 * w.val + 25600)) = Finset.univ :=
  Finset.ext fun i => by
    simp only [Finset.mem_biUnion, Finset.mem_univ, true_and, iff_true, mem_oRows]
    have hi : (i 0).val < 819200 := (i 0).isLt
    exact ⟨⟨(i 0).val / 25600, by omega⟩, by show 25600 * ((i 0).val / 25600) ≤ _ ∧ _ < 25600 * ((i 0).val / 25600) + 25600; omega⟩

/-! ## The three arrays whole, and the workers' pieces -/

/-- Worker `w`'s three pieces: its index list at `fi`, its read token of the table at `ft`, its rows of the flat result at `fo`. -/
def piece (d : Dev nD) (fi : Buf (Elt F) (iLoc d)) (ft : Buf (Elt F) (tLoc d)) (fo : Buf (Elt F) (oLoc d)) (w : ℕ) : sProp 𝕄 :=
  iprop(iRowPts d w fi ∗ tShPts d w ft ∗ oPartPts d w fo)

theorem iPts_lists (d : Dev nD) (f : Buf (Elt F) (iLoc d)) :
    (iLoc d ↦{fullShare} f : sProp 𝕄) = bigSep Finset.univ fun w : Fin 32 => iRowPts d w.val f := by
  rw [← pointsTo_biUnion Finset.univ (ℓ := iLoc d) (fun w : Fin 32 => iRowSet w.val) iRows_disjoint, iRows_cover]; try rfl

theorem oPts_ranges (d : Dev nD) (f : Buf (Elt F) (oLoc d)) :
    (oLoc d ↦{fullShare} f : sProp 𝕄) = bigSep Finset.univ fun w : Fin 32 => oPartPts d w.val f := by
  rw [← pointsTo_biUnion Finset.univ (ℓ := oLoc d) (fun w : Fin 32 => oRows (25600 * w.val) (25600 * w.val + 25600)) oRanges_disjoint, oRows_cover]; try rfl

theorem tPts_tokens (d : Dev nD) (f : Buf (Elt F) (tLoc d)) :
    (tLoc d ↦{fullShare} f : sProp 𝕄)
      = iprop((tLoc d ↦{Transfers.shareDrop fullShare 32} f) ∗ bigSep Finset.univ fun w : Fin 32 => tShPts d w.val f) :=
  BI.equiv_iff.mp ⟨(Transfers.pointsTo_toks fullShare 32).1, (Transfers.pointsTo_toks fullShare 32).2⟩

/-- The three arrays held whole are the table's remainder and the 32 workers' pieces. -/
theorem whole_eq_pieces (d : Dev nD) (fi : Buf (Elt F) (iLoc d)) (ft : Buf (Elt F) (tLoc d)) (fo : Buf (Elt F) (oLoc d)) :
    (iprop((iLoc d ↦{fullShare} fi) ∗ (tLoc d ↦{fullShare} ft) ∗ (oLoc d ↦{fullShare} fo)) : sProp 𝕄)
      ⊣⊢ iprop((tLoc d ↦{Transfers.shareDrop fullShare 32} ft) ∗ bigSep Finset.univ fun w : Fin 32 => piece d fi ft fo w.val) := by
  unfold piece
  rw [bigSep_sep', bigSep_sep', ← iPts_lists, ← oPts_ranges, tPts_tokens]
  constructor
  · iintro ⟨Hi, ⟨Hr, Ht⟩, Ho⟩
    isplitl [Hr]; · iexact Hr
    isplitl [Hi]; · iexact Hi
    isplitl [Ht]; · iexact Ht
    iexact Ho
  · iintro ⟨Hr, Hi, Ht, Ho⟩
    isplitl [Hi]; · iexact Hi
    isplitl [Hr Ht]
    · isplitl [Hr]; · iexact Hr
      iexact Ht
    iexact Ho

/-! ## The 32 workers as (SparseCore, subcore) pairs -/

/-- Worker `2 i + c` for subcore `i` of SparseCore `c`: a bijection of the 2 × 16 pairs with the 32 workers. -/
def wEquiv : Fin 2 × Fin 16 ≃ Fin 32 where
  toFun p := ⟨2 * p.2.val + p.1.val, by have := p.1.isLt; have := p.2.isLt; omega⟩
  invFun w := (⟨w.val % 2, by omega⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem bigSep_workers (Φ : ℕ → sProp 𝕄) :
    (bigSep Finset.univ fun w : Fin 32 => Φ w.val)
      = bigSep Finset.univ fun c : Fin 2 => bigSep Finset.univ fun i : Fin 16 => Φ (2 * i.val + c.val) := by
  rw [bigSep_univ_equiv wEquiv (fun w : Fin 32 => Φ w.val), bigSep_univ_prod]; rfl

end Cert.KB

end
-- ==== Proof.KB.Launch.lean ====
/-
  The launch of the embedding lookup: @main on the TensorCore, and the program's run.

  @main reshapes the 4096 × 200 row numbers to 32 lists of 400 chunks of 64, starts the two SparseCores, whose
  thirty-two vector subcores each gather one list's rows into 25600 rows of the flat result, and reshapes the
  819200 × 128 flat result to 4096 × 200 × 128. After the first reshape the TensorCore holds the index lists, the
  table and the flat result whole; it cuts them into the table's remainder share, kept aside, and the 32 workers'
  pieces, which go to the two SparseCores (worker 2 i + c to subcore i of SparseCore c); what comes back is the
  same pieces with every worker's rows at the one function "row r is the table row entry r of the lists names",
  so they join to the flat result whole at that function, and the second reshape reads it as the lookup. The row
  numbers and the table are never written. The final memory then reads: the result is the lookup, the arguments
  are unchanged.
-/
import proofs.«206746_g85272280694944_cont_9to1c4b_772_17_alg».proof.Proof.KB.Obl
import proofs.«206746_g85272280694944_cont_9to1c4b_772_17_alg».proof.Proof.KB.Split

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and its two reshapes -/

abbrev x' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The row numbers re-read as the index lists. -/
abbrev opIn : HloOp τ sig (Elt F) := StableHlo.reshape main_arg0 main_v0 rfl shapeCasts_S4096x200_S32x400x64
/-- The flat result re-read as the lookup. -/
abbrev opOut : HloOp τ sig (Elt F) := StableHlo.reshape main_v1 main_v2 rfl shapeCasts_S819200x128_S4096x200x128

/-- The TensorCore's arrays, all unscoped. -/
abbrev S5 : Finset (DevRef τ sig) := {x', t', i', o', r'}

omit [FloatOps F] in
theorem held_S5 (d : Dev nD) (W : Valuation τ sig (Elt F)) :
    (held (T d) S5 W : sProp 𝕄) = iprop((xLoc d ↦{fullShare} W x') ∗ (tLoc d ↦{fullShare} W t') ∗ (iLoc d ↦{fullShare} W i')
      ∗ (oLoc d ↦{fullShare} W o') ∗ (rLoc d ↦{fullShare} W r')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (iLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)
/-- After the first reshape: the index lists filled. -/
def V1 (d : Dev nD) : Valuation τ sig (Elt F) := (opIn (F := F)).result (V0 m d)
/-- After the call: the flat result at the gathered rows. -/
def V2 (d : Dev nD) : Valuation τ sig (Elt F) := Function.update (V1 m d) o' (gathered d (fiOf m d) (ftOf m d))
/-- After the second reshape. -/
def V3 (d : Dev nD) : Valuation τ sig (Elt F) := (opOut (F := F)).result (V2 m d)

theorem unscoped_held (d : Dev nD) : (unscopedBufs d (fun b => m ((SparseCore.T d).loc b)) : sProp 𝕄) = held (T d) S5 (V0 m d) := by
  rw [unscopedBufs_eq, held_S5]; rfl

theorem V1_x (d : Dev nD) : V1 m d x' = m (xLoc d) := (opIn (F := F)).result_of_not_mem (V0 m d) (b := x') (show x' ∉ ({i'} : Finset (DevRef τ sig)) by decide)
theorem V1_t (d : Dev nD) : V1 m d t' = m (tLoc d) := (opIn (F := F)).result_of_not_mem (V0 m d) (b := t') (show t' ∉ ({i'} : Finset (DevRef τ sig)) by decide)
theorem V1_o (d : Dev nD) : V1 m d o' = m (oLoc d) := (opIn (F := F)).result_of_not_mem (V0 m d) (b := o') (show o' ∉ ({i'} : Finset (DevRef τ sig)) by decide)
theorem V1_r (d : Dev nD) : V1 m d r' = m (rLoc d) := (opIn (F := F)).result_of_not_mem (V0 m d) (b := r') (show r' ∉ ({i'} : Finset (DevRef τ sig)) by decide)
theorem V1_i (d : Dev nD) : V1 m d i' = fiOf m d :=
  StableHlo.reshape_result main_arg0 main_v0 rfl shapeCasts_S4096x200_S32x400x64 ⟨by decide, rfl⟩ ⟨by decide, rfl⟩ (V0 m d)

theorem V2_x (d : Dev nD) : V2 m d x' = m (xLoc d) := (Function.update_of_ne (show x' ≠ o' by decide) _ _).trans (V1_x m d)
theorem V2_t (d : Dev nD) : V2 m d t' = m (tLoc d) := (Function.update_of_ne (show t' ≠ o' by decide) _ _).trans (V1_t m d)
theorem V2_i (d : Dev nD) : V2 m d i' = fiOf m d := (Function.update_of_ne (show i' ≠ o' by decide) _ _).trans (V1_i m d)
theorem V2_r (d : Dev nD) : V2 m d r' = m (rLoc d) := (Function.update_of_ne (show r' ≠ o' by decide) _ _).trans (V1_r m d)
theorem V2_o (d : Dev nD) : V2 m d o' = gathered d (fiOf m d) (ftOf m d) := Function.update_self _ _ _

theorem V3_x (d : Dev nD) : V3 m d x' = m (xLoc d) :=
  ((opOut (F := F)).result_of_not_mem (V2 m d) (b := x') (show x' ∉ ({r'} : Finset (DevRef τ sig)) by decide)).trans (V2_x m d)
theorem V3_t (d : Dev nD) : V3 m d t' = m (tLoc d) :=
  ((opOut (F := F)).result_of_not_mem (V2 m d) (b := t') (show t' ∉ ({r'} : Finset (DevRef τ sig)) by decide)).trans (V2_t m d)
theorem V3_r (d : Dev nD) : V3 m d r' = result d (m (xLoc d)) (m (tLoc d)) := by
  refine (StableHlo.reshape_result main_v1 main_v2 rfl shapeCasts_S819200x128_S4096x200x128 ⟨by decide, rfl⟩ ⟨by decide, rfl⟩ (V2 m d)).trans ?_
  show (fun i => shapeCast S4096x200x128 (V2 m d o') shapeCasts_S819200x128_S4096x200x128 i) = _
  rw [V2_o]; rfl

theorem hIn : (opIn (F := F)).bufs ⊆ S5 := show ({x', i'} : Finset (DevRef τ sig)) ⊆ S5 by decide
theorem hOut : (opOut (F := F)).bufs ⊆ S5 := show ({o', r'} : Finset (DevRef τ sig)) ⊆ S5 by decide

theorem V3_i (d : Dev nD) : V3 m d i' = fiOf m d :=
  ((opOut (F := F)).result_of_not_mem (V2 m d) (b := i') (show i' ∉ ({r'} : Finset (DevRef τ sig)) by decide)).trans (V2_i m d)
theorem V3_o (d : Dev nD) : V3 m d o' = gathered d (fiOf m d) (ftOf m d) :=
  ((opOut (F := F)).result_of_not_mem (V2 m d) (b := o') (show o' ∉ ({r'} : Finset (DevRef τ sig)) by decide)).trans (V2_o m d)

/-- After the first reshape: the arguments and the two results as the launch left them, the index lists filled. -/
theorem held_V1 (d : Dev nD) : (held (T d) S5 ((opIn (F := F)).result (V0 m d)) : sProp 𝕄)
    = iprop((xLoc d ↦{fullShare} m (xLoc d)) ∗ (tLoc d ↦{fullShare} m (tLoc d)) ∗ (iLoc d ↦{fullShare} fiOf m d)
      ∗ (oLoc d ↦{fullShare} m (oLoc d)) ∗ (rLoc d ↦{fullShare} m (rLoc d))) := by
  show held (T d) S5 (V1 m d) = _
  rw [held_S5, V1_x, V1_t, V1_i, V1_o, V1_r]

/-- After the call: the flat result at the gathered rows. -/
theorem held_V2 (d : Dev nD) : (held (T d) S5 (V2 m d) : sProp 𝕄)
    = iprop((xLoc d ↦{fullShare} m (xLoc d)) ∗ (tLoc d ↦{fullShare} m (tLoc d)) ∗ (iLoc d ↦{fullShare} fiOf m d)
      ∗ (oLoc d ↦{fullShare} gathered d (fiOf m d) (ftOf m d)) ∗ (rLoc d ↦{fullShare} m (rLoc d))) := by
  rw [held_S5, V2_x, V2_t, V2_i, V2_o, V2_r]

/-- After the second reshape: the result is the lookup. -/
theorem held_V3 (d : Dev nD) : (held (T d) S5 ((opOut (F := F)).result (V2 m d)) : sProp 𝕄)
    = iprop((xLoc d ↦{fullShare} m (xLoc d)) ∗ (tLoc d ↦{fullShare} m (tLoc d)) ∗ (iLoc d ↦{fullShare} fiOf m d)
      ∗ (oLoc d ↦{fullShare} gathered d (fiOf m d) (ftOf m d)) ∗ (rLoc d ↦{fullShare} result d (m (xLoc d)) (m (tLoc d)))) := by
  show held (T d) S5 (V3 m d) = _
  rw [held_S5, V3_x, V3_t, V3_i, V3_o, V3_r]

/-! ## The call's operands and results, as the workers' pieces -/

theorem st0_eq (d : Dev nD) :
    (bigSep Finset.univ fun c : Fin ((K (F := F)).nCore 0) => (P m).st 0 d c)
      = bigSep Finset.univ fun w : Fin 32 => piece d (fiOf m d) (ftOf m d) (m (oLoc d)) w.val := by
  rw [bigSep_workers (F := F) (piece d (fiOf m d) (ftOf m d) (m (oLoc d)))]; rfl

theorem dn0_eq (d : Dev nD) :
    (bigSep Finset.univ fun c : Fin ((K (F := F)).nCore 0) => (P m).dn 0 d c)
      = bigSep Finset.univ fun w : Fin 32 => piece d (fiOf m d) (ftOf m d) (gathered d (fiOf m d) (ftOf m d)) w.val := by
  rw [bigSep_workers (F := F) (piece d (fiOf m d) (ftOf m d) (gathered d (fiOf m d) (ftOf m d)))]; rfl

/-! ## @main on the TensorCore -/

/-- What @main leaves the claim: the arguments at their launch contents, the result at the lookup. -/
abbrev FIN (d : Dev nD) : sProp 𝕄 :=
  iprop((xLoc d ↦{fullShare} m (xLoc d)) ∗ (tLoc d ↦{fullShare} m (tLoc d)) ∗ (rLoc d ↦{fullShare} result d (m (xLoc d)) (m (tLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the row numbers re-read as the index lists
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Hx, Ht, Hi, Ho, Hr⟩
  -- the lists, the table and the flat result cut into the table's remainder and the 32 workers' pieces
  ihave Hp := (whole_eq_pieces d (fiOf m d) (ftOf m d) (m (oLoc d))).1 $$ [Hi Ht Ho]
  · isplitl [Hi]; · iexact Hi
    isplitl [Ht]; · iexact Ht
    iexact Ho
  icases Hp with ⟨Hrem, Hpieces⟩
  -- the call: the pieces to the two SparseCores and back, every worker's rows filled
  iapply ((K (F := F)).wp_run (D (F := F)) 𝒱 (EH := EH) (P := P m) κ d 0) $$ [Hst Hpieces Hb Hx Hr Hrem]
  isplitr; · iexact Hctx
  isplitl [Hst]; · iexact Hst
  isplitl [Hpieces]
  · rw [st0_eq]; iexact Hpieces
  iintro ⟨Hst, Hdn⟩
  ihave Hdn' := (Entails.of_eq (dn0_eq m d)) $$ Hdn
  ihave Hw := (whole_eq_pieces d (fiOf m d) (ftOf m d) (gathered d (fiOf m d) (ftOf m d))).2 $$ [Hrem Hdn']
  · isplitl [Hrem]; · iexact Hrem
    iexact Hdn'
  icases Hw with ⟨Hi, Ht, Ho⟩
  -- the second reshape: the flat result re-read as the lookup
  iapply (wp_hlo_within 𝒱 (SparseCore.T d) none Set.univ (op := opOut) (S := S5) hOut (V := V2 m d)) $$ [Hb Hx Ht Hi Ho Hr]
  · isplitl [Hb]; · iexact Hb
    rw [held_V2]
    isplitl [Hx]; · iexact Hx
    isplitl [Ht]; · iexact Ht
    isplitl [Hi]; · iexact Hi
    isplitl [Ho]; · iexact Ho
    iexact Hr
  iintro ⟨Hb, Hheld⟩
  ihave Hh := (Entails.of_eq (held_V3 m d)) $$ Hheld
  icases Hh with ⟨Hx, Ht, -, -, Hr⟩
  rw [wp_ret]; imodintro; imodintro
  isplitl [Hst]; · iexact Hst
  isplitl [Hx]; · iexact Hx
  isplitl [Ht]; · iexact Ht
  iexact Hr

/-! ## The final memory reads the claim -/

def fq (d : Dev nD) (s' : Phys nD τ sig (Elt F)) : Prop :=
  s'.mem.mem (rLoc d) = result d (m (xLoc d)) (m (tLoc d)) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := result d (m (xLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.KB

/-! ## The program's run -/

open Cert.Kernel Idealize.ShloMosaic Idealize.SL Idealize.SL.BI Idealize.SL.BI.Laws Idealize.SL.Sem in
/-- Every weakly fair execution of the device's threads from a launch memory whose row numbers all name table rows
    terminates, nothing faulting, the result the lookup of the launch's row numbers in the launch's table, both
    arguments unchanged. -/
theorem Cert.KB.run_main {F : FTy → Type} [FloatOps F] [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩
      (fun r => ∀ c : Dev nD, r.2.mem (rLoc c) = result c (m (xLoc c)) (m (tLoc c)) ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = result c (m (xLoc c)) (m (tLoc c)) ∧ r.2.mem (xLoc c) = m (xLoc c) ∧ r.2.mem (tLoc c) = m (tLoc c))
    (fun _ h => h)

end
-- ==== Proof.PreDecode.lean ====
/-
  What the precondition says of the row numbers. The precondition is one bit: the conjunction of two "for every
  entry" statements, each printed as the reduction by `and`, from the bit 1, of an array of bits. The first says
  every table entry is finite; the second says every row number x[b, h], read as a SIGNED 32-bit word, lies
  between 0 and 100001. From the second alone: every row number, read UNSIGNED, is below 100002, since a word
  that is nonnegative as a signed number reads the same unsigned.
-/
import Idealize.ShloMosaic.Lib.ReduceAll
import Idealize.ShloMosaic.Lib.ValueIdx
import proofs.«206746_g85272280694944_cont_9to1c4b_772_17_alg».proof.Pre_input_domain

namespace Cert.PreDecode

open Idealize.ShloMosaic

/-- The scalar shape has one index. -/
instance : Subsingleton Cert.Pre_input_domain.S_.Idx := ⟨fun a b => funext fun d => d.elim0⟩

/-- A word between 0 and 100001 as a signed number is below 100002 as an unsigned one: its sign bit is clear,
    so the two readings agree. -/
theorem word_in_range (v : BitVec 32)
    (e : IntOp.andi (IntOp.cmpi .sge v 0#32) (IntOp.cmpi .sle v 100001#32) = 1#1) : v.toNat < 100002 := by
  obtain ⟨h0, h1⟩ := IntOp.andi_eq_one.1 e
  rw [IntOp.cmpi_sge, show (0#32 : BitVec 32).toInt = 0 from by decide] at h0
  rw [IntOp.cmpi_sle, show (100001#32 : BitVec 32).toInt = 100001 from by decide] at h1
  rw [BitVec.toInt_eq_toNat_cond] at h0 h1
  split at h0 <;> omega

/-- Under the precondition every row number names a row of the table. -/
theorem idx_in_range {F : FTy → Type} [FloatOps F] [Cert.Pre_input_domain.Facts]
    (x : IVec Cert.Pre_input_domain.S4096x200 32) (t : FVec F Cert.Pre_input_domain.S100002x128 .f32)
    (h : Cert.Pre_input_domain.fn (F := F) x t = fun _ => 1#1) : ∀ j, (x j).toNat < 100002 := by
  intro j
  have e := congrFun h ValueIdx.ix0
  dsimp only [Cert.Pre_input_domain.fn] at e
  -- the bit is the `and` of the two reductions; keep the one over the row numbers
  obtain ⟨-, e9⟩ := IntOp.andi_eq_one.1 e
  -- a reduction by `and` that came out 1 met a 1 at every entry
  have ej := Host.reduce_andi_all _ _ _ _ _ e9 j
  simp only [andi, cmpi, broadcastInDim, constantI] at ej
  exact word_in_range _ ej

end Cert.PreDecode
-- ==== Proof.LookupLayout.lean ====
/-
  The flat layout, re-read as rank 3, is the lookup: an equation between row-major positions.

  A change of shape keeps every element at its row-major position. Entry (b, h, c) of the 4096 × 200 × 128 result
  has position (b·200 + h)·128 + c, which in the flat 819200 × 128 array is row r = b·200 + h, column c. That row
  is the table row named by entry r of the index list read as 32 × 400 × 64, whose own position is
  (r / 25600)·25600 + (r % 25600 / 64)·64 + r % 64 = r; in the 4096 × 200 array of row numbers, position
  r = b·200 + h is entry (b, h). So both sides read column c of the table row x[b, h] names.

  A property of every element survives a change of shape, the elements being the same ones.
-/
import Idealize.ShloMosaic.Lib.Pipeline.Value
import proofs.«206746_g85272280694944_cont_9to1c4b_772_17_alg».proof.Proof.Spec

namespace Cert.Emb

open Idealize.ShloMosaic Idealize.ShloMosaic.ValueIdx

/-- Row r = b·200 + h of the flat layout, for b < 4096 and h < 200. -/
def flatRow (b : Fin 4096) (h : Fin 200) : Fin 819200 :=
  ⟨b.val * 200 + h.val, by have := b.isLt; have := h.isLt; omega⟩

/-- Entry r = b·200 + h of the index list read as 32 × 400 × 64 is entry (b, h) of the 4096 × 200 array: the two
    have the same row-major position. -/
theorem cast_flatIx (x : SX.Idx → BitVec 32) (h1 : SX.ShapeCasts SI) (b : Fin 4096) (h : Fin 200) :
    shapeCast SI x h1 (flatIx (flatRow b h)) = x (ix2 b h) := by
  refine shapeCast_apply x h1 _ _ ?_
  rw [Shape.rowMajor_val_two, Shape.rowMajor_val_three]
  show b.val * 200 + h.val
    = ((b.val * 200 + h.val) / 25600 * 400 + (b.val * 200 + h.val) % 25600 / 64) * 64 + (b.val * 200 + h.val) % 64
  omega

/-- Entry (b, h, c) of the flat layout re-read as rank 3 is its entry (b·200 + h, c): the same row-major
    position, (b·200 + h)·128 + c. -/
theorem cast_flat {α : Type} (g : SO.Idx → α) (h2 : SO.ShapeCasts SR) (b : Fin 4096) (h : Fin 200) (c : Fin 128) :
    shapeCast SR g h2 (ix3 b h c) = g (ix2 (flatRow b h) c) := by
  refine shapeCast_apply g h2 _ _ ?_
  rw [Shape.rowMajor_val_two, Shape.rowMajor_val_three]
  rfl

/-- The flat layout of the rows, re-read as rank 3, is the lookup. -/
theorem cast_gath_cast {α : Type} (x : SX.Idx → BitVec 32) (t : ST.Idx → α)
    (h1 : SX.ShapeCasts SI) (h2 : SO.ShapeCasts SR) :
    shapeCast SR (gath (shapeCast SI x h1) t) h2 = take x t := by
  funext j
  obtain ⟨b, h, c, rfl⟩ : ∃ (b : Fin 4096) (h : Fin 200) (c : Fin 128), j = ix3 b h c := ⟨j 0, j 1, j 2, eq_ix3 j⟩
  rw [cast_flat]
  show rowAt t (shapeCast SI x h1 (flatIx (flatRow b h))) c = rowAt t (x (ix2 b h)) c
  rw [cast_flatIx]

/-- What holds of every element holds of every element after a change of shape. -/
theorem cast_all {β : Type} (P : β → Prop) (s t : Shape) (x : s.Idx → β) (h : s.ShapeCasts t)
    (hx : ∀ k, P (x k)) : ∀ j, P (shapeCast t x h j) :=
  fun _ => hx _

end Cert.Emb
-- ==== Proof.RefRun.lean ====
/-
  The reference program's run. The reference is the lookup `take(table, x, axis = 0)`: @main calls one outlined
  function, which calls a second (the three-way select), twenty-three host operations in all once the calls are
  unfolded at their buffers —
    the wrap of a negative row number (x < 0 ? x + 100002 : x), six operations and the select;
    the row numbers as start indices of shape 4096 × 200 × 1;
    the bounds mask 0 ≤ start ≤ 100001, reduced (by `and`) over the trailing axis of length one;
    the gather of whole rows of the table at the start indices;
    the select between the gathered rows and a constant fill, by the mask broadcast along the row.
  This module names the composed term of the two arguments the line leaves in the result buffer (`refTerm`), lists
  the operations, shows @main is that straight line, and states its run: every weakly fair execution terminates with
  every buffer at the fold of the operations over the launch contents. The fold at the result and argument buffers is
  read in RefFold.lean; what the term is at an index, in RefValue.lean.
-/
import proofs.«206746_g85272280694944_cont_9to1c4b_772_17_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The dimension numbers of the gather: whole rows (slice 1 × 128) of the table, one per start index, the row
    axis collapsed, the column axis the result's last. -/
abbrev gdims : GatherDims S100002x128 S4096x200x1 S4096x200x128 :=
  gather_S100002x128_S4096x200x1_S4096x200x128_2_0_n_n_0_2_1128

/-! ## The composed term -/

/-- The row numbers with a negative one wrapped: x < 0 ? x + 100002 : x. -/
def wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100002#32))) x

/-- The wrapped row numbers as the gather's start indices, one index vector of length one per (b, h). -/
def starts (x : IVec S4096x200 32) : IVec S4096x200x1 32 :=
  broadcastInDim S4096x200x1 ![0, 1] bcast_S4096x200_S4096x200x1_0_1 (wrapped x)

/-- The bounds mask: 0 ≤ start ≤ 100001, the conjunction over the index vector's one component. -/
def inBounds (x : IVec S4096x200 32) : IVec S4096x200 1 :=
  Host.reduce IntOp.andi
    (andi
      (cmpi .sge (starts x) (broadcastInDim S4096x200x1 ![] bcast_S_S4096x200x1 (constantI S_ 32 0#32)))
      (cmpi .sle (starts x)
        (broadcastInDim S4096x200x1 ![0, 1, 2] bcast_S1x1x1_S4096x200x1_0_1_2
          (broadcastInDim S1x1x1 ![2] bcast_S1_S1x1x1_2 (constantI S1 32 100001#32)))))
    (constantI S_ 1 1#1) reducesTo_S4096x200x1_S4096x200_d2 h_S_

/-- What @main leaves in its result buffer, as a function of the row numbers and the table: the gathered rows where
    the mask holds, the fill elsewhere. -/
def refTerm (x : IVec S4096x200 32) (t : FVec F S100002x128 .f32) : FVec F S4096x200x128 .f32 :=
  select (broadcastInDim S4096x200x128 ![0, 1] bcast_S4096x200_S4096x200x128_0_1 (inBounds x))
    (Host.gather gdims t (starts x))
    (broadcastInDim S4096x200x128 ![] bcast_S_S4096x200x128 (constant S_ .f32 0x7FC00000#32))

/-! ## The operations -/

/-- @main's twenty-three operations in order, the two calls unfolded over the call's buffer record: the outlined
    lookup's operands are the table (`main_arg1`) and the row numbers (`main_arg0`); the three-way select is the
    seventh. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 100002#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 100001#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S4096x200x1_S4096x200_d2 h_S_),
    TRef.binary (.of main_arg1 : TRef sig ⟨S100002x128, .f32⟩) main_call0.v5 main_call0.v13
      (fun x i => Host.gather gdims x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

-- twenty-three sequenced steps re-associated under the two unfolded calls: a chain deeper than the default bound
set_option maxRecDepth 4096 in
/-- @main is that straight line: the two functions' definitions unfolded at their calls, both sides are one chain of
    host steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of @main terminates, and
    every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefFold.lean ====
/-
  The fold of the reference's twenty-three operations, read at the three buffers the claim speaks of. Each operation
  rewrites only its own result buffer, so the fold at the result buffer is the operations' functions composed in
  order over the two arguments' launch contents (`refTerm`), and at an argument buffer, which no operation writes,
  it is what was there. An operation of an outlined function is stated over its values' types and moved to its
  buffers' types along the equation between the two; at these buffers that equation is between a type and itself,
  and the transport is the identity.
-/
import proofs.«206746_g85272280694944_cont_9to1c4b_772_17_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- A transport along an equation between a type and itself is the identity. Stated as an equation to rewrite with,
    one transport at a time: the reduction and the gather under the transports are folds and searches over hundreds
    of thousands of indices, never to be compared by unfolding. -/
theorem cast_self {α : Type} (h : α = α) (a : α) : cast h a = a := by
  rw [cast_eq]

/-- The result buffer after the line: the composed term of the two arguments' launch contents. Each operation's
    result is its function's value at its own buffer and what was there at any other; the transports between a
    value's type and its buffer's are the identity; what is left is the term with its three uses of the start
    indices written out. -/
theorem after_result (V : Valuation τ sig (Elt F)) :
    after ops V (main_v0 : DevRef τ sig) = refTerm (V (main_arg0 : DevRef τ sig)) (V (main_arg1 : DevRef τ sig)) := by
  after_results_simp
  simp only [TRef.toBuf, TRef.ofBuf, cast_self]
  unfold refTerm inBounds starts wrapped
  rfl

/-- No operation writes the row numbers' buffer. -/
theorem after_arg0 (V : Valuation τ sig (Elt F)) :
    after ops V (main_arg0 : DevRef τ sig) = V (main_arg0 : DevRef τ sig) := by
  after_results_simp

/-- No operation writes the table's buffer. -/
theorem after_arg1 (V : Valuation τ sig (Elt F)) :
    after ops V (main_arg1 : DevRef τ sig) = V (main_arg1 : DevRef τ sig) := by
  after_results_simp

/-- For any float values, from any memory with zero counters: every weakly fair execution of @main terminates with
    the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (after_result _),
      (h c main_arg0).trans (after_arg0 _), (h c main_arg1).trans (after_arg1 _)⟩)
    (run_fold m ρ)

end Cert.RefSide

end
-- ==== Proof.RefValue.lean ====
/-
  The reference's composed term read at an index, where every row number, read as a natural number, is below
  100002 (the table's row count). Such a 32-bit word is non-negative as a signed integer and equal to its
  natural-number reading, so:
    the wrap x < 0 ? x + 100002 : x keeps x;
    both comparisons of the bounds mask 0 ≤ start ≤ 100001 hold, and the mask's reduction by `and` over the one
    component of each index vector, started at 1, is 1 everywhere;
    the gather's clamp of the start index into [0, 100001] is the identity, so result element (b, h, c) reads the
    table at row x[b, h], column c;
    the select by the all-ones mask keeps the gathered element and never the fill.
  Hence the term is the lookup of the specification, and the reference's run ends with the lookup in its result
  buffer and its arguments unchanged.
-/
import proofs.«206746_g85272280694944_cont_9to1c4b_772_17_alg».proof.Proof.RefFold
import proofs.«206746_g85272280694944_cont_9to1c4b_772_17_alg».proof.Proof.Spec
import Idealize.ShloMosaic.Lib.ValueIdx
import Idealize.ShloMosaic.PureOps.Reduce

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-! ## Words below the row count -/

/-- A 32-bit word below 100002 is, read signed, its natural-number reading. -/
theorem toInt_small {w : BitVec 32} (h : w.toNat < 100002) : w.toInt = (w.toNat : Int) :=
  BitVec.toInt_eq_toNat_of_lt (by omega)

/-- … so it is not negative: `w < 0` (signed) is the bit 0 … -/
theorem slt_zero {w : BitVec 32} (h : w.toNat < 100002) : IntOp.cmpi .slt w 0#32 = 0#1 := by
  have e := toInt_small h
  show BitVec.ofBool (w.slt 0#32) = 0#1
  rw [BitVec.slt_eq_decide, e, BitVec.toInt_zero, decide_eq_false (by omega)]
  rfl

/-- … `w ≥ 0` (signed) is the bit 1 … -/
theorem sge_zero {w : BitVec 32} (h : w.toNat < 100002) : IntOp.cmpi .sge w 0#32 = 1#1 := by
  have e := toInt_small h
  show BitVec.ofBool ((0#32).sle w) = 1#1
  rw [BitVec.sle_eq_decide, e, BitVec.toInt_zero, decide_eq_true (by omega)]
  rfl

/-- … and `w ≤ 100001` (signed) is the bit 1. -/
theorem sle_top {w : BitVec 32} (h : w.toNat < 100002) : IntOp.cmpi .sle w 100001#32 = 1#1 := by
  have e := toInt_small h
  have e' : (100001#32).toInt = 100001 := by decide
  show BitVec.ofBool (w.sle 100001#32) = 1#1
  rw [BitVec.sle_eq_decide, e, e', decide_eq_true (by omega)]
  rfl

/-- A left fold by `and` from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## The gather of whole rows, read at an index -/

/-- Result element (b, h, c) of the gather reads the table at the row the start index `idx[b, h, 0]` names — read
    signed and clamped into [0, 100001], as a gather clamps every start index — and at column c: on the row axis
    (collapsed, the one the start index map names) the operand coordinate is the clamped start, on the column axis
    (the one offset axis, of full width 128) it is the result's last coordinate; there is no batching axis. -/
theorem gather_rows_apply {α : Type} (t : S100002x128.Idx → α) (idx : IVec S4096x200x1 32) (j : S4096x200x128.Idx) :
    Host.gather gdims t idx j
      = t (ix2 (⟨min (idx (ix3 (j 0) (j 1) (0 : Fin 1))).toInt.toNat 100001, by omega⟩ : Fin 100002) (j 2)) := by
  unfold Host.gather
  congr 1
  funext a
  refine Fin.ext ?_
  match a with
  | ⟨0, _⟩ =>
    show gdims.start j idx 0 + gdims.batchCoord j 0 + gdims.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gdims.startIndexMap from List.mem_singleton.mpr rfl)]
    have hsi : gdims.siIdx j ⟨List.idxOf (0 : Fin 2) gdims.startIndexMap,
        List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gdims.start j idx 1 + gdims.batchCoord j 1 + gdims.offCoord j 1 = _
    rw [GatherDims.batchCoord_eq_zero _ _ _ List.not_mem_nil]
    unfold GatherDims.start
    rw [dif_neg (show (1 : Fin 2) ∉ gdims.startIndexMap from by decide)]
    simp only [Nat.zero_add, Nat.add_zero]
    unfold GatherDims.offCoord
    rw [dif_pos (show (1 : Fin 2) ∈ gdims.sKept from by decide)]
    rfl

/-! ## The composed term at an index -/

section Value

variable (x : IVec S4096x200 32) (hx : ∀ j : S4096x200.Idx, (x j).toNat < 100002)
include hx

/-- The wrap keeps every row number: none is negative. -/
theorem wrapped_apply (j : S4096x200.Idx) : wrapped x j = x j := by
  show Scalar.select (IntOp.cmpi .slt (x j) 0#32) (IntOp.addi (x j) 100002#32) (x j) = x j
  rw [slt_zero (hx j)]
  exact select_zero _ _

/-- The start index at (b, h, 0) is the row number x[b, h]. -/
theorem starts_apply (b : Fin 4096) (h : Fin 200) (z : Fin 1) : starts x (ix3 b h z) = x (ix2 b h) := by
  unfold starts broadcastInDim
  rw [wrapped_apply x hx]
  congr 1
  funext a
  match a with
  | ⟨0, _⟩ => rfl
  | ⟨1, _⟩ => rfl

/-- Every start index is one of the row numbers, so below the row count. -/
theorem starts_lt (k : S4096x200x1.Idx) : (starts x k).toNat < 100002 := by
  unfold starts broadcastInDim
  rw [wrapped_apply x hx]
  exact hx _

/-- The bounds mask is 1 everywhere: both comparisons hold at every start index, and the reduction by `and` from 1
    over them is 1. -/
theorem inBounds_apply (j : S4096x200.Idx) : inBounds x j = 1#1 := by
  unfold inBounds
  rw [Host.reduce_eq_foldl]
  refine foldl_andi_one _ _ fun k _ => ?_
  show IntOp.andi (IntOp.cmpi .sge (starts x k) 0#32) (IntOp.cmpi .sle (starts x k) 100001#32) = 1#1
  rw [sge_zero (starts_lt x hx k), sle_top (starts_lt x hx k)]
  rfl

variable {F : FTy → Type} [FloatOps F]

/-- The composed term is the lookup: at (b, h, c) the table at row x[b, h], column c. -/
theorem refTerm_eq_take (t : FVec F S100002x128 .f32) :
    refTerm x t = Cert.Emb.take x t := by
  funext i
  have hw := hx (ix2 (i 0) (i 1))
  unfold refTerm
  rw [select_apply]
  have hm : broadcastInDim S4096x200x128 ![0, 1] bcast_S4096x200_S4096x200x128_0_1 (inBounds x) i = 1#1 :=
    inBounds_apply x hx _
  rw [hm, select_one, gather_rows_apply]
  have e0 : starts x (ix3 (i 0) (i 1) (0 : Fin 1)) = x (ix2 (i 0) (i 1)) := starts_apply x hx _ _ _
  have e : (⟨min (starts x (ix3 (i 0) (i 1) (0 : Fin 1))).toInt.toNat 100001, by omega⟩ : Fin 100002)
      = Cert.Emb.rowOf (x (ix2 (i 0) (i 1))) := by
    apply Fin.ext
    show min (starts x (ix3 (i 0) (i 1) (0 : Fin 1))).toInt.toNat 100001 = _
    rw [e0, Cert.Emb.rowOf_val hw, toInt_small hw, Int.toNat_natCast]
    omega
  exact congrArg (fun r : Fin 100002 => t (ix2 r (i 2))) e

end Value

/-! ## The run -/

/-- From any memory whose row numbers are all below 100002, with zero counters: every weakly fair execution of the
    reference's @main terminates with the lookup of the table at the row numbers in the result buffer and both
    arguments unchanged. -/
theorem ref_run
    (m' : (ℓ : Loc Cert.ReferenceIdeal.nD Cert.ReferenceIdeal.τ Cert.ReferenceIdeal.sig) → Buf (Elt Ideal) ℓ) (g' : Dev Cert.ReferenceIdeal.nD → PrngReg)
    (hx : ∀ (c : Dev Cert.ReferenceIdeal.nD) (j : Cert.ReferenceIdeal.S4096x200.Idx),
        (m' ((c.tc : Thread Cert.ReferenceIdeal.nD Cert.ReferenceIdeal.τ).loc Cert.ReferenceIdeal.main_arg0) j).toNat < 100002) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = Cert.Emb.take (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run defs _ _).mono
    (fun _ h c => ⟨(h c).1.trans (refTerm_eq_take (F := Ideal) _ (hx c) _), (h c).2⟩)
    (run (F := Ideal) m' g')

end Cert.RefSide

end
-- ==== Proof.Claims.lean ====
/-
  The five claims, from the three runs.

  Each program's run is stated with its strongest post: the result buffer named as a function of the launch's
  argument arrays, both arguments unchanged. A frame is such a run with the result forgotten. The precondition's
  one bit says in particular that every row number, read as a natural number, is below the table's row count,
  which is all the runs ask of the launch memory. At the ideal instance the kernel's program ends with the flat
  layout of the gathered rows re-read as rank 3, which is the lookup (an equation between row-major positions),
  and the reference's ends with the lookup; from memories that agree on the two arguments the two lookups are one
  function of equal arguments. The idealization rewrote no operation, so there is nothing for it to preserve.
-/
import proofs.«206746_g85272280694944_cont_9to1c4b_772_17_alg».proof.Defs
import proofs.«206746_g85272280694944_cont_9to1c4b_772_17_alg».proof.Proof.Gen.Kernel
import proofs.«206746_g85272280694944_cont_9to1c4b_772_17_alg».proof.Proof.Gen.KernelIdeal
import proofs.«206746_g85272280694944_cont_9to1c4b_772_17_alg».proof.Proof.Gen.ReferenceIdeal
import proofs.«206746_g85272280694944_cont_9to1c4b_772_17_alg».proof.Proof.Gen.Pre_input_domain
import proofs.«206746_g85272280694944_cont_9to1c4b_772_17_alg».proof.Proof.KI.Launch
import proofs.«206746_g85272280694944_cont_9to1c4b_772_17_alg».proof.Proof.KB.Launch
import proofs.«206746_g85272280694944_cont_9to1c4b_772_17_alg».proof.Proof.PreDecode
import proofs.«206746_g85272280694944_cont_9to1c4b_772_17_alg».proof.Proof.LookupLayout
import proofs.«206746_g85272280694944_cont_9to1c4b_772_17_alg».proof.Proof.RefValue

noncomputable section

namespace Cert.Proof.Claims

open Idealize.ShloMosaic Idealize.SL.Sem

/-- The word-level program runs and leaves its arguments unchanged. -/
theorem frame_p : Cert.frame_Kernel := fun m g hpre =>
  (θ_run Cert.Kernel.defs _ _).mono (fun _ h c => (h c).2)
    (Cert.KB.run_main (F := Bits) m g fun d j => Cert.PreDecode.idx_in_range _ _ (hpre d) j)

/-- So does its idealization. -/
theorem frame_pi : Cert.frame_KernelIdeal := fun m g hpre =>
  (θ_run Cert.KernelIdeal.defs _ _).mono (fun _ h c => (h c).2)
    (Cert.KI.run_main (F := Ideal) m g fun d j => Cert.PreDecode.idx_in_range _ _ (hpre d) j)

/-- So does the reference. -/
theorem frame_ri : Cert.frame_ReferenceIdeal := fun m g hpre =>
  (θ_run Cert.ReferenceIdeal.defs _ _).mono (fun _ h c => (h c).2)
    (Cert.RefSide.ref_run m g fun c j => Cert.PreDecode.idx_in_range _ _ (hpre c) j)

/-- No operation was rewritten. -/
theorem preserves : Cert.preserves_Kernel_KernelIdeal := trivial

/-- The flat layout of the gathered rows, re-read as rank 3, is the lookup. -/
theorem result_eq_take (c : Dev Cert.KernelIdeal.nD) (x : Buf (Elt Ideal) (Cert.KI.xLoc c)) (t : Buf (Elt Ideal) (Cert.KI.tLoc c)) :
    Cert.KI.result c x t = Cert.Emb.take x t := by
  unfold Cert.KI.result Cert.KI.gathered Cert.KI.idx3
  exact Cert.Emb.cast_gath_cast _ _ _ _

/-- At the ideal instance both programs end with the lookup of the table at the row numbers. -/
theorem algebraic : Cert.algebraic_KernelIdeal_ReferenceIdeal := by
  intro m g m' g' hpre hagree
  have hok : Cert.KI.PreOK m := fun d j => Cert.PreDecode.idx_in_range _ _ (hpre d) j
  refine ⟨fun c => Cert.Emb.take (m (Cert.KI.xLoc c)) (m (Cert.KI.tLoc c)), ?_, ?_⟩
  · exact (θ_run Cert.KernelIdeal.defs _ _).mono (fun _ h c => ⟨(h c).1.trans (result_eq_take c _ _), (h c).2⟩)
      (Cert.KI.run_main (F := Ideal) m g hok)
  · refine (θ_run Cert.ReferenceIdeal.defs _ _).mono (fun _ h c => ⟨(h c).1.trans ?hv, (h c).2⟩)
      (Cert.RefSide.ref_run m' g' fun c j => ?hx)
    case hv => rw [(hagree c).1, (hagree c).2]
    case hx => rw [(hagree c).1]; exact hok c j

end Cert.Proof.Claims

end
-- ==== Proof.lean ====
/-
  An embedding lookup on the SparseCore against jnp.take. The table has 100002 rows of 128 floats; x is a
  4096 × 200 array of row numbers; the result's entry (b, h, c) is the table's entry (x[b, h], c).

  The reference wraps negative row numbers, masks the numbers outside [0, 100001], gathers whole rows and selects
  a fill where the mask is off. Under the precondition (every row number lies in [0, 100001], read as signed
  words) nothing is wrapped, the mask is all ones and the fill is never selected: the reference returns the lookup.

  The kernel re-reads x as 32 lists of 400 chunks of 64 numbers, one list per vector subcore (subcore s of
  SparseCore c is worker w = 2 s + c). Worker w fetches its list, then for each chunk gathers the 64 table rows its
  numbers name into one of eight row slots and copies the slot out to rows 25600 w + 64 n … of an 819200 × 128
  array, eight gathers in flight at a time, each slot with its own pair of semaphores; the array is re-read as
  4096 × 200 × 128. Row r of the flat array is the table row named by entry r of x in row-major order, and entry
  (b, h) of x is entry b · 200 + h: re-read as rank 3 the flat array is the lookup. No arithmetic is done on the
  floats, so the two programs agree at every float instance; the statement asks it at the extended reals.

  The three frames: each program's run ends, faults nowhere and leaves x and the table as they were — for the kernel
  (at words and at the extended reals) the run through the SparseCore launch with the subcores' tasks proved once at
  a symbolic subcore, for the reference its run of host operations. The ideal pass rewrote nothing, so the
  idealization claim is trivial. The proofs are in the modules imported below.
-/
import proofs.«206746_g85272280694944_cont_9to1c4b_772_17_alg».proof.Defs
import proofs.«206746_g85272280694944_cont_9to1c4b_772_17_alg».proof.Proof.Gen.Kernel
import proofs.«206746_g85272280694944_cont_9to1c4b_772_17_alg».proof.Proof.Gen.Kernel.Skeleton
import proofs.«206746_g85272280694944_cont_9to1c4b_772_17_alg».proof.Proof.Gen.KernelIdeal
import proofs.«206746_g85272280694944_cont_9to1c4b_772_17_alg».proof.Proof.Gen.KernelIdeal.Skeleton
import proofs.«206746_g85272280694944_cont_9to1c4b_772_17_alg».proof.Proof.Gen.ReferenceIdeal
import proofs.«206746_g85272280694944_cont_9to1c4b_772_17_alg».proof.Proof.Gen.Pre_input_domain
import proofs.«206746_g85272280694944_cont_9to1c4b_772_17_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Cert.Proof.Claims.frame_p, Cert.Proof.Claims.frame_pi, Cert.Proof.Claims.frame_ri, Cert.Proof.Claims.preserves,
    Cert.Proof.Claims.algebraic⟩

end Cert.Proof

end
